-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S256 .f32) (main_arg8 : FVec F S256x128 .f32) (main_arg9 : FVec F S128 .f32) (main_arg10 : FVec F S128x1 .f32) (main_arg11 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S128x256 .f32) (main_arg5 : FVec F S256 .f32) (main_arg6 : FVec F S256x256 .f32) (main_arg7 : FVec F S256 .f32) (main_arg8 : FVec F S256x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x128 .f32) (main_arg1 : FVec F S8192x8192 .f32) (main_arg2 : FVec F S128 .f32) (main_arg3 : FVec F S128 .f32) (main_arg4 : FVec F S128x256 .f32) (main_arg5 : FVec F S256 .f32) (main_arg6 : FVec F S256x256 .f32) (main_arg7 : FVec F S256 .f32) (main_arg8 : FVec F S256x128 .f32) (main_arg9 : FVec F S128 .f32) (main_arg10 : FVec F S128x1 .f32) (main_arg11 : FVec F S1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S_ : Shape := ⟨0, ![]⟩
abbrev S1x128 : Shape := ⟨2, ![1, 128]⟩
abbrev S1x256 : Shape := ⟨2, ![1, 256]⟩
abbrev S8192x256 : Shape := ⟨2, ![8192, 256]⟩
abbrev S2048x1024 : Shape := ⟨2, ![2048, 1024]⟩
abbrev S2048x256 : Shape := ⟨2, ![2048, 256]⟩
abbrev S1024x128 : Shape := ⟨2, ![1024, 128]⟩
abbrev S1024x256 : Shape := ⟨2, ![1024, 256]⟩
abbrev S1x1 : Shape := ⟨2, ![1, 1]⟩
abbrev S8192x1 : Shape := ⟨2, ![8192, 1]⟩
abbrev S2048x1 : Shape := ⟨2, ![2048, 1]⟩
abbrev S2048x128 : Shape := ⟨2, ![2048, 128]⟩

abbrev nBuf : Space → Nat
  | .hbm => 68
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S8192x128, .f32⟩
  | .hbm, ⟨49, _⟩ => ⟨S8192x128, .f32⟩
  | .hbm, ⟨50, _⟩ => ⟨S1x128, .f32⟩
  | .hbm, ⟨51, _⟩ => ⟨S8192x128, .f32⟩
  | .hbm, ⟨52, _⟩ => ⟨S8192x128, .f32⟩
  | .hbm, ⟨53, _⟩ => ⟨S1x128, .f32⟩
  | .hbm, ⟨54, _⟩ => ⟨S8192x128, .f32⟩
  | .hbm, ⟨55, _⟩ => ⟨S8192x128, .f32⟩
  | .hbm, ⟨56, _⟩ => ⟨S8192x128, .bf16⟩
  | .hbm, ⟨57, _⟩ => ⟨S128x256, .bf16⟩
  | .hbm, ⟨58, _⟩ => ⟨S1x256, .f32⟩
  | .hbm, ⟨59, _⟩ => ⟨S8192x256, .f32⟩
  | .hbm, ⟨60, _⟩ => ⟨S8192x256, .bf16⟩
  | .hbm, ⟨61, _⟩ => ⟨S256x256, .bf16⟩
  | .hbm, ⟨62, _⟩ => ⟨S1x256, .f32⟩
  | .hbm, ⟨63, _⟩ => ⟨S256x128, .bf16⟩
  | .hbm, ⟨64, _⟩ => ⟨S1x128, .f32⟩
  | .hbm, ⟨65, _⟩ => ⟨S128x1, .bf16⟩
  | .hbm, ⟨66, _⟩ => ⟨S1x1, .f32⟩
  | .hbm, ⟨67, _⟩ => ⟨S8192x1, .f32⟩
  | .local _ .vmem, ⟨0, _⟩ => ⟨S2048x1024, .f32⟩
  | .local _ .vmem, ⟨1, _⟩ => ⟨S2048x1024, .f32⟩
  | .local _ .vmem, ⟨2, _⟩ => ⟨S8192x128, .bf16⟩
  | .local _ .vmem, ⟨3, _⟩ => ⟨S128x256, .bf16⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x1024, .f32⟩
  | .local _ .vmem, ⟨9, _⟩ => ⟨S2048x1024, .f32⟩
  | .local _ .vmem, ⟨10, _⟩ => ⟨S8192x256, .bf16⟩
  | .local _ .vmem, ⟨11, _⟩ => ⟨S256x256, .bf16⟩
  | .local _ .vmem, ⟨12, _⟩ => ⟨S1x256, .f32⟩
  | .local _ .vmem, ⟨13, _⟩ => ⟨S256x128, .bf16⟩
  | .local _ .vmem, ⟨14, _⟩ => ⟨S1x128, .f32⟩
  | .local _ .vmem, ⟨15, _⟩ => ⟨S128x1, .bf16⟩
  | .local _ .vmem, ⟨16, _⟩ => ⟨S1x1, .f32⟩
  | .local _ .vmem, ⟨17, _⟩ => ⟨S2048x1, .f32⟩
  | .local _ .vmem, ⟨18, _⟩ => ⟨S2048x1, .f32⟩
  | .local _ .vmem, ⟨19, _⟩ => ⟨S2048x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst_1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_10 : BitVec 32 := 0#32
  let v22 : BitVec 1 := Scalar.cmpi .ne v21 c0_i32_10
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x1 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S2048x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  bitsLt_bf16_f32 : FTy.bits .bf16 < FTy.bits .f32
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  h_S1024x128 : 0 < S1024x128.numel
  shapeCasts_S1024x128_S1024x128 : S1024x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2048x1024_S2048x1024_0_0 : ∀ a, (![0, 0] : Fin 2 → Nat) a + S2048x1024.size a ≤ S2048x1024.size a
  h_S2048x1024 : 0 < S2048x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S128_S1x128 : S128.ShapeCasts S1x128
  shapeCasts_S1_S1x1 : S1.ShapeCasts S1x1
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S1024x128_S128x256_S1024x256_1_0_0_1_n_n_wf : DotDims.WF S1024x128 S128x256 S1024x256 [1] [0] [0] [1] [] []
  dot_S2048x1024_S1024x256_S2048x256_1_0_0_1_n_n_wf : DotDims.WF S2048x1024 S1024x256 S2048x256 [1] [0] [0] [1] [] []
  dot_S1024x256_S256x256_S1024x256_1_0_0_1_n_n_wf : DotDims.WF S1024x256 S256x256 S1024x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .f32 = 32 ∨ (Rect.block (s := S8192x256) S2048x256.size (cc0_transform_4 i) (hinb0_4 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .bf16 = 32 ∨ (Rect.block (s := S128x1) S128x1.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x1.size a ≤ S8192x1.size a
  hwx1_8 : ∀ i : grid1.Coords, EltTy.bits .f32 = 32 ∨ (Rect.block (s := S8192x1) S2048x1.size (cc1_transform_8 i) (hinb1_8 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S2048x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S_ : Shape := ⟨0, ![]⟩
abbrev S1x128 : Shape := ⟨2, ![1, 128]⟩
abbrev S8192x256 : Shape := ⟨2, ![8192, 256]⟩
abbrev S1x256 : Shape := ⟨2, ![1, 256]⟩
abbrev S8192x1 : Shape := ⟨2, ![8192, 1]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S8192x128, .f32⟩
  | .hbm, ⟨49, _⟩ => ⟨S8192x128, .f32⟩
  | .hbm, ⟨50, _⟩ => ⟨S1x128, .f32⟩
  | .hbm, ⟨51, _⟩ => ⟨S8192x128, .f32⟩
  | .hbm, ⟨52, _⟩ => ⟨S8192x128, .f32⟩
  | .hbm, ⟨53, _⟩ => ⟨S1x128, .f32⟩
  | .hbm, ⟨54, _⟩ => ⟨S8192x128, .f32⟩
  | .hbm, ⟨55, _⟩ => ⟨S8192x128, .f32⟩
  | .hbm, ⟨56, _⟩ => ⟨S8192x256, .f32⟩
  | .hbm, ⟨57, _⟩ => ⟨S8192x256, .f32⟩
  | .hbm, ⟨58, _⟩ => ⟨S1x256, .f32⟩
  | .hbm, ⟨59, _⟩ => ⟨S8192x256, .f32⟩
  | .hbm, ⟨60, _⟩ => ⟨S8192x256, .f32⟩
  | .hbm, ⟨61, _⟩ => ⟨S_, .f32⟩
  | .hbm, ⟨62, _⟩ => ⟨S8192x256, .f32⟩
  | .hbm, ⟨63, _⟩ => ⟨S8192x256, .f32⟩
  | .hbm, ⟨64, _⟩ => ⟨S8192x256, .f32⟩
  | .hbm, ⟨65, _⟩ => ⟨S8192x256, .f32⟩
  | .hbm, ⟨66, _⟩ => ⟨S1x256, .f32⟩
  | .hbm, ⟨67, _⟩ => ⟨S8192x256, .f32⟩
  | .hbm, ⟨68, _⟩ => ⟨S8192x256, .f32⟩
  | .hbm, ⟨69, _⟩ => ⟨S_, .f32⟩
  | .hbm, ⟨70, _⟩ => ⟨S8192x256, .f32⟩
  | .hbm, ⟨71, _⟩ => ⟨S8192x256, .f32⟩
  | .hbm, ⟨72, _⟩ => ⟨S8192x128, .f32⟩
  | .hbm, ⟨73, _⟩ => ⟨S1x128, .f32⟩
  | .hbm, ⟨74, _⟩ => ⟨S8192x128, .f32⟩
  | .hbm, ⟨75, _⟩ => ⟨S8192x128, .f32⟩
  | .hbm, ⟨76, _⟩ => ⟨S_, .f32⟩
  | .hbm, ⟨77, _⟩ => ⟨S8192x128, .f32⟩
  | .hbm, ⟨78, _⟩ => ⟨S8192x128, .f32⟩
  | .hbm, ⟨79, _⟩ => ⟨S8192x1, .f32⟩
  | .hbm, ⟨80, _⟩ => ⟨S1x1, .f32⟩
  | .hbm, ⟨81, _⟩ => ⟨S8192x1, .f32⟩
  | .hbm, ⟨82, _⟩ => ⟨S8192x1, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst_1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_call1_cst : Ref sig .tc := ⟨.hbm, 61, rfl⟩
abbrev main_call1_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call2_cst : Ref sig .tc := ⟨.hbm, 69, rfl⟩
abbrev main_call2_v0 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_call3_cst : Ref sig .tc := ⟨.hbm, 76, rfl⟩
abbrev main_call3_v0 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩

abbrev nD : Nat := 1
abbrev τ : Topo := Topo.v7x

variable {F : FTy → Type} [FloatOps F]

class Facts₀ : Prop where
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S_S8192x128 : S_.BroadcastsInDim S8192x128 (![] : Fin 0 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  dot_S8192x128_S128x256_S8192x256_1_0_0_1_n_n_wf : DotDims.WF S8192x128 S128x256 S8192x256 [1] [0] [0] [1] [] []
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.KB.Base0.lean ====
/-
  The first layer's kernel, `relu (A · (x · W1) + b1)`, is run at 4 × 8 grid points: point (m, k) adds to a
  [2048, 256] scratch accumulator the product of block (m, k) of `A` with the projection of rows
  [1024 k, 1024 (k + 1)) of `x`. The accumulator is zeroed at `k = 0`; at `k = 7` the output block `m` is stored as
  `relu (acc + b1)`. This module states what the body's runs share: the two branch conditions in closed form over the
  grid, where the output window is idle, the staging memrefs at a point, and the region's invariant with the
  accumulator's buffer split off the other scoped buffers.
-/
import proofs.«164166_j37589553774758_2_alg».proof.Proof.Gen.Kernel.Launch
import proofs.«164166_j37589553774758_2_alg».proof.Proof.Gen.Kernel.Skeleton
import proofs.«164166_j37589553774758_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The accumulator is reset: the condition of the body's first `scf.if` (`k = 0`), from the grid coordinates. -/
abbrev cond0_0 (i : grid0.Coords) : Prop := (Scalar.cmpi .ne (Scalar.extui (Scalar.cmpi .eq (BitVec.ofNat 32 (i 1).val) 0#32)) 0#32) = 1#1
/-- It holds at the first of every eight points. -/
theorem hcond0_0 : ∀ t : Fin cfg0.N, cond0_0 (grid0.coords t) ↔ t.val % 8 = 0 :=
  (by decide +kernel : ∀ t : Fin grid0.N, cond0_0 (grid0.coords t) ↔ t.val % 8 = 0)

/-- The output block is stored: the condition of the body's second `scf.if` (`k = 7`). -/
abbrev cond0_1 (i : grid0.Coords) : Prop := k0_cond2 i = 1#1
/-- It holds at the last of every eight points. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output block is not stored the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is stored the window is live. -/
theorem liveAt0_4 : ∀ t : Fin cfg0.N, cond0_1 (grid0.coords t) → cfg0.idle 4 (grid0.coords t) = false := by decide +kernel

/-! ## The memrefs at a point -/

abbrev VO0_4 : View sig .tc .vmem S2048x256 .f32 := (Memref.whole cc0_stg4_0 : Memref sig .tc .vmem S2048x256 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S2048x256 .f32 := Memref.whole cc0_scratch0
abbrev VS0 : View sig .tc .vmem S2048x256 .f32 := scM0.view

/-! ## The region's invariant, the accumulator apart -/

/-- The scoped buffers the first kernel never touches (the second kernel's staging buffers and accumulator), each
    whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f))

/-- The same buffers beside one more proposition: the shape in which the class invariant lists the scoped rest, the
    accumulator's buffer first. -/
def rest0a (c : Dev nD) (P : sProp 𝕄) : sProp 𝕄 := iprop(P ∗ rest0 c)

/-- The class invariant of the first region with the accumulator's buffer as a memref owned at some contents. -/
theorem PhiA0_eq (c : Dev nD) :
    (Pipeline.ΦA spec0 c : sProp 𝕄)
      = iprop(rest0a c iprop(∃ d, owns (c : Thread nD τ) scM0 fullShare d) ∗ (∃ r, prngReg c r)) := by
  unfold Pipeline.ΦA rest0a rest0; rw [scopedRest0_eq]; simp only [scM0, owns_whole]; rfl

theorem rest0a_split (c : Dev nD) (P : sProp 𝕄) : rest0a c P ⊢ iprop(P ∗ rest0 c) := by unfold rest0a; exact .rfl
theorem rest0a_join (c : Dev nD) (P : sProp 𝕄) : iprop(P ∗ rest0 c) ⊢ rest0a c P := by unfold rest0a; exact .rfl

end Cert.Kernel.Hand

end
-- ==== Proof.KB.Run0A.lean ====
/-
  The first step (k = 0): the accumulator, found at anything, is zeroed and then gains this step's product; nothing is stored into the output block.
-/
import proofs.«164166_j37589553774758_2_alg».proof.Proof.KB.Base0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun0_A (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S8192x128 .bf16) (x2 : Vec F S128x256 .bf16) (x3 : Vec F S1x256 .f32) :
    Σ' (L4 : List (View.Piece (Elt F) S2048x256 .f32)), { LS0 : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7) K } := by
  refine ⟨[], ?_, fun xi4 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB.Run0B.lean ====
/-
  A middle step (0 < k < 7): the accumulator, found at what the step before left, gains this step's product; nothing is stored into the output block.
-/
import proofs.«164166_j37589553774758_2_alg».proof.Proof.KB.Base0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun0_B (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S8192x128 .bf16) (x2 : Vec F S128x256 .bf16) (x3 : Vec F S1x256 .f32) (xs0 : Vec F S2048x256 .f32) :
    Σ' (L4 : List (View.Piece (Elt F) S2048x256 .f32)), { LS0 : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7) K } := by
  refine ⟨[], ?_, fun xi4 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KB.Run0C.lean ====
/-
  The last step (k = 7): the accumulator gains this step's product, and the output block is stored as the accumulator plus the bias, clamped below at zero.
-/
import proofs.«164166_j37589553774758_2_alg».proof.Proof.KB.Base0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun0_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S8192x128 .bf16) (x2 : Vec F S128x256 .bf16) (x3 : Vec F S1x256 .f32) (xs0 : Vec F S2048x256 .f32) :
    Σ' (L4 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KB.Region0.lean ====
/-
  The first region at entry contents `V`: what each of its three kinds of step leaves in the accumulator and in
  the output block, the accumulation over the grid points by recursion on the point, the proof data of the pipeline
  (the arrays as the region finds them, every input window at its block, the output window at what the last step of
  each group of eight stores, the invariant carrying the accumulator at what the step before left), and the body
  obligation at every point.
-/
import proofs.«164166_j37589553774758_2_alg».proof.Proof.KB.Run0A
import proofs.«164166_j37589553774758_2_alg».proof.Proof.KB.Run0B
import proofs.«164166_j37589553774758_2_alg».proof.Proof.KB.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## What each kind of step leaves -/

/-- A step that stores nothing into the output block: a placeholder nothing consults (the window is idle there and
    not written back). -/
def out0_A (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S8192x128 .bf16) (x2 : Vec F S128x256 .bf16) (x3 : Vec F S1x256 .f32) : Vec F S2048x256 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- A step that stores nothing into the output block: a placeholder nothing consults (the window is idle there and
    not written back). -/
def out0_B (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S8192x128 .bf16) (x2 : Vec F S128x256 .bf16) (x3 : Vec F S1x256 .f32) (xs0 : Vec F S2048x256 .f32) : Vec F S2048x256 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The last step's one store covers the output block. -/
theorem cover0_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S8192x128 .bf16) (x2 : Vec F S128x256 .bf16) (x3 : Vec F S1x256 .f32) (xs0 : Vec F S2048x256 .f32) (y : S2048x256.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2048x256.size (by sl_kernel_rfl) y

/-- What the last step leaves in the output block: its pieces read back. -/
def out0_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S8192x128 .bf16) (x2 : Vec F S128x256 .bf16) (x3 : Vec F S1x256 .f32) (xs0 : Vec F S2048x256 .f32) : Vec F S2048x256 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The step's stores into the accumulator cover it. -/
theorem scover0_A (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S8192x128 .bf16) (x2 : Vec F S128x256 .bf16) (x3 : Vec F S1x256 .f32) (y : S2048x256.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2048x256.size (by sl_kernel_rfl) y

/-- What the step leaves in the accumulator: its pieces read back. -/
def sout0_A (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S8192x128 .bf16) (x2 : Vec F S128x256 .bf16) (x3 : Vec F S1x256 .f32) : Vec F S2048x256 .f32 :=
  VS0.read (Elt F) (VS0.writes (Elt F) VS0.junk (kernelRun0_A c i arg2 harg2 arg3 harg3 arg4 harg4 arg5 harg5 arg6 harg6 arg7 harg7 hc0 hc1 x0 x1 x2 x3).2.1)

/-- The step's stores into the accumulator cover it. -/
theorem scover0_B (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S8192x128 .bf16) (x2 : Vec F S128x256 .bf16) (x3 : Vec F S1x256 .f32) (xs0 : Vec F S2048x256 .f32) (y : S2048x256.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S2048x256.size (by sl_kernel_rfl) y

/-- What the step leaves in the accumulator: its pieces read back. -/
def sout0_B (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S8192x128 .bf16) (x2 : Vec F S128x256 .bf16) (x3 : Vec F S1x256 .f32) (xs0 : Vec F S2048x256 .f32) : Vec F S2048x256 .f32 :=
  VS0.read (Elt F) (VS0.writes (Elt F) VS0.junk (kernelRun0_B c i arg2 harg2 arg3 harg3 arg4 harg4 arg5 harg5 arg6 harg6 arg7 harg7 hc0 hc1 x0 x1 x2 x3 xs0).2.1)

/-- The step's stores into the accumulator cover it. -/
theorem scover0_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S8192x128 .bf16) (x2 : Vec F S128x256 .bf16) (x3 : Vec F S1x256 .f32) (xs0 : Vec F S2048x256 .f32) (y : S2048x256.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2048x256.size (by sl_kernel_rfl) y

/-- What the step leaves in the accumulator: its pieces read back. -/
def sout0_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S8192x128 .bf16) (x2 : Vec F S128x256 .bf16) (x3 : Vec F S1x256 .f32) (xs0 : Vec F S2048x256 .f32) : Vec F S2048x256 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

section
variable (V : (c : Dev nD) → (b : Ref sig .tc) → Buf (Elt F) ((c : Thread nD τ).loc b))

/-! ## The accumulation over the grid points -/

/-- What the output block's staging buffer and the accumulator hold after the body at position `n`: the kind of step the
    closed forms select there, run at the point's memrefs and input blocks, the accumulator (but for a first step) at what
    position `n - 1` left. -/
def outsAt0 (c : Dev nD) : (n : ℕ) → n < cfg0.N → Vec F S2048x256 .f32 × Vec F S2048x256 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a first step: that step's contents. -/
theorem outsAt0_A (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- At a middle step: that step's contents, over what the point before left. -/
theorem outsAt0_B (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: that step's contents, over what the point before left. -/
theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (every scoped buffer that is no staging
    buffer at anything, the generator register at some state); afterwards the same with the accumulator at what the point
    before left in it. -/
def PhiS0 (c : Dev nD) : (n : ℕ) → n ≤ cfg0.N → sProp 𝕄
  | 0, _ => Pipeline.ΦA spec0 c
  | n + 1, hn => iprop(rest0a c (owns (c : Thread nD τ) scM0 fullShare ((outsAt0 V c n hn).2)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(rest0a c (owns (c : Thread nD τ) scM0 fullShare ((outsAt0 V c n hn).2)) ∗ (∃ r, prngReg c r)) := rfl

theorem PhiS0_pos (c : Dev nD) (n : ℕ) (h : n ≤ cfg0.N) (hz : n ≠ 0) :
    PhiS0 V c n h = iprop(rest0a c (owns (c : Thread nD τ) scM0 fullShare ((outsAt0 V c (n - 1) (by omega)).2)) ∗ (∃ r, prngReg c r)) := by
  cases n with
  | zero => exact absurd rfl hz
  | succ n => rfl

/-! ## The pipeline's proof data -/

/-- The proof data of the region's pipeline on core `c`: the arrays as the region finds them; after the body each input's
    buffer at its block and the output's at what the accumulation says; the invariant the tracking one; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which kind of step the point is;
    the invariant hands the body the accumulator at what the point before left (at anything before the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · by_cases h1 : t.val % 8 = 7
    · exfalso; omega
    · rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨Hra, Hg⟩, Ho, ⟨%d0, H0⟩, ⟨%d1, H1⟩, ⟨%d2, H2⟩, ⟨%d3, H3⟩, ⟨%d4, H4⟩⟩
        ihave Hsp := (rest0a_split c _) $$ Hra
        icases Hsp with ⟨HS0, Hrest⟩
        iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg Hrest]
        · isplitl [HS0 Hrest]
          · iapply (rest0a_join c _)
            isplitl [HS0]
            · unfold owns; iexists _; isplitr
              swap; · iexact HS0
              ipureintro; exact View.read_writes_of_cover _ _ _ _ _ (scover0_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨Hra, Hg⟩, Ho, ⟨%d0, H0⟩, ⟨%d1, H1⟩, ⟨%d2, H2⟩, ⟨%d3, H3⟩, ⟨%d4, H4⟩⟩
        ihave Hsp := (rest0a_split c _) $$ Hra
        icases Hsp with ⟨HS0, Hrest⟩
        iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg Hrest]
        · isplitl [HS0 Hrest]
          · iapply (rest0a_join c _)
            isplitl [HS0]
            · unfold owns; iexists _; isplitr
              swap; · iexact HS0
              ipureintro; exact View.read_writes_of_cover _ _ _ _ _ (scover0_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      have hz : t.val ≠ 0 := by omega
      rw [PhiS0_castSucc V c t, PhiS0_pos V c _ _ hz]
      iintro ⟨⟨Hra, Hg⟩, Ho, ⟨%d0, H0⟩, ⟨%d1, H1⟩, ⟨%d2, H2⟩, ⟨%d3, H3⟩, ⟨%d4, H4⟩⟩
      ihave Hsp := (rest0a_split c _) $$ Hra
      icases Hsp with ⟨HS0, Hrest⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg Hrest]
      · isplitl [HS0 Hrest]
        · iapply (rest0a_join c _)
          isplitl [HS0]
          · unfold owns; iexists _; isplitr
            swap; · iexact HS0
            ipureintro; exact View.read_writes_of_cover _ _ _ _ _ (scover0_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      have hz : t.val ≠ 0 := by omega
      rw [PhiS0_castSucc V c t, PhiS0_pos V c _ _ hz]
      iintro ⟨⟨Hra, Hg⟩, Ho, ⟨%d0, H0⟩, ⟨%d1, H1⟩, ⟨%d2, H2⟩, ⟨%d3, H3⟩, ⟨%d4, H4⟩⟩
      ihave Hsp := (rest0a_split c _) $$ Hra
      icases Hsp with ⟨HS0, Hrest⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg Hrest]
      · isplitl [HS0 Hrest]
        · iapply (rest0a_join c _)
          isplitl [HS0]
          · unfold owns; iexists _; isplitr
            swap; · iexact HS0
            ipureintro; exact View.read_writes_of_cover _ _ _ _ _ (scover0_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨Hra, Hg⟩
  ihave Hsp := (rest0a_split c _) $$ Hra
  icases Hsp with ⟨HS0, Hrest⟩
  isplitl [HS0 Hrest]
  · iapply (rest0a_join c _)
    isplitl [HS0]
    · iexists _; iexact HS0
    iexact Hrest
  iexact Hg

end

end Cert.Kernel.Hand

end
-- ==== Proof.KB.Base1.lean ====
/-
  The second kernel, the second layer fused with the per-node perceptron, runs at 4 × 8 grid points like the first:
  point (m, k) adds to its [2048, 256] scratch accumulator the product of block (m, k) of `A` with the projection of
  rows [1024 k, 1024 (k + 1)) of the first layer's output; the accumulator is zeroed at `k = 0`, and at `k = 7` the
  [2048, 1] output block `m` is stored: relu (acc + b2), a dense layer with relu, a dense layer into one column. This
  module states what the body's runs share.
-/
import proofs.«164166_j37589553774758_2_alg».proof.Proof.Gen.Kernel.Launch
import proofs.«164166_j37589553774758_2_alg».proof.Proof.Gen.Kernel.Skeleton
import proofs.«164166_j37589553774758_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The accumulator is reset (`k = 0`). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output block is stored (`k = 7`). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-! ## The memrefs at a point -/

abbrev VO1_8 : View sig .tc .vmem S2048x1 .f32 := (Memref.whole cc1_stg8_0 : Memref sig .tc .vmem S2048x1 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x1 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x1 .f32 := win1_8.stage (cfg1.slots t 8)
abbrev hs1_8 (t : Fin cfg1.N) : (ms1_8 t).IsWhole := hstage1_8 ((cfg1.slots t 8).cast nbuf1_8)
/-- The accumulator: a whole scoped buffer of the kernel's own. -/
abbrev scM1 : Memref sig .tc .vmem S2048x256 .f32 := Memref.whole cc1_scratch0
abbrev VS1 : View sig .tc .vmem S2048x256 .f32 := scM1.view

/-! ## The region's invariant, the accumulator apart -/

/-- The scoped buffers the second kernel never touches (the first kernel's staging buffers and accumulator), each
    whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The same buffers with one more proposition at the end of the chain: the shape in which the class invariant lists
    the scoped rest, the accumulator's buffer last. -/
def rest1a (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ P)

/-- The class invariant of the second region with the accumulator's buffer (the last of the scoped rest) as a memref
    owned at some contents. -/
theorem PhiA1_eq (c : Dev nD) :
    (Pipeline.ΦA spec1 c : sProp 𝕄)
      = iprop(rest1a c iprop(∃ d, owns (c : Thread nD τ) scM1 fullShare d) ∗ (∃ r, prngReg c r)) := by
  unfold Pipeline.ΦA rest1a; rw [scopedRest1_eq]; simp only [scM1, owns_whole]; rfl

/-- The last proposition of the chain taken out … -/
theorem rest1a_split (c : Dev nD) (P : sProp 𝕄) : rest1a c P ⊢ iprop(P ∗ rest1 c) := by
  unfold rest1a rest1
  iintro ⟨R1, R2, R3, R4, R5, R6, R7, R8, HP⟩
  isplitl [HP]; · iexact HP
  isplitl [R1]; · iexact R1
  isplitl [R2]; · iexact R2
  isplitl [R3]; · iexact R3
  isplitl [R4]; · iexact R4
  isplitl [R5]; · iexact R5
  isplitl [R6]; · iexact R6
  isplitl [R7]; · iexact R7
  iexact R8

/-- … and put back. -/
theorem rest1a_join (c : Dev nD) (P : sProp 𝕄) : iprop(P ∗ rest1 c) ⊢ rest1a c P := by
  unfold rest1a rest1
  iintro ⟨HP, R1, R2, R3, R4, R5, R6, R7, R8⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact HP

end Cert.Kernel.Hand

end
-- ==== Proof.KB.Run1A.lean ====
/-
  The first step (k = 0) of the second kernel: the accumulator, found at anything, is zeroed and then gains this step's product; nothing is stored into the output block.
-/
import proofs.«164166_j37589553774758_2_alg».proof.Proof.KB.Base1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) :
    Σ' (L8 : List (View.Piece (Elt F) S2048x1 .f32)), { LS0 : List (View.Piece (Elt F) S2048x256 .f32) //
      ∀ (xi8 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__layer2_qhead_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__layer2_qhead_kernel_eq_skeleton]; unfold cc1__layer2_qhead_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.KB.Run1B.lean ====
/-
  A middle step (0 < k < 7) of the second kernel: the accumulator, found at what the step before left, gains this step's product; nothing is stored into the output block.
-/
import proofs.«164166_j37589553774758_2_alg».proof.Proof.KB.Base1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) :
    Σ' (L8 : List (View.Piece (Elt F) S2048x1 .f32)), { LS0 : List (View.Piece (Elt F) S2048x256 .f32) //
      ∀ (xi8 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__layer2_qhead_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__layer2_qhead_kernel_eq_skeleton]; unfold cc1__layer2_qhead_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.KB.Run1C.lean ====
/-
  The last step (k = 7) of the second kernel: the accumulator gains this step's product, and the output block is stored: the accumulator plus the bias clamped at zero, through the dense layer with relu, through the dense layer into one column.
-/
import proofs.«164166_j37589553774758_2_alg».proof.Proof.KB.Base1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) :
    Σ' (L8 : List (View.Piece (Elt F) S2048x1 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__layer2_qhead_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__layer2_qhead_kernel_eq_skeleton]; unfold cc1__layer2_qhead_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel.Hand

end
-- ==== Proof.KB.Region1.lean ====
/-
  The second region at entry contents `V`: what each of its three kinds of step leaves in the accumulator and in
  the output block, the accumulation over the grid points by recursion on the point, the proof data of the pipeline
  (the arrays as the region finds them, every input window at its block, the output window at what the last step of
  each group of eight stores, the invariant carrying the accumulator at what the step before left), and the body
  obligation at every point.
-/
import proofs.«164166_j37589553774758_2_alg».proof.Proof.KB.Run1A
import proofs.«164166_j37589553774758_2_alg».proof.Proof.KB.Run1B
import proofs.«164166_j37589553774758_2_alg».proof.Proof.KB.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end

/-! ## What each kind of step leaves -/

/-- A step that stores nothing into the output block: a placeholder nothing consults (the window is idle there and
    not written back). -/
def out1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) : Vec F S2048x1 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).1)

/-- A step that stores nothing into the output block: a placeholder nothing consults (the window is idle there and
    not written back). -/
def out1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) : Vec F S2048x1 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The last step's one store covers the output block. -/
theorem cover1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1 S2048x1.size (by sl_kernel_rfl) y

/-- What the last step leaves in the output block: its pieces read back. -/
def out1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) : Vec F S2048x1 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The step's stores into the accumulator cover it. -/
theorem scover1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (y : S2048x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S2048x256.size (by sl_kernel_rfl) y

/-- What the step leaves in the accumulator: its pieces read back. -/
def sout1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) : Vec F S2048x256 .f32 :=
  VS1.read (Elt F) (VS1.writes (Elt F) VS1.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- The step's stores into the accumulator cover it. -/
theorem scover1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) (y : S2048x256.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S2048x256.size (by sl_kernel_rfl) y

/-- What the step leaves in the accumulator: its pieces read back. -/
def sout1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) : Vec F S2048x256 .f32 :=
  VS1.read (Elt F) (VS1.writes (Elt F) VS1.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- The step's stores into the accumulator cover it. -/
theorem scover1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) (y : S2048x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S2048x256.size (by sl_kernel_rfl) y

/-- What the step leaves in the accumulator: its pieces read back. -/
def sout1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) : Vec F S2048x256 .f32 :=
  VS1.read (Elt F) (VS1.writes (Elt F) VS1.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

section
variable (V : (c : Dev nD) → (b : Ref sig .tc) → Buf (Elt F) ((c : Thread nD τ).loc b))

/-! ## The accumulation over the grid points -/

/-- What the output block's staging buffer and the accumulator hold after the body at position `n`: the kind of step the
    closed forms select there, run at the point's memrefs and input blocks, the accumulator (but for a first step) at what
    position `n - 1` left. -/
def outsAt1 (c : Dev nD) : (n : ℕ) → n < cfg1.N → Vec F S2048x1 .f32 × Vec F S2048x256 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 8 = 0 then
      if h1 : (n + 1) % 8 = 7 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

/-- At a first step: that step's contents. -/
theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

/-- At a middle step: that step's contents, over what the point before left. -/
theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: that step's contents, over what the point before left. -/
theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (every scoped buffer that is no staging
    buffer at anything, the generator register at some state); afterwards the same with the accumulator at what the point
    before left in it. -/
def PhiS1 (c : Dev nD) : (n : ℕ) → n ≤ cfg1.N → sProp 𝕄
  | 0, _ => Pipeline.ΦA spec1 c
  | n + 1, hn => iprop(rest1a c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1a c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(rest1a c (owns (c : Thread nD τ) scM1 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them; after the body each input's
    buffer at its block and the output's at what the accumulation says; the invariant the tracking one; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' memrefs hold their blocks; the closed forms say which kind of step the point is;
    the invariant hands the body the accumulator at what the point before left (at anything before the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 8 = 0
  · by_cases h1 : t.val % 8 = 7
    · exfalso; omega
    · rw [Dat.leavesExact_idle (dat1 V c) 8 t (idleAt1_8 t (fun h => h1 ((hcond1_1 t).mp h))) (noFlush1_8 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨Hra, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        ihave Hsp := (rest1a_split c _) $$ Hra
        icases Hsp with ⟨HS0, Hrest⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 Hg Hrest]
        · isplitl [HS0 Hrest]
          · iapply (rest1a_join c _)
            isplitl [HS0]
            · unfold owns; iexists _; isplitr
              swap; · iexact HS0
              ipureintro; exact View.read_writes_of_cover _ _ _ _ _ (scover1_A c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS1_castSucc V c t, PhiS1_pos V c _ _ hz]
        iintro ⟨⟨Hra, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        ihave Hsp := (rest1a_split c _) $$ Hra
        icases Hsp with ⟨HS0, Hrest⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 Hg Hrest]
        · isplitl [HS0 Hrest]
          · iapply (rest1a_join c _)
            isplitl [HS0]
            · unfold owns; iexists _; isplitr
              swap; · iexact HS0
              ipureintro; exact View.read_writes_of_cover _ _ _ _ _ (scover1_A c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 8 = 7
    · rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C sout1_C; (try dsimp only)
      have hz : t.val ≠ 0 := by omega
      rw [PhiS1_castSucc V c t, PhiS1_pos V c _ _ hz]
      iintro ⟨⟨Hra, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave Hsp := (rest1a_split c _) $$ Hra
      icases Hsp with ⟨HS0, Hrest⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg Hrest]
      · isplitl [HS0 Hrest]
        · iapply (rest1a_join c _)
          isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C c _ _ _ _ _ _ _ _ _ _ _ _ _ _ _ _ _ _ _ _ _ _ _ _ _ _ _ _ _ _ _ _)
    · rw [Dat.leavesExact_idle (dat1 V c) 8 t (idleAt1_8 t (fun h => h1 ((hcond1_1 t).mp h))) (noFlush1_8 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨Hra, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave Hsp := (rest1a_split c _) $$ Hra
      icases Hsp with ⟨HS0, Hrest⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 Hg Hrest]
      · isplitl [HS0 Hrest]
        · iapply (rest1a_join c _)
          isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨Hra, Hg⟩
  ihave Hsp := (rest1a_split c _) $$ Hra
  icases Hsp with ⟨HS0, Hrest⟩
  isplitl [HS0 Hrest]
  · iapply (rest1a_join c _)
    isplitl [HS0]
    · iexists _; iexact HS0
    iexact Hrest
  iexact Hg

end

end Cert.Kernel.Hand

end
-- ==== Proof.KB.MainRun.lean ====
/-
  The kernel program's run, at any float instance. Its `@main` is three stretches of host operations (the column means, the
  variance, the normalization and the operands' layout), the first region, a stretch of host operations (the layout of
  the second region's operands), and the second region. The contents of every unscoped buffer at each boundary are a fold
  from the launch memory: a stretch applies its operations, a region leaves its arrays at what its write-backs make of
  them and every other buffer as entered. The run ends with every unscoped buffer at the last boundary's contents; the
  argument arrays walk back through the fold to the launch memory.
-/
import proofs.«164166_j37589553774758_2_alg».proof.Proof.KB.Region0
import proofs.«164166_j37589553774758_2_alg».proof.Proof.KB.Region1
import proofs.«164166_j37589553774758_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- The first region's entry contents read at the TensorCore's references. -/
abbrev V3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
/-- The second region's entry contents read at the TensorCore's references. -/
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments end as launched -/

/-- A buffer no host stretch writes and no region stages walks back through the fold to the launch memory. -/
theorem W6_bypass (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) :
    W6 m ρ c (Proc.devRef .tc r) = m ((c : Thread nD τ).loc r) :=
  calc W6 m ρ c (Proc.devRef .tc r)
    _ = W5 m ρ c (Proc.devRef .tc r) := W6_of_ne m ρ c r h5
    _ = W4 m ρ c (Proc.devRef .tc r) := StableHlo.after_of_writes_sub hostOps1 _ hostOps1_writes h4
    _ = W3 m ρ c (Proc.devRef .tc r) := W4_of_ne m ρ c r h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

/-- The adjacency matrix, an input window of both regions, is never written either. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 0).trans (((dat1 (V5 m ρ) c).arrAt_in 0 rfl _).trans (A_eq1 (V5 m ρ) c 0))
    _ = W4 m ρ c (Proc.devRef .tc main_arg1) := StableHlo.after_of_writes_sub hostOps1 _ hostOps1_writes (by decide)
    _ = W3 m ρ c (Proc.devRef .tc main_arg1) := (W4_arr m ρ c 0).trans (((dat0 (V3 m ρ) c).arrAt_in 0 rfl _).trans (A_eq0 (V3 m ρ) c 0))
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at the boundary's contents, left at the next
    boundary's. Its arrays are split out of the unscoped buffers and put back at the exit contents; the generator register
    goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at the exit contents; the generator register
    goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## `@main` as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

theorem main_run (c : Dev nD) : main (F := F) c = Pipeline.Seg.run (segs m ρ) := by
  rw [main_chain c, Pipeline.Seg.run_eq_chain]
  rfl

set_option backward.isDefEq.respectTransparency.types false in
/-- THE RUN: from any memory with zero counters every weakly fair execution of `@main` terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME of the program, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W6_bypass m ρ c main_arg0 (by decide) (by decide) (by decide) (by decide) (by decide) (by decide)),
    (h c _ (mem_uc main_arg1 (by decide))).trans (W6_main_arg1 m ρ c),
    (h c _ (mem_uc main_arg2 (by decide))).trans (W6_bypass m ρ c main_arg2 (by decide) (by decide) (by decide) (by decide) (by decide) (by decide)),
    (h c _ (mem_uc main_arg3 (by decide))).trans (W6_bypass m ρ c main_arg3 (by decide) (by decide) (by decide) (by decide) (by decide) (by decide)),
    (h c _ (mem_uc main_arg4 (by decide))).trans (W6_bypass m ρ c main_arg4 (by decide) (by decide) (by decide) (by decide) (by decide) (by decide)),
    (h c _ (mem_uc main_arg5 (by decide))).trans (W6_bypass m ρ c main_arg5 (by decide) (by decide) (by decide) (by decide) (by decide) (by decide)),
    (h c _ (mem_uc main_arg6 (by decide))).trans (W6_bypass m ρ c main_arg6 (by decide) (by decide) (by decide) (by decide) (by decide) (by decide)),
    (h c _ (mem_uc main_arg7 (by decide))).trans (W6_bypass m ρ c main_arg7 (by decide) (by decide) (by decide) (by decide) (by decide) (by decide)),
    (h c _ (mem_uc main_arg8 (by decide))).trans (W6_bypass m ρ c main_arg8 (by decide) (by decide) (by decide) (by decide) (by decide) (by decide)),
    (h c _ (mem_uc main_arg9 (by decide))).trans (W6_bypass m ρ c main_arg9 (by decide) (by decide) (by decide) (by decide) (by decide) (by decide)),
    (h c _ (mem_uc main_arg10 (by decide))).trans (W6_bypass m ρ c main_arg10 (by decide) (by decide) (by decide) (by decide) (by decide) (by decide)),
    (h c _ (mem_uc main_arg11 (by decide))).trans (W6_bypass m ρ c main_arg11 (by decide) (by decide) (by decide) (by decide) (by decide) (by decide))⟩) (run_all m ρ)

end Cert.Kernel.Hand

end
-- ==== Proof.KI.Base0.lean ====
/-
  The first layer's kernel, `relu (A · (x · W1) + b1)`, is run at 4 × 8 grid points: point (m, k) adds to a
  [2048, 256] scratch accumulator the product of block (m, k) of `A` with the projection of rows
  [1024 k, 1024 (k + 1)) of `x`. The accumulator is zeroed at `k = 0`; at `k = 7` the output block `m` is stored as
  `relu (acc + b1)`. This module states what the body's runs share: the two branch conditions in closed form over the
  grid, where the output window is idle, the staging memrefs at a point, and the region's invariant with the
  accumulator's buffer split off the other scoped buffers.
-/
import proofs.«164166_j37589553774758_2_alg».proof.Proof.Gen.KernelIdeal.Launch
import proofs.«164166_j37589553774758_2_alg».proof.Proof.Gen.KernelIdeal.Skeleton
import proofs.«164166_j37589553774758_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- The accumulator is reset: the condition of the body's first `scf.if` (`k = 0`), from the grid coordinates. -/
abbrev cond0_0 (i : grid0.Coords) : Prop := (Scalar.cmpi .ne (Scalar.extui (Scalar.cmpi .eq (BitVec.ofNat 32 (i 1).val) 0#32)) 0#32) = 1#1
/-- It holds at the first of every eight points. -/
theorem hcond0_0 : ∀ t : Fin cfg0.N, cond0_0 (grid0.coords t) ↔ t.val % 8 = 0 :=
  (by decide +kernel : ∀ t : Fin grid0.N, cond0_0 (grid0.coords t) ↔ t.val % 8 = 0)

/-- The output block is stored: the condition of the body's second `scf.if` (`k = 7`). -/
abbrev cond0_1 (i : grid0.Coords) : Prop := k0_cond2 i = 1#1
/-- It holds at the last of every eight points. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output block is not stored the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it is stored the window is live. -/
theorem liveAt0_4 : ∀ t : Fin cfg0.N, cond0_1 (grid0.coords t) → cfg0.idle 4 (grid0.coords t) = false := by decide +kernel

/-! ## The memrefs at a point -/

abbrev VO0_4 : View sig .tc .vmem S2048x256 .f32 := (Memref.whole cc0_stg4_0 : Memref sig .tc .vmem S2048x256 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S2048x256 .f32 := Memref.whole cc0_scratch0
abbrev VS0 : View sig .tc .vmem S2048x256 .f32 := scM0.view

/-! ## The region's invariant, the accumulator apart -/

/-- The scoped buffers the first kernel never touches (the second kernel's staging buffers and accumulator), each
    whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f))

/-- The same buffers beside one more proposition: the shape in which the class invariant lists the scoped rest, the
    accumulator's buffer first. -/
def rest0a (c : Dev nD) (P : sProp 𝕄) : sProp 𝕄 := iprop(P ∗ rest0 c)

/-- The class invariant of the first region with the accumulator's buffer as a memref owned at some contents. -/
theorem PhiA0_eq (c : Dev nD) :
    (Pipeline.ΦA spec0 c : sProp 𝕄)
      = iprop(rest0a c iprop(∃ d, owns (c : Thread nD τ) scM0 fullShare d) ∗ (∃ r, prngReg c r)) := by
  unfold Pipeline.ΦA rest0a rest0; rw [scopedRest0_eq]; simp only [scM0, owns_whole]; rfl

theorem rest0a_split (c : Dev nD) (P : sProp 𝕄) : rest0a c P ⊢ iprop(P ∗ rest0 c) := by unfold rest0a; exact .rfl
theorem rest0a_join (c : Dev nD) (P : sProp 𝕄) : iprop(P ∗ rest0 c) ⊢ rest0a c P := by unfold rest0a; exact .rfl

end Cert.KernelIdeal.Hand

end
-- ==== Proof.KI.Run0A.lean ====
/-
  The first step (k = 0): the accumulator, found at anything, is zeroed and then gains this step's product; nothing is stored into the output block.
-/
import proofs.«164166_j37589553774758_2_alg».proof.Proof.KI.Base0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun0_A (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S8192x128 .bf16) (x2 : Vec F S128x256 .bf16) (x3 : Vec F S1x256 .f32) :
    Σ' (L4 : List (View.Piece (Elt F) S2048x256 .f32)), { LS0 : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7) K } := by
  refine ⟨[], ?_, fun xi4 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Run0B.lean ====
/-
  A middle step (0 < k < 7): the accumulator, found at what the step before left, gains this step's product; nothing is stored into the output block.
-/
import proofs.«164166_j37589553774758_2_alg».proof.Proof.KI.Base0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun0_B (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S8192x128 .bf16) (x2 : Vec F S128x256 .bf16) (x3 : Vec F S1x256 .f32) (xs0 : Vec F S2048x256 .f32) :
    Σ' (L4 : List (View.Piece (Elt F) S2048x256 .f32)), { LS0 : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7) K } := by
  refine ⟨[], ?_, fun xi4 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Run0C.lean ====
/-
  The last step (k = 7): the accumulator gains this step's product, and the output block is stored as the accumulator plus the bias, clamped below at zero.
-/
import proofs.«164166_j37589553774758_2_alg».proof.Proof.KI.Base0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun0_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S8192x128 .bf16) (x2 : Vec F S128x256 .bf16) (x3 : Vec F S1x256 .f32) (xs0 : Vec F S2048x256 .f32) :
    Σ' (L4 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Region0.lean ====
/-
  The first region at entry contents `V`: what each of its three kinds of step leaves in the accumulator and in
  the output block, the accumulation over the grid points by recursion on the point, the proof data of the pipeline
  (the arrays as the region finds them, every input window at its block, the output window at what the last step of
  each group of eight stores, the invariant carrying the accumulator at what the step before left), and the body
  obligation at every point.
-/
import proofs.«164166_j37589553774758_2_alg».proof.Proof.KI.Run0A
import proofs.«164166_j37589553774758_2_alg».proof.Proof.KI.Run0B
import proofs.«164166_j37589553774758_2_alg».proof.Proof.KI.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## What each kind of step leaves -/

/-- A step that stores nothing into the output block: a placeholder nothing consults (the window is idle there and
    not written back). -/
def out0_A (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S8192x128 .bf16) (x2 : Vec F S128x256 .bf16) (x3 : Vec F S1x256 .f32) : Vec F S2048x256 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- A step that stores nothing into the output block: a placeholder nothing consults (the window is idle there and
    not written back). -/
def out0_B (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S8192x128 .bf16) (x2 : Vec F S128x256 .bf16) (x3 : Vec F S1x256 .f32) (xs0 : Vec F S2048x256 .f32) : Vec F S2048x256 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The last step's one store covers the output block. -/
theorem cover0_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S8192x128 .bf16) (x2 : Vec F S128x256 .bf16) (x3 : Vec F S1x256 .f32) (xs0 : Vec F S2048x256 .f32) (y : S2048x256.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2048x256.size (by sl_kernel_rfl) y

/-- What the last step leaves in the output block: its pieces read back. -/
def out0_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S8192x128 .bf16) (x2 : Vec F S128x256 .bf16) (x3 : Vec F S1x256 .f32) (xs0 : Vec F S2048x256 .f32) : Vec F S2048x256 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The step's stores into the accumulator cover it. -/
theorem scover0_A (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S8192x128 .bf16) (x2 : Vec F S128x256 .bf16) (x3 : Vec F S1x256 .f32) (y : S2048x256.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2048x256.size (by sl_kernel_rfl) y

/-- What the step leaves in the accumulator: its pieces read back. -/
def sout0_A (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S8192x128 .bf16) (x2 : Vec F S128x256 .bf16) (x3 : Vec F S1x256 .f32) : Vec F S2048x256 .f32 :=
  VS0.read (Elt F) (VS0.writes (Elt F) VS0.junk (kernelRun0_A c i arg2 harg2 arg3 harg3 arg4 harg4 arg5 harg5 arg6 harg6 arg7 harg7 hc0 hc1 x0 x1 x2 x3).2.1)

/-- The step's stores into the accumulator cover it. -/
theorem scover0_B (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S8192x128 .bf16) (x2 : Vec F S128x256 .bf16) (x3 : Vec F S1x256 .f32) (xs0 : Vec F S2048x256 .f32) (y : S2048x256.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S2048x256.size (by sl_kernel_rfl) y

/-- What the step leaves in the accumulator: its pieces read back. -/
def sout0_B (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S8192x128 .bf16) (x2 : Vec F S128x256 .bf16) (x3 : Vec F S1x256 .f32) (xs0 : Vec F S2048x256 .f32) : Vec F S2048x256 .f32 :=
  VS0.read (Elt F) (VS0.writes (Elt F) VS0.junk (kernelRun0_B c i arg2 harg2 arg3 harg3 arg4 harg4 arg5 harg5 arg6 harg6 arg7 harg7 hc0 hc1 x0 x1 x2 x3 xs0).2.1)

/-- The step's stores into the accumulator cover it. -/
theorem scover0_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S8192x128 .bf16) (x2 : Vec F S128x256 .bf16) (x3 : Vec F S1x256 .f32) (xs0 : Vec F S2048x256 .f32) (y : S2048x256.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2048x256.size (by sl_kernel_rfl) y

/-- What the step leaves in the accumulator: its pieces read back. -/
def sout0_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S8192x128 .bf16) (x2 : Vec F S128x256 .bf16) (x3 : Vec F S1x256 .f32) (xs0 : Vec F S2048x256 .f32) : Vec F S2048x256 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)

section
variable (V : (c : Dev nD) → (b : Ref sig .tc) → Buf (Elt F) ((c : Thread nD τ).loc b))

/-! ## The accumulation over the grid points -/

/-- What the output block's staging buffer and the accumulator hold after the body at position `n`: the kind of step the
    closed forms select there, run at the point's memrefs and input blocks, the accumulator (but for a first step) at what
    position `n - 1` left. -/
def outsAt0 (c : Dev nD) : (n : ℕ) → n < cfg0.N → Vec F S2048x256 .f32 × Vec F S2048x256 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a first step: that step's contents. -/
theorem outsAt0_A (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- At a middle step: that step's contents, over what the point before left. -/
theorem outsAt0_B (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: that step's contents, over what the point before left. -/
theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (every scoped buffer that is no staging
    buffer at anything, the generator register at some state); afterwards the same with the accumulator at what the point
    before left in it. -/
def PhiS0 (c : Dev nD) : (n : ℕ) → n ≤ cfg0.N → sProp 𝕄
  | 0, _ => Pipeline.ΦA spec0 c
  | n + 1, hn => iprop(rest0a c (owns (c : Thread nD τ) scM0 fullShare ((outsAt0 V c n hn).2)) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(rest0a c (owns (c : Thread nD τ) scM0 fullShare ((outsAt0 V c n hn).2)) ∗ (∃ r, prngReg c r)) := rfl

theorem PhiS0_pos (c : Dev nD) (n : ℕ) (h : n ≤ cfg0.N) (hz : n ≠ 0) :
    PhiS0 V c n h = iprop(rest0a c (owns (c : Thread nD τ) scM0 fullShare ((outsAt0 V c (n - 1) (by omega)).2)) ∗ (∃ r, prngReg c r)) := by
  cases n with
  | zero => exact absurd rfl hz
  | succ n => rfl

/-! ## The pipeline's proof data -/

/-- The proof data of the region's pipeline on core `c`: the arrays as the region finds them; after the body each input's
    buffer at its block and the output's at what the accumulation says; the invariant the tracking one; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which kind of step the point is;
    the invariant hands the body the accumulator at what the point before left (at anything before the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · by_cases h1 : t.val % 8 = 7
    · exfalso; omega
    · rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨Hra, Hg⟩, Ho, ⟨%d0, H0⟩, ⟨%d1, H1⟩, ⟨%d2, H2⟩, ⟨%d3, H3⟩, ⟨%d4, H4⟩⟩
        ihave Hsp := (rest0a_split c _) $$ Hra
        icases Hsp with ⟨HS0, Hrest⟩
        iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg Hrest]
        · isplitl [HS0 Hrest]
          · iapply (rest0a_join c _)
            isplitl [HS0]
            · unfold owns; iexists _; isplitr
              swap; · iexact HS0
              ipureintro; exact View.read_writes_of_cover _ _ _ _ _ (scover0_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨Hra, Hg⟩, Ho, ⟨%d0, H0⟩, ⟨%d1, H1⟩, ⟨%d2, H2⟩, ⟨%d3, H3⟩, ⟨%d4, H4⟩⟩
        ihave Hsp := (rest0a_split c _) $$ Hra
        icases Hsp with ⟨HS0, Hrest⟩
        iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg Hrest]
        · isplitl [HS0 Hrest]
          · iapply (rest0a_join c _)
            isplitl [HS0]
            · unfold owns; iexists _; isplitr
              swap; · iexact HS0
              ipureintro; exact View.read_writes_of_cover _ _ _ _ _ (scover0_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      have hz : t.val ≠ 0 := by omega
      rw [PhiS0_castSucc V c t, PhiS0_pos V c _ _ hz]
      iintro ⟨⟨Hra, Hg⟩, Ho, ⟨%d0, H0⟩, ⟨%d1, H1⟩, ⟨%d2, H2⟩, ⟨%d3, H3⟩, ⟨%d4, H4⟩⟩
      ihave Hsp := (rest0a_split c _) $$ Hra
      icases Hsp with ⟨HS0, Hrest⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg Hrest]
      · isplitl [HS0 Hrest]
        · iapply (rest0a_join c _)
          isplitl [HS0]
          · unfold owns; iexists _; isplitr
            swap; · iexact HS0
            ipureintro; exact View.read_writes_of_cover _ _ _ _ _ (scover0_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      have hz : t.val ≠ 0 := by omega
      rw [PhiS0_castSucc V c t, PhiS0_pos V c _ _ hz]
      iintro ⟨⟨Hra, Hg⟩, Ho, ⟨%d0, H0⟩, ⟨%d1, H1⟩, ⟨%d2, H2⟩, ⟨%d3, H3⟩, ⟨%d4, H4⟩⟩
      ihave Hsp := (rest0a_split c _) $$ Hra
      icases Hsp with ⟨HS0, Hrest⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg Hrest]
      · isplitl [HS0 Hrest]
        · iapply (rest0a_join c _)
          isplitl [HS0]
          · unfold owns; iexists _; isplitr
            swap; · iexact HS0
            ipureintro; exact View.read_writes_of_cover _ _ _ _ _ (scover0_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨Hra, Hg⟩
  ihave Hsp := (rest0a_split c _) $$ Hra
  icases Hsp with ⟨HS0, Hrest⟩
  isplitl [HS0 Hrest]
  · iapply (rest0a_join c _)
    isplitl [HS0]
    · iexists _; iexact HS0
    iexact Hrest
  iexact Hg

end

end Cert.KernelIdeal.Hand

end
-- ==== Proof.KI.Base1.lean ====
/-
  The second kernel, the second layer fused with the per-node perceptron, runs at 4 × 8 grid points like the first:
  point (m, k) adds to its [2048, 256] scratch accumulator the product of block (m, k) of `A` with the projection of
  rows [1024 k, 1024 (k + 1)) of the first layer's output; the accumulator is zeroed at `k = 0`, and at `k = 7` the
  [2048, 1] output block `m` is stored: relu (acc + b2), a dense layer with relu, a dense layer into one column. This
  module states what the body's runs share.
-/
import proofs.«164166_j37589553774758_2_alg».proof.Proof.Gen.KernelIdeal.Launch
import proofs.«164166_j37589553774758_2_alg».proof.Proof.Gen.KernelIdeal.Skeleton
import proofs.«164166_j37589553774758_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- The accumulator is reset (`k = 0`). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output block is stored (`k = 7`). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-! ## The memrefs at a point -/

abbrev VO1_8 : View sig .tc .vmem S2048x1 .f32 := (Memref.whole cc1_stg8_0 : Memref sig .tc .vmem S2048x1 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x1 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x1 .f32 := win1_8.stage (cfg1.slots t 8)
abbrev hs1_8 (t : Fin cfg1.N) : (ms1_8 t).IsWhole := hstage1_8 ((cfg1.slots t 8).cast nbuf1_8)
/-- The accumulator: a whole scoped buffer of the kernel's own. -/
abbrev scM1 : Memref sig .tc .vmem S2048x256 .f32 := Memref.whole cc1_scratch0
abbrev VS1 : View sig .tc .vmem S2048x256 .f32 := scM1.view

/-! ## The region's invariant, the accumulator apart -/

/-- The scoped buffers the second kernel never touches (the first kernel's staging buffers and accumulator), each
    whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The same buffers with one more proposition at the end of the chain: the shape in which the class invariant lists
    the scoped rest, the accumulator's buffer last. -/
def rest1a (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ P)

/-- The class invariant of the second region with the accumulator's buffer (the last of the scoped rest) as a memref
    owned at some contents. -/
theorem PhiA1_eq (c : Dev nD) :
    (Pipeline.ΦA spec1 c : sProp 𝕄)
      = iprop(rest1a c iprop(∃ d, owns (c : Thread nD τ) scM1 fullShare d) ∗ (∃ r, prngReg c r)) := by
  unfold Pipeline.ΦA rest1a; rw [scopedRest1_eq]; simp only [scM1, owns_whole]; rfl

/-- The last proposition of the chain taken out … -/
theorem rest1a_split (c : Dev nD) (P : sProp 𝕄) : rest1a c P ⊢ iprop(P ∗ rest1 c) := by
  unfold rest1a rest1
  iintro ⟨R1, R2, R3, R4, R5, R6, R7, R8, HP⟩
  isplitl [HP]; · iexact HP
  isplitl [R1]; · iexact R1
  isplitl [R2]; · iexact R2
  isplitl [R3]; · iexact R3
  isplitl [R4]; · iexact R4
  isplitl [R5]; · iexact R5
  isplitl [R6]; · iexact R6
  isplitl [R7]; · iexact R7
  iexact R8

/-- … and put back. -/
theorem rest1a_join (c : Dev nD) (P : sProp 𝕄) : iprop(P ∗ rest1 c) ⊢ rest1a c P := by
  unfold rest1a rest1
  iintro ⟨HP, R1, R2, R3, R4, R5, R6, R7, R8⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact HP

end Cert.KernelIdeal.Hand

end
-- ==== Proof.KI.Run1A.lean ====
/-
  The first step (k = 0) of the second kernel: the accumulator, found at anything, is zeroed and then gains this step's product; nothing is stored into the output block.
-/
import proofs.«164166_j37589553774758_2_alg».proof.Proof.KI.Base1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) :
    Σ' (L8 : List (View.Piece (Elt F) S2048x1 .f32)), { LS0 : List (View.Piece (Elt F) S2048x256 .f32) //
      ∀ (xi8 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__layer2_qhead_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__layer2_qhead_kernel_eq_skeleton]; unfold cc1__layer2_qhead_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.KI.Run1B.lean ====
/-
  A middle step (0 < k < 7) of the second kernel: the accumulator, found at what the step before left, gains this step's product; nothing is stored into the output block.
-/
import proofs.«164166_j37589553774758_2_alg».proof.Proof.KI.Base1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) :
    Σ' (L8 : List (View.Piece (Elt F) S2048x1 .f32)), { LS0 : List (View.Piece (Elt F) S2048x256 .f32) //
      ∀ (xi8 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__layer2_qhead_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__layer2_qhead_kernel_eq_skeleton]; unfold cc1__layer2_qhead_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.KI.Run1C.lean ====
/-
  The last step (k = 7) of the second kernel: the accumulator gains this step's product, and the output block is stored: the accumulator plus the bias clamped at zero, through the dense layer with relu, through the dense layer into one column.
-/
import proofs.«164166_j37589553774758_2_alg».proof.Proof.KI.Base1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in this case on whole memrefs: the inputs at their contents are handed back as they were; the
    accumulator and (where stored) the output block end with the listed pieces written, last first. The pieces are the
    witness the symbolic run finds. -/
noncomputable def kernelRun1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) :
    Σ' (L8 : List (View.Piece (Elt F) S2048x1 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__layer2_qhead_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__layer2_qhead_kernel_eq_skeleton]; unfold cc1__layer2_qhead_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Hand

end
-- ==== Proof.KI.Region1.lean ====
/-
  The second region at entry contents `V`: what each of its three kinds of step leaves in the accumulator and in
  the output block, the accumulation over the grid points by recursion on the point, the proof data of the pipeline
  (the arrays as the region finds them, every input window at its block, the output window at what the last step of
  each group of eight stores, the invariant carrying the accumulator at what the step before left), and the body
  obligation at every point.
-/
import proofs.«164166_j37589553774758_2_alg».proof.Proof.KI.Run1A
import proofs.«164166_j37589553774758_2_alg».proof.Proof.KI.Run1B
import proofs.«164166_j37589553774758_2_alg».proof.Proof.KI.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end

/-! ## What each kind of step leaves -/

/-- A step that stores nothing into the output block: a placeholder nothing consults (the window is idle there and
    not written back). -/
def out1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) : Vec F S2048x1 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).1)

/-- A step that stores nothing into the output block: a placeholder nothing consults (the window is idle there and
    not written back). -/
def out1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) : Vec F S2048x1 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The last step's one store covers the output block. -/
theorem cover1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1 S2048x1.size (by sl_kernel_rfl) y

/-- What the last step leaves in the output block: its pieces read back. -/
def out1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) : Vec F S2048x1 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The step's stores into the accumulator cover it. -/
theorem scover1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (y : S2048x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S2048x256.size (by sl_kernel_rfl) y

/-- What the step leaves in the accumulator: its pieces read back. -/
def sout1_A (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) : Vec F S2048x256 .f32 :=
  VS1.read (Elt F) (VS1.writes (Elt F) VS1.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- The step's stores into the accumulator cover it. -/
theorem scover1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) (y : S2048x256.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S2048x256.size (by sl_kernel_rfl) y

/-- What the step leaves in the accumulator: its pieces read back. -/
def sout1_B (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) : Vec F S2048x256 .f32 :=
  VS1.read (Elt F) (VS1.writes (Elt F) VS1.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- The step's stores into the accumulator cover it. -/
theorem scover1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) (y : S2048x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S2048x256.size (by sl_kernel_rfl) y

/-- What the step leaves in the accumulator: its pieces read back. -/
def sout1_C (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i)
    (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) : Vec F S2048x256 .f32 :=
  VS1.read (Elt F) (VS1.writes (Elt F) VS1.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

section
variable (V : (c : Dev nD) → (b : Ref sig .tc) → Buf (Elt F) ((c : Thread nD τ).loc b))

/-! ## The accumulation over the grid points -/

/-- What the output block's staging buffer and the accumulator hold after the body at position `n`: the kind of step the
    closed forms select there, run at the point's memrefs and input blocks, the accumulator (but for a first step) at what
    position `n - 1` left. -/
def outsAt1 (c : Dev nD) : (n : ℕ) → n < cfg1.N → Vec F S2048x1 .f32 × Vec F S2048x256 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 8 = 0 then
      if h1 : (n + 1) % 8 = 7 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

/-- At a first step: that step's contents. -/
theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

/-- At a middle step: that step's contents, over what the point before left. -/
theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: that step's contents, over what the point before left. -/
theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (every scoped buffer that is no staging
    buffer at anything, the generator register at some state); afterwards the same with the accumulator at what the point
    before left in it. -/
def PhiS1 (c : Dev nD) : (n : ℕ) → n ≤ cfg1.N → sProp 𝕄
  | 0, _ => Pipeline.ΦA spec1 c
  | n + 1, hn => iprop(rest1a c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1a c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(rest1a c (owns (c : Thread nD τ) scM1 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them; after the body each input's
    buffer at its block and the output's at what the accumulation says; the invariant the tracking one; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' memrefs hold their blocks; the closed forms say which kind of step the point is;
    the invariant hands the body the accumulator at what the point before left (at anything before the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 8 = 0
  · by_cases h1 : t.val % 8 = 7
    · exfalso; omega
    · rw [Dat.leavesExact_idle (dat1 V c) 8 t (idleAt1_8 t (fun h => h1 ((hcond1_1 t).mp h))) (noFlush1_8 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨Hra, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        ihave Hsp := (rest1a_split c _) $$ Hra
        icases Hsp with ⟨HS0, Hrest⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 Hg Hrest]
        · isplitl [HS0 Hrest]
          · iapply (rest1a_join c _)
            isplitl [HS0]
            · unfold owns; iexists _; isplitr
              swap; · iexact HS0
              ipureintro; exact View.read_writes_of_cover _ _ _ _ _ (scover1_A c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS1_castSucc V c t, PhiS1_pos V c _ _ hz]
        iintro ⟨⟨Hra, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        ihave Hsp := (rest1a_split c _) $$ Hra
        icases Hsp with ⟨HS0, Hrest⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 Hg Hrest]
        · isplitl [HS0 Hrest]
          · iapply (rest1a_join c _)
            isplitl [HS0]
            · unfold owns; iexists _; isplitr
              swap; · iexact HS0
              ipureintro; exact View.read_writes_of_cover _ _ _ _ _ (scover1_A c _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 8 = 7
    · rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C sout1_C; (try dsimp only)
      have hz : t.val ≠ 0 := by omega
      rw [PhiS1_castSucc V c t, PhiS1_pos V c _ _ hz]
      iintro ⟨⟨Hra, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave Hsp := (rest1a_split c _) $$ Hra
      icases Hsp with ⟨HS0, Hrest⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg Hrest]
      · isplitl [HS0 Hrest]
        · iapply (rest1a_join c _)
          isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C c _ _ _ _ _ _ _ _ _ _ _ _ _ _ _ _ _ _ _ _ _ _ _ _ _ _ _ _ _ _ _ _)
    · rw [Dat.leavesExact_idle (dat1 V c) 8 t (idleAt1_8 t (fun h => h1 ((hcond1_1 t).mp h))) (noFlush1_8 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨Hra, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave Hsp := (rest1a_split c _) $$ Hra
      icases Hsp with ⟨HS0, Hrest⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 Hg Hrest]
      · isplitl [HS0 Hrest]
        · iapply (rest1a_join c _)
          isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨Hra, Hg⟩
  ihave Hsp := (rest1a_split c _) $$ Hra
  icases Hsp with ⟨HS0, Hrest⟩
  isplitl [HS0 Hrest]
  · iapply (rest1a_join c _)
    isplitl [HS0]
    · iexists _; iexact HS0
    iexact Hrest
  iexact Hg

end

end Cert.KernelIdeal.Hand

end
-- ==== Proof.KI.MainRun.lean ====
/-
  The kernel program's run, at any float instance. Its `@main` is three stretches of host operations (the column means, the
  variance, the normalization and the operands' layout), the first region, a stretch of host operations (the layout of
  the second region's operands), and the second region. The contents of every unscoped buffer at each boundary are a fold
  from the launch memory: a stretch applies its operations, a region leaves its arrays at what its write-backs make of
  them and every other buffer as entered. The run ends with every unscoped buffer at the last boundary's contents; the
  argument arrays walk back through the fold to the launch memory.
-/
import proofs.«164166_j37589553774758_2_alg».proof.Proof.KI.Region0
import proofs.«164166_j37589553774758_2_alg».proof.Proof.KI.Region1
import proofs.«164166_j37589553774758_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- The first region's entry contents read at the TensorCore's references. -/
abbrev V3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
/-- The second region's entry contents read at the TensorCore's references. -/
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments end as launched -/

/-- A buffer no host stretch writes and no region stages walks back through the fold to the launch memory. -/
theorem W6_bypass (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) :
    W6 m ρ c (Proc.devRef .tc r) = m ((c : Thread nD τ).loc r) :=
  calc W6 m ρ c (Proc.devRef .tc r)
    _ = W5 m ρ c (Proc.devRef .tc r) := W6_of_ne m ρ c r h5
    _ = W4 m ρ c (Proc.devRef .tc r) := StableHlo.after_of_writes_sub hostOps1 _ hostOps1_writes h4
    _ = W3 m ρ c (Proc.devRef .tc r) := W4_of_ne m ρ c r h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

/-- The adjacency matrix, an input window of both regions, is never written either. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 0).trans (((dat1 (V5 m ρ) c).arrAt_in 0 rfl _).trans (A_eq1 (V5 m ρ) c 0))
    _ = W4 m ρ c (Proc.devRef .tc main_arg1) := StableHlo.after_of_writes_sub hostOps1 _ hostOps1_writes (by decide)
    _ = W3 m ρ c (Proc.devRef .tc main_arg1) := (W4_arr m ρ c 0).trans (((dat0 (V3 m ρ) c).arrAt_in 0 rfl _).trans (A_eq0 (V3 m ρ) c 0))
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at the boundary's contents, left at the next
    boundary's. Its arrays are split out of the unscoped buffers and put back at the exit contents; the generator register
    goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at the exit contents; the generator register
    goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## `@main` as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

theorem main_run (c : Dev nD) : main (F := F) c = Pipeline.Seg.run (segs m ρ) := by
  rw [main_chain c, Pipeline.Seg.run_eq_chain]
  rfl

set_option backward.isDefEq.respectTransparency.types false in
/-- THE RUN: from any memory with zero counters every weakly fair execution of `@main` terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME of the program, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W6_bypass m ρ c main_arg0 (by decide) (by decide) (by decide) (by decide) (by decide) (by decide)),
    (h c _ (mem_uc main_arg1 (by decide))).trans (W6_main_arg1 m ρ c),
    (h c _ (mem_uc main_arg2 (by decide))).trans (W6_bypass m ρ c main_arg2 (by decide) (by decide) (by decide) (by decide) (by decide) (by decide)),
    (h c _ (mem_uc main_arg3 (by decide))).trans (W6_bypass m ρ c main_arg3 (by decide) (by decide) (by decide) (by decide) (by decide) (by decide)),
    (h c _ (mem_uc main_arg4 (by decide))).trans (W6_bypass m ρ c main_arg4 (by decide) (by decide) (by decide) (by decide) (by decide) (by decide)),
    (h c _ (mem_uc main_arg5 (by decide))).trans (W6_bypass m ρ c main_arg5 (by decide) (by decide) (by decide) (by decide) (by decide) (by decide)),
    (h c _ (mem_uc main_arg6 (by decide))).trans (W6_bypass m ρ c main_arg6 (by decide) (by decide) (by decide) (by decide) (by decide) (by decide)),
    (h c _ (mem_uc main_arg7 (by decide))).trans (W6_bypass m ρ c main_arg7 (by decide) (by decide) (by decide) (by decide) (by decide) (by decide)),
    (h c _ (mem_uc main_arg8 (by decide))).trans (W6_bypass m ρ c main_arg8 (by decide) (by decide) (by decide) (by decide) (by decide) (by decide)),
    (h c _ (mem_uc main_arg9 (by decide))).trans (W6_bypass m ρ c main_arg9 (by decide) (by decide) (by decide) (by decide) (by decide) (by decide)),
    (h c _ (mem_uc main_arg10 (by decide))).trans (W6_bypass m ρ c main_arg10 (by decide) (by decide) (by decide) (by decide) (by decide) (by decide)),
    (h c _ (mem_uc main_arg11 (by decide))).trans (W6_bypass m ρ c main_arg11 (by decide) (by decide) (by decide) (by decide) (by decide) (by decide))⟩) (run_all m ρ)

end Cert.KernelIdeal.Hand

end
-- ==== Proof.KI.Pieces0.lean ====
/-
  What the three kinds of step of the first kernel leave, as the body's arithmetic: the accumulator ends at itself
  (zero at a first step) plus the product of the block of `A` with the projected tile of rows; at a last step the output
  block is the payload of the final store applied to that accumulator.
-/
import proofs.«164166_j37589553774758_2_alg».proof.Proof.KI.Region0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2_0 : (![0, 0] : Fin 2 → Nat) = fun _ => 0 := by funext a; match a with | ⟨0, _⟩ => rfl | ⟨1, _⟩ => rfl

/-- The tile of 1024 rows the body loads at grid coordinates `i`: rows [1024 k, 1024 (k + 1)) of the resident operand. -/
def xtile0 (i : grid0.Coords) (x1 : Vec F S8192x128 .bf16) : Vec F S1024x128 .bf16 :=
  View.ld x1 (Rect.unit (s := S8192x128) (k0_off1 i) S1024x128.size (k0_off1_inb i))

/-- A middle step: the accumulator gains the step's product. -/
theorem sout0_B_eq (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i) (x0 : Vec F S2048x1024 .f32) (x1 : Vec F S8192x128 .bf16) (x2 : Vec F S128x256 .bf16) (x3 : Vec F S1x256 .f32) (xs0 : Vec F S2048x256 .f32) :
    sout0_B c i arg2 harg2 arg3 harg3 arg4 harg4 arg5 harg5 arg6 harg6 arg7 harg7 hc0 hc1 x0 x1 x2 x3 xs0 = k0_pay2 (xtile0 i x1) x2 x0 xs0 := by
  have hz2 := hz2_0
  unfold sout0_B
  rw [View.read_writes_eq_canon _ _ _ (scover0_B c i arg2 harg2 arg3 harg3 arg4 harg4 arg5 harg5 arg6 harg6 arg7 harg7 hc0 hc1 x0 x1 x2 x3 xs0)]
  unfold kernelRun0_B
  dsimp only
  rw [View.canon_unit_zero hz2]
  simp only [View.readAt_eq_ld, harg2.read_unread, harg3.read_unread, harg4.read_unread, harg5.read_unread, harg7.read_unread, View.ld_unit_zero (S := S2048x1024) hz2, View.ld_unit_zero (S := S128x256) hz2, View.ld_unit_zero (S := S1x256) hz2, View.ld_unit_zero (S := S2048x256) hz2]
  rfl

/-- A first step: the accumulator is the step's product over zero. -/
theorem sout0_A_eq (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i) (x0 : Vec F S2048x1024 .f32) (x1 : Vec F S8192x128 .bf16) (x2 : Vec F S128x256 .bf16) (x3 : Vec F S1x256 .f32) :
    sout0_A c i arg2 harg2 arg3 harg3 arg4 harg4 arg5 harg5 arg6 harg6 arg7 harg7 hc0 hc1 x0 x1 x2 x3 = k0_pay2 (xtile0 i x1) x2 x0 (k0_pay1 (F := F)) := by
  have hz2 := hz2_0
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  rw [View.canon_cons_unit_zero hz2]
  sl_unfold_run_names
  rw [View.readCov_unit_zero _ hz2]
  simp only [View.readAt_eq_ld, harg2.read_unread, harg3.read_unread, harg4.read_unread, harg5.read_unread, harg7.read_unread, View.ld_unit_zero (S := S2048x1024) hz2, View.ld_unit_zero (S := S128x256) hz2, View.ld_unit_zero (S := S1x256) hz2, View.ld_unit_zero (S := S2048x256) hz2]
  rfl

/-- A last step: the accumulator gains the step's product … -/
theorem sout0_C_eq (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i) (x0 : Vec F S2048x1024 .f32) (x1 : Vec F S8192x128 .bf16) (x2 : Vec F S128x256 .bf16) (x3 : Vec F S1x256 .f32) (xs0 : Vec F S2048x256 .f32) :
    sout0_C c i arg2 harg2 arg3 harg3 arg4 harg4 arg5 harg5 arg6 harg6 arg7 harg7 hc0 hc1 x0 x1 x2 x3 xs0 = k0_pay2 (xtile0 i x1) x2 x0 xs0 := by
  have hz2 := hz2_0
  unfold sout0_C
  rw [View.read_writes_eq_canon _ _ _ (scover0_C c i arg2 harg2 arg3 harg3 arg4 harg4 arg5 harg5 arg6 harg6 arg7 harg7 hc0 hc1 x0 x1 x2 x3 xs0)]
  unfold kernelRun0_C
  dsimp only
  sl_unfold_run_names
  rw [View.canon_unit_zero hz2]
  simp only [View.readAt_eq_ld, harg2.read_unread, harg3.read_unread, harg4.read_unread, harg5.read_unread, harg7.read_unread, View.ld_unit_zero (S := S2048x1024) hz2, View.ld_unit_zero (S := S128x256) hz2, View.ld_unit_zero (S := S1x256) hz2, View.ld_unit_zero (S := S2048x256) hz2]
  rfl

/-- … and the output block is the final store's payload of the new accumulator. -/
theorem out0_C_eq (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i) (x0 : Vec F S2048x1024 .f32) (x1 : Vec F S8192x128 .bf16) (x2 : Vec F S128x256 .bf16) (x3 : Vec F S1x256 .f32) (xs0 : Vec F S2048x256 .f32) :
    out0_C c i arg2 harg2 arg3 harg3 arg4 harg4 arg5 harg5 arg6 harg6 arg7 harg7 hc0 hc1 x0 x1 x2 x3 xs0 = k0_pay3 (k0_pay2 (xtile0 i x1) x2 x0 xs0) x3 := by
  have hz2 := hz2_0
  unfold out0_C
  rw [View.read_writes_eq_canon _ _ _ (cover0_C c i arg2 harg2 arg3 harg3 arg4 harg4 arg5 harg5 arg6 harg6 arg7 harg7 hc0 hc1 x0 x1 x2 x3 xs0)]
  unfold kernelRun0_C
  dsimp only
  sl_unfold_run_names
  rw [View.canon_unit_zero hz2, View.readCov_unit_zero _ hz2]
  simp only [View.readAt_eq_ld, harg2.read_unread, harg3.read_unread, harg4.read_unread, harg5.read_unread, harg7.read_unread, View.ld_unit_zero (S := S2048x1024) hz2, View.ld_unit_zero (S := S128x256) hz2, View.ld_unit_zero (S := S1x256) hz2, View.ld_unit_zero (S := S2048x256) hz2]
  rfl

end Cert.KernelIdeal.Hand

end
-- ==== Proof.KI.Blocks0.lean ====
/-
  The first region's blocks as parts of its arrays.

  The grid has 4 × 8 points; point `t` works on row block `t / 8` of the adjacency matrix and column tile `t % 8`.
  Element `(r, j)` of the adjacency window's block at `t` is the matrix's element
  `(2048 (t / 8) + r, 1024 (t % 8) + j)`; the other input windows are whole arrays. The output window is written
  back at the last point of every group of eight, to row block `t / 8`; the four blocks written back tile the
  output array, so the array ends holding whatever one function the written blocks are the restrictions of.
-/
import proofs.«164166_j37589553774758_2_alg».proof.Proof.KI.Region0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

/-! ## The index maps over the grid -/

/-- The windows' block indices at point `t`, decided over the grid: the adjacency window is at `(t / 8, t % 8)`, the
    output window at `(t / 8, 0)`, the others at `(0, 0)`. -/
theorem idx_facts0 : ∀ t : Fin cfg0.N,
    win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

section
variable (V : (c : Dev nD) → (b : Ref sig .tc) → Buf (Elt F) ((c : Thread nD τ).loc b))

/-! ## The input windows' blocks at explicit coordinates -/

/-- The adjacency window's block at point `t`: rows `2048 (t / 8) …`, columns `1024 (t % 8) …` of the matrix. -/
theorem iblk0_0_apply (c : Dev nD) (t : Fin cfg0.N) (r : Fin 2048) (j : Fin 1024) :
    (iblk0 V c 0 t : Vec F S2048x1024 .f32) (ix2 r j)
      = (V c main_arg1 : S8192x8192.Idx → Elt F .f32)
          (ix2 (⟨2048 * (t.val / 8) + r.val, by have := lt_of_lt_of_eq t.isLt (show cfg0.N = 32 from N_0); omega⟩ : Fin 8192)
            (⟨1024 * (t.val % 8) + j.val, by omega⟩ : Fin 8192)) := by
  obtain ⟨e0, e1, -⟩ := idx_facts0 t
  unfold iblk0
  rw [View.read_apply]
  show V c main_arg1 _ = V c main_arg1 _
  refine congrArg (V c main_arg1) (funext fun a => Fin.ext ?_)
  match a with
  | ⟨0, _⟩ => show win0_0.index t (0 : Fin 2) * 2048 + 1 * r.val = 2048 * (t.val / 8) + r.val; rw [e0]; omega
  | ⟨1, _⟩ => show win0_0.index t (1 : Fin 2) * 1024 + 1 * j.val = 1024 * (t.val % 8) + j.val; rw [e1]; omega

/-- The feature window's block is the whole feature array. -/
theorem iblk0_1_apply (c : Dev nD) (t : Fin cfg0.N) (j : Fin 8192) (d : Fin 128) :
    (iblk0 V c 1 t : Vec F S8192x128 .bf16) (ix2 j d) = (V c main_v19 : S8192x128.Idx → Elt F .bf16) (ix2 j d) := by
  obtain ⟨-, -, e0, e1, -⟩ := idx_facts0 t
  unfold iblk0
  rw [View.read_apply]
  show V c main_v19 _ = V c main_v19 _
  refine congrArg (V c main_v19) (funext fun a => Fin.ext ?_)
  match a with
  | ⟨0, _⟩ => show win0_1.index t (0 : Fin 2) * 8192 + 1 * j.val = j.val; rw [e0]; omega
  | ⟨1, _⟩ => show win0_1.index t (1 : Fin 2) * 128 + 1 * d.val = d.val; rw [e1]; omega

/-- The weight window's block is the whole weight array. -/
theorem iblk0_2_apply (c : Dev nD) (t : Fin cfg0.N) (d : Fin 128) (c' : Fin 256) :
    (iblk0 V c 2 t : Vec F S128x256 .bf16) (ix2 d c') = (V c main_v20 : S128x256.Idx → Elt F .bf16) (ix2 d c') := by
  obtain ⟨-, -, -, -, e0, e1, -⟩ := idx_facts0 t
  unfold iblk0
  rw [View.read_apply]
  show V c main_v20 _ = V c main_v20 _
  refine congrArg (V c main_v20) (funext fun a => Fin.ext ?_)
  match a with
  | ⟨0, _⟩ => show win0_2.index t (0 : Fin 2) * 128 + 1 * d.val = d.val; rw [e0]; omega
  | ⟨1, _⟩ => show win0_2.index t (1 : Fin 2) * 256 + 1 * c'.val = c'.val; rw [e1]; omega

/-- The bias window's block is the whole bias row. -/
theorem iblk0_3_apply (c : Dev nD) (t : Fin cfg0.N) (z : Fin 1) (c' : Fin 256) :
    (iblk0 V c 3 t : Vec F S1x256 .f32) (ix2 z c') = (V c main_v21 : S1x256.Idx → Elt F .f32) (ix2 z c') := by
  obtain ⟨-, -, -, -, -, -, e0, e1, -⟩ := idx_facts0 t
  unfold iblk0
  rw [View.read_apply]
  show V c main_v21 _ = V c main_v21 _
  refine congrArg (V c main_v21) (funext fun a => Fin.ext ?_)
  match a with
  | ⟨0, _⟩ => show win0_3.index t (0 : Fin 2) * 1 + 1 * z.val = z.val; rw [e0]; omega
  | ⟨1, _⟩ => show win0_3.index t (1 : Fin 2) * 256 + 1 * c'.val = c'.val; rw [e1]; omega

/-! ## The output array after the region -/

/-- An index of the output array is in point `t`'s block iff each coordinate is in the block's range on its axis. -/
theorem mem_blk0_4 (t : Fin cfg0.N) (i : S8192x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v22).slice (win0_4.rect t)).set ↔ _
  rw [View.set_slice_whole, Rect.mem_set_unit]
  exact Iff.rfl

/-- The output array after the region is `G`, when at every point that writes its block back (the last of each group
    of eight) the block is `G` on rows `2048 (t / 8) …`: the four blocks written back tile the array. -/
theorem arrAt0_of (c : Dev nD) (G : S8192x256.Idx → Elt F .f32)
    (hG : ∀ (t : Fin cfg0.N), t.val % 8 = 7 → ∀ (r : Fin 2048) (c' : Fin 256),
      (outsAt0 V c t.val t.isLt).1 (ix2 r c')
        = G (ix2 (⟨2048 * (t.val / 8) + r.val, by have := lt_of_lt_of_eq t.isLt (show cfg0.N = 32 from N_0); omega⟩ : Fin 8192) c')) :
    (dat0 V c).arrAt 4 cfg0.N = G := by
  refine (dat0 V c).arrAt_eq_of_cover 4 G (fun t hf => ?_) (fun i => ?_)
  · have h7 : t.val % 8 = 7 := (flush0_4 t).mp hf
    obtain ⟨-, -, -, -, -, -, -, -, e0, e1⟩ := idx_facts0 t
    show (cfg0.win 4).cut (grid0.coords t) ((dat0 V c).after 4 t) = _
    rw [after0_4]
    refine funext fun (y : S2048x256.Idx) => ?_
    obtain ⟨r, c', rfl⟩ : ∃ (r : Fin 2048) (c' : Fin 256), y = ix2 r c' := ⟨y 0, y 1, eq_ix2 y⟩
    rw [View.read_apply]
    show (outsAt0 V c t.val t.isLt).1 (ix2 r c') = G (((cfg0.win 4).blk t).view.emb (ix2 r c'))
    rw [hG t h7 r c']
    refine congrArg G (funext fun a => Fin.ext ?_)
    match a with
    | ⟨0, _⟩ => show 2048 * (t.val / 8) + r.val = win0_4.index t (0 : Fin 2) * 2048 + 1 * r.val; rw [e0]; omega
    | ⟨1, _⟩ => show c'.val = win0_4.index t (1 : Fin 2) * 256 + 1 * c'.val; rw [e1]; omega
  · have hi0 : (i 0).val < 8192 := (i 0).isLt
    have hi1 : (i 1).val < 256 := (i 1).isLt
    have hN : cfg0.N = 32 := N_0
    have ht : 8 * ((i 0).val / 2048) + 7 < cfg0.N := by rw [hN]; omega
    obtain ⟨-, -, -, -, -, -, -, -, e0, e1⟩ := idx_facts0 ⟨8 * ((i 0).val / 2048) + 7, ht⟩
    refine ⟨⟨8 * ((i 0).val / 2048) + 7, ht⟩, (flush0_4 _).mpr (by show (8 * ((i 0).val / 2048) + 7) % 8 = 7; omega), ?_⟩
    rw [mem_blk0_4]
    intro a
    match a with
    | ⟨0, _⟩ =>
      show win0_4.index ⟨8 * ((i 0).val / 2048) + 7, ht⟩ (0 : Fin 2) * 2048 ≤ (i 0).val ∧ (i 0).val < win0_4.index ⟨8 * ((i 0).val / 2048) + 7, ht⟩ (0 : Fin 2) * 2048 + 2048
      rw [e0]; show (8 * ((i 0).val / 2048) + 7) / 8 * 2048 ≤ (i 0).val ∧ (i 0).val < (8 * ((i 0).val / 2048) + 7) / 8 * 2048 + 2048; omega
    | ⟨1, _⟩ =>
      show win0_4.index ⟨8 * ((i 0).val / 2048) + 7, ht⟩ (1 : Fin 2) * 256 ≤ (i 1).val ∧ (i 1).val < win0_4.index ⟨8 * ((i 0).val / 2048) + 7, ht⟩ (1 : Fin 2) * 256 + 256
      rw [e1]; omega

end

end Cert.KernelIdeal.Hand

end
-- ==== Proof.KPay.lean ====
/-
  The kernel's stored values read at one index, at the exact (extended-real) instance.

  Each payload of the two kernel functions is a composition of pointwise operations, same-shape casts, a row
  broadcast and matrix products into a zero accumulator. Read at one index, a pointwise operation acts on the
  elements, a same-shape cast and a format change are the identity, a row broadcast reads its one row, and a matrix
  product into zero is the sum over the contracted coordinate of the products of the entries.
-/
import proofs.«164166_j37589553774758_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.StackMember

noncomputable section

open scoped BigOperators

namespace Cert.KernelIdeal.Pay

open Cert.KernelIdeal Cert.KernelIdeal.Gen Idealize.ShloMosaic Idealize.ShloMosaic.ValueIdx

/-! ## A matrix product into the zero accumulator, read at an index -/

/-- The plain product of an `m × k` by a `k × n` matrix accumulated into zero, read at `(a, b)`, is the sum over the
    contracted coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-! The dimension numbers of each of the kernel's five products are the plain ones: the left operand's second axis is
    contracted against the right operand's first. -/

theorem dot_a_eq : dot_S1024x128_S128x256_S1024x256_1_0_0_1_n_n = DotDims.plain 1024 128 256 := rfl
theorem dot_b_eq : dot_S2048x1024_S1024x256_S2048x256_1_0_0_1_n_n = DotDims.plain 2048 1024 256 := rfl
theorem dot_c_eq : dot_S1024x256_S256x256_S1024x256_1_0_0_1_n_n = DotDims.plain 1024 256 256 := rfl
theorem dot_d_eq : dot_S2048x256_S256x128_S2048x128_1_0_0_1_n_n = DotDims.plain 2048 256 128 := rfl
theorem dot_e_eq : dot_S2048x128_S128x1_S2048x1_1_0_0_1_n_n = DotDims.plain 2048 128 1 := rfl

/-- Features `[1024, 128]` times weights `[128, 256]` into zero at `(a, b)`. -/
theorem mm_a {φ₁ φ₂ : FTy} (A : FVec Ideal S1024x128 φ₁) (B : FVec Ideal S128x256 φ₂) (a : Fin 1024) (b : Fin 256) :
    matmul dot_S1024x128_S128x256_S1024x256_1_0_0_1_n_n none A B (constant S1024x256 .f32 0x00000000#32) (ix2 a b)
      = ∑ c : Fin 128, A (ix2 a c) * B (ix2 c b) := by
  rw [dot_a_eq]; exact matmul_plain_zero_apply none A B a b

/-- Adjacency tile `[2048, 1024]` times projected features `[1024, 256]` into zero at `(a, b)`. -/
theorem mm_b {φ₁ φ₂ : FTy} (A : FVec Ideal S2048x1024 φ₁) (B : FVec Ideal S1024x256 φ₂) (a : Fin 2048) (b : Fin 256) :
    matmul dot_S2048x1024_S1024x256_S2048x256_1_0_0_1_n_n none A B (constant S2048x256 .f32 0x00000000#32) (ix2 a b)
      = ∑ c : Fin 1024, A (ix2 a c) * B (ix2 c b) := by
  rw [dot_b_eq]; exact matmul_plain_zero_apply none A B a b

/-- Features `[1024, 256]` times weights `[256, 256]` into zero at `(a, b)`. -/
theorem mm_c {φ₁ φ₂ : FTy} (A : FVec Ideal S1024x256 φ₁) (B : FVec Ideal S256x256 φ₂) (a : Fin 1024) (b : Fin 256) :
    matmul dot_S1024x256_S256x256_S1024x256_1_0_0_1_n_n none A B (constant S1024x256 .f32 0x00000000#32) (ix2 a b)
      = ∑ c : Fin 256, A (ix2 a c) * B (ix2 c b) := by
  rw [dot_c_eq]; exact matmul_plain_zero_apply none A B a b

/-- Node features `[2048, 256]` times weights `[256, 128]` into zero at `(a, b)`. -/
theorem mm_d {φ₁ φ₂ : FTy} (A : FVec Ideal S2048x256 φ₁) (B : FVec Ideal S256x128 φ₂) (a : Fin 2048) (b : Fin 128) :
    matmul dot_S2048x256_S256x128_S2048x128_1_0_0_1_n_n none A B (constant S2048x128 .f32 0x00000000#32) (ix2 a b)
      = ∑ c : Fin 256, A (ix2 a c) * B (ix2 c b) := by
  rw [dot_d_eq]; exact matmul_plain_zero_apply none A B a b

/-- Hidden features `[2048, 128]` times weights `[128, 1]` into zero at `(a, b)`. -/
theorem mm_e {φ₁ φ₂ : FTy} (A : FVec Ideal S2048x128 φ₁) (B : FVec Ideal S128x1 φ₂) (a : Fin 2048) (b : Fin 1) :
    matmul dot_S2048x128_S128x1_S2048x1_1_0_0_1_n_n none A B (constant S2048x1 .f32 0x00000000#32) (ix2 a b)
      = ∑ c : Fin 128, A (ix2 a c) * B (ix2 c b) := by
  rw [dot_e_eq]; exact matmul_plain_zero_apply none A B a b

/-- The splat of the f32 zero word reads the extended real zero everywhere. -/
theorem zero_splat_apply {s : Shape} (i : s.Idx) :
    broadcast s (Scalar.ofBits (F := Ideal) .f32 0x00000000#32) i = 0 := Ideal.ofBits_zero_f32

/-- A bias row added to every row and the result clamped below at zero, read at `(r, c)`. -/
theorem relu_row_apply {a b : Nat} (x : FVec Ideal ⟨2, ![a, b]⟩ .f32) (bias : FVec Ideal ⟨2, ![1, b]⟩ .f32)
    (h : (⟨2, ![1, b]⟩ : Shape).Broadcasts ⟨2, ![a, b]⟩) (r : Fin a) (c : Fin b) :
    maximumf (addf x (broadcastTo ⟨2, ![a, b]⟩ bias h))
        (broadcast ⟨2, ![a, b]⟩ (Scalar.ofBits (F := Ideal) .f32 0x00000000#32)) (ix2 r c)
      = max (x (ix2 r c) + bias (ix2 0 c)) 0 := by
  refine (maximumf_apply _ _ _).trans ?_
  rw [zero_splat_apply]
  refine congrArg (max · 0) ?_
  refine (addf_apply _ _ _).trans (congrArg (x (ix2 r c) + ·) ?_)
  exact broadcastTo_1b_ab_apply bias h r c

/-! ## The first kernel function's payloads -/

/-- The accumulator's initial fill is zero. -/
theorem pay1_0 (r : Fin 2048) (c : Fin 256) : k0_pay1 (F := Ideal) (ix2 r c) = 0 := by
  unfold k0_pay1
  rw [shapeCast_self]
  exact zero_splat_apply _

/-- One accumulation step: the accumulator plus the adjacency tile times the projected feature tile. -/
theorem pay2_0 (v6 : FVec Ideal S1024x128 .bf16) (v8 : FVec Ideal S128x256 .bf16) (v12 : FVec Ideal S2048x1024 .f32)
    (v14 : FVec Ideal S2048x256 .f32) (r : Fin 2048) (c : Fin 256) :
    k0_pay2 (F := Ideal) v6 v8 v12 v14 (ix2 r c)
      = v14 (ix2 r c) + ∑ j : Fin 1024, v12 (ix2 r j) * ∑ d : Fin 128, v6 (ix2 j d) * v8 (ix2 d c) := by
  unfold k0_pay2
  simp only [shapeCast_self]
  refine (addf_apply _ _ _).trans (congrArg (v14 (ix2 r c) + ·) ?_)
  refine (mm_b _ _ r c).trans (Finset.sum_congr rfl fun j _ => ?_)
  exact congrArg (v12 (ix2 r j) * ·) (mm_a v6 v8 j c)

/-- The layer's output: the accumulated sum plus the bias row, clamped below at zero. -/
theorem pay3_0 (v23 : FVec Ideal S2048x256 .f32) (v24 : FVec Ideal S1x256 .f32) (r : Fin 2048) (c : Fin 256) :
    k0_pay3 (F := Ideal) v23 v24 (ix2 r c) = max (v23 (ix2 r c) + v24 (ix2 0 c)) 0 := by
  unfold k0_pay3
  simp only [shapeCast_self]
  exact relu_row_apply v23 v24 _ r c

/-! ## The second kernel function's payloads -/

/-- The accumulator's initial fill is zero. -/
theorem pay1_1 (r : Fin 2048) (c : Fin 256) : k1_pay1 (F := Ideal) (ix2 r c) = 0 := by
  unfold k1_pay1
  rw [shapeCast_self]
  exact zero_splat_apply _

/-- One accumulation step: the accumulator plus the adjacency tile times the projected feature tile. -/
theorem pay2_1 (v6 : FVec Ideal S1024x256 .bf16) (v8 : FVec Ideal S256x256 .bf16) (v12 : FVec Ideal S2048x1024 .f32)
    (v14 : FVec Ideal S2048x256 .f32) (r : Fin 2048) (c : Fin 256) :
    k1_pay2 (F := Ideal) v6 v8 v12 v14 (ix2 r c)
      = v14 (ix2 r c) + ∑ j : Fin 1024, v12 (ix2 r j) * ∑ d : Fin 256, v6 (ix2 j d) * v8 (ix2 d c) := by
  unfold k1_pay2
  simp only [shapeCast_self]
  refine (addf_apply _ _ _).trans (congrArg (v14 (ix2 r c) + ·) ?_)
  refine (mm_b _ _ r c).trans (Finset.sum_congr rfl fun j _ => ?_)
  exact congrArg (v12 (ix2 r j) * ·) (mm_c v6 v8 j c)

/-- The fused head, with the one-entry bias read at the output's own column: the second layer's output (accumulated
    sum plus bias row, clamped), through a dense layer with bias and clamp, through a dense layer into one output,
    plus its bias. -/
theorem pay3_1' (v23 : FVec Ideal S2048x256 .f32) (v24 : FVec Ideal S1x256 .f32) (v31 : FVec Ideal S256x128 .bf16)
    (v34 : FVec Ideal S1x128 .f32) (v41 : FVec Ideal S128x1 .bf16) (v44 : FVec Ideal S1x1 .f32) (r : Fin 2048) (z : Fin 1) :
    k1_pay3 (F := Ideal) v23 v24 v31 v34 v41 v44 (ix2 r z)
      = (∑ e : Fin 128, max ((∑ d : Fin 256, max (v23 (ix2 r d) + v24 (ix2 0 d)) 0 * v31 (ix2 d e)) + v34 (ix2 0 e)) 0
            * v41 (ix2 e z)) + v44 (ix2 0 z) := by
  unfold k1_pay3
  simp only [shapeCast_self]
  refine (addf_apply _ _ _).trans (congrArg₂ (· + ·) ?_ ?_)
  · refine (mm_e _ _ r z).trans (Finset.sum_congr rfl fun e _ => ?_)
    refine congrArg (· * v41 (ix2 e z)) ?_
    refine (relu_row_apply _ v34 _ r e).trans ?_
    refine congrArg (fun t => max (t + v34 (ix2 0 e)) 0) ?_
    refine (mm_d _ _ r e).trans (Finset.sum_congr rfl fun d _ => ?_)
    exact congrArg (· * v31 (ix2 d e)) (relu_row_apply v23 v24 _ r d)
  · exact broadcastTo_1b_ab_apply v44 _ r z

/-- The fused head: the output has one column, so the one-entry bias is read at its only index. -/
theorem pay3_1 (v23 : FVec Ideal S2048x256 .f32) (v24 : FVec Ideal S1x256 .f32) (v31 : FVec Ideal S256x128 .bf16)
    (v34 : FVec Ideal S1x128 .f32) (v41 : FVec Ideal S128x1 .bf16) (v44 : FVec Ideal S1x1 .f32) (r : Fin 2048) (z : Fin 1) :
    k1_pay3 (F := Ideal) v23 v24 v31 v34 v41 v44 (ix2 r z)
      = (∑ e : Fin 128, max ((∑ d : Fin 256, max (v23 (ix2 r d) + v24 (ix2 0 d)) 0 * v31 (ix2 d e)) + v34 (ix2 0 e)) 0
            * v41 (ix2 e z)) + v44 (ix2 0 0) := by
  rw [pay3_1']
  exact congrArg (fun t : Fin 1 => _ + v44 (ix2 0 t)) (Subsingleton.elim z 0)

end Cert.KernelIdeal.Pay

end
-- ==== Proof.Spec.lean ====
/-
  The function both programs compute, over the extended reals, one node at a time.

  A graph-convolution layer maps node features `h` (one row per node) to `relu (A · (h · W) + b)`: node `i`'s new
  feature `c` is the adjacency-weighted sum over all nodes `j` of the projected feature `(h · W) j c`, plus a bias,
  clamped below at zero. Two such layers are followed by a two-layer perceptron applied to each node separately
  (a dense layer with relu, then a dense layer into one output).
-/
import Idealize.ShloMosaic.PureOps.Ideal
import Idealize.ShloMosaic.Lib.ValueIdx

noncomputable section

open scoped BigOperators

namespace Cert.Spec

open Idealize.ShloMosaic Idealize.ShloMosaic.ValueIdx

/-- The projection `h · W` at node `j` and output feature `c`: the sum over the input features. -/
def proj {D C : Nat} (h : Fin 8192 → Fin D → EReal) (W : (⟨2, ![D, C]⟩ : Shape).Idx → EReal) (j : Fin 8192) (c : Fin C) : EReal :=
  ∑ d : Fin D, h j d * W (ix2 d c)

/-- One graph-convolution layer at node `i` and feature `c`: `relu (Σ_j A i j · (h · W) j c + b c)`. -/
def gcn {D C : Nat} (A : (⟨2, ![8192, 8192]⟩ : Shape).Idx → EReal) (h : Fin 8192 → Fin D → EReal)
    (W : (⟨2, ![D, C]⟩ : Shape).Idx → EReal) (b : (⟨1, ![C]⟩ : Shape).Idx → EReal) (i : Fin 8192) (c : Fin C) : EReal :=
  max ((∑ j : Fin 8192, A (ix2 i j) * proj h W j c) + b (ix1 c)) 0

/-- A dense layer applied to one node's features: `(h · W) i c + b c`. -/
def dense {D C : Nat} (h : Fin 8192 → Fin D → EReal) (W : (⟨2, ![D, C]⟩ : Shape).Idx → EReal)
    (b : (⟨1, ![C]⟩ : Shape).Idx → EReal) (i : Fin 8192) (c : Fin C) : EReal :=
  (∑ d : Fin D, h i d * W (ix2 d c)) + b (ix1 c)

/-- The whole network at node `i`, from the normalized features `x`: two graph-convolution layers, a dense layer with
    relu, a dense layer into the one output. -/
def q (A : (⟨2, ![8192, 8192]⟩ : Shape).Idx → EReal) (x : Fin 8192 → Fin 128 → EReal)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wq1 : (⟨2, ![256, 128]⟩ : Shape).Idx → EReal) (bq1 : (⟨1, ![128]⟩ : Shape).Idx → EReal)
    (Wq2 : (⟨2, ![128, 1]⟩ : Shape).Idx → EReal) (bq2 : (⟨1, ![1]⟩ : Shape).Idx → EReal) (i : Fin 8192) : EReal :=
  dense (fun i e => max (dense (gcn A (gcn A x W1 b1) W2 b2) Wq1 bq1 i e) 0) Wq2 bq2 i 0

end Cert.Spec

end
-- ==== Proof.LibTileAccum.lean ====
/-
  Joining a sum accumulated tile by tile to the whole sum.

  The adjacency-weighted sum over all 8192 nodes is computed as eight partial sums, one per tile of 1024 consecutive
  nodes, added one after the other into an accumulator that starts at zero. Over the extended reals addition is
  commutative and associative (an additive commutative monoid), so the accumulated value is the sum over all nodes.
  Nothing here distributes a product over a sum, so no finiteness is needed.
-/
import Mathlib.Algebra.BigOperators.Fin
import Mathlib.Data.Fintype.BigOperators
import Mathlib.Logic.Equiv.Fin.Basic
import Mathlib.Data.EReal.Basic

noncomputable section

open scoped BigOperators

namespace Cert.Accum

/-- A sum over `Fin (m * n)` read as `m` consecutive blocks of `n` terms: block `k`, position `j` is term
    `j + n * k`. -/
theorem blocks_sum {M : Type*} [AddCommMonoid M] (m n : ℕ) (f : Fin (m * n) → M) :
    ∑ k : Fin m, ∑ j : Fin n, f (finProdFinEquiv (k, j)) = ∑ x : Fin (m * n), f x := by
  rw [← Fintype.sum_prod_type' (fun k j => f (finProdFinEquiv (k, j)))]
  exact Equiv.sum_comp finProdFinEquiv f

/-- Eight tiles of 1024 terms make up the sum of all 8192 terms. -/
theorem tiles_sum (f : Fin 8192 → EReal) :
    ∑ k : Fin 8, ∑ j : Fin 1024, f ⟨k.val * 1024 + j.val, by omega⟩ = ∑ n : Fin 8192, f n := by
  refine Eq.trans ?_ (blocks_sum 8 1024 f)
  refine Finset.sum_congr rfl fun k _ => Finset.sum_congr rfl fun j _ => congrArg f (Fin.ext ?_)
  show k.val * 1024 + j.val = j.val + 1024 * k.val
  omega

/-- Eight terms added one after the other into a zero accumulator are their sum. -/
theorem fold8 (d : Fin 8 → EReal) :
    (((((((0 + d 0) + d 1) + d 2) + d 3) + d 4) + d 5) + d 6) + d 7 = ∑ k : Fin 8, d k := by
  rw [Fin.sum_univ_eight, zero_add]

/-- The accumulator after tile `n`: it starts at zero, and each tile adds its partial sum. -/
def accN (d : ℕ → EReal) : ℕ → EReal
  | 0 => 0 + d 0
  | n + 1 => accN d n + d (n + 1)

/-- The accumulator after tile `n` is the sum of the partial sums of tiles `0 … n`. -/
theorem accN_eq (d : ℕ → EReal) (n : ℕ) : accN d n = ∑ k ∈ Finset.range (n + 1), d k := by
  induction n with
  | zero => simp [accN]
  | succ n ih => rw [accN, ih, Finset.sum_range_succ d (n + 1)]

/-- After the eighth tile the accumulator is the sum of all eight partial sums. -/
theorem accN_seven (d : ℕ → EReal) : accN d 7 = ∑ k : Fin 8, d k.val := by
  rw [accN_eq, Finset.sum_range]

/-- The accumulator after the eighth tile, when tile `k`'s partial sum is the sum of `f` over the tile's 1024 terms,
    is the sum of `f` over all 8192 terms. -/
theorem accN_tiles (f : Fin 8192 → EReal) (d : ℕ → EReal)
    (hd : ∀ k : Fin 8, d k.val = ∑ j : Fin 1024, f ⟨k.val * 1024 + j.val, by omega⟩) :
    accN d 7 = ∑ n : Fin 8192, f n := by
  rw [accN_seven, ← tiles_sum f]
  exact Finset.sum_congr rfl fun k _ => hd k

end Cert.Accum

end
-- ==== Proof.LayerValue.lean ====
/-
  One graph-convolution layer's value from its tiled accumulation.

  The layer's adjacency-weighted sum over all 8192 nodes is accumulated over eight tiles of 1024 consecutive nodes:
  the accumulator starts at zero and tile `k` adds the sum, over the tile's nodes `n = 1024 k + j`, of the adjacency
  weight of `n` times the projected feature of `n`. After the eighth tile the bias is added and the result clamped
  below at zero; this is the layer's value as the specification states it, because the eight partial sums add up to
  the sum over all nodes.
-/
import proofs.«164166_j37589553774758_2_alg».proof.Proof.Spec
import proofs.«164166_j37589553774758_2_alg».proof.Proof.LibTileAccum

noncomputable section

open scoped BigOperators

namespace Cert.Accum

open Idealize.ShloMosaic Idealize.ShloMosaic.ValueIdx

/-- Tile `k`'s partial sum of `f`: the sum over the tile's 1024 terms (zero past the eighth tile, which is never
    read). -/
def tileSum (f : Fin 8192 → EReal) (k : ℕ) : EReal :=
  if hk : k < 8 then ∑ j : Fin 1024, f ⟨k * 1024 + j.val, by omega⟩ else 0

/-- Within the eight tiles, tile `k`'s partial sum is the sum over its 1024 terms. -/
theorem tileSum_of_lt (f : Fin 8192 → EReal) (k : ℕ) (hk : k < 8) :
    tileSum f k = ∑ j : Fin 1024, f ⟨k * 1024 + j.val, by omega⟩ := dif_pos hk

/-- The accumulator after the eighth tile of partial sums of `f` is the sum of `f` over all 8192 terms. -/
theorem accN_tileSum (f : Fin 8192 → EReal) : accN (tileSum f) 7 = ∑ n : Fin 8192, f n :=
  accN_tiles f (tileSum f) fun k => tileSum_of_lt f k.val k.isLt

/-- The layer's value from any sequence `d` of partial sums that is, on each of the eight tiles, the adjacency-weighted
    sum of the projected features over the tile's nodes. -/
theorem gcn_of_partial {D C : Nat} (A : (⟨2, ![8192, 8192]⟩ : Shape).Idx → EReal) (h : Fin 8192 → Fin D → EReal)
    (W : (⟨2, ![D, C]⟩ : Shape).Idx → EReal) (b : (⟨1, ![C]⟩ : Shape).Idx → EReal) (i : Fin 8192) (c : Fin C)
    (d : ℕ → EReal)
    (hd : ∀ k : Fin 8, d k.val = ∑ j : Fin 1024,
      A (ix2 i ⟨k.val * 1024 + j.val, by omega⟩) * Cert.Spec.proj h W ⟨k.val * 1024 + j.val, by omega⟩ c) :
    max (accN d 7 + b (ix1 c)) 0 = Cert.Spec.gcn A h W b i c := by
  unfold Cert.Spec.gcn
  rw [accN_tiles (fun n => A (ix2 i n) * Cert.Spec.proj h W n c) d hd]

/-- The layer's value from the accumulation of the eight tiles' partial sums. -/
theorem gcn_of_tiles {D C : Nat} (A : (⟨2, ![8192, 8192]⟩ : Shape).Idx → EReal) (h : Fin 8192 → Fin D → EReal)
    (W : (⟨2, ![D, C]⟩ : Shape).Idx → EReal) (b : (⟨1, ![C]⟩ : Shape).Idx → EReal) (i : Fin 8192) (c : Fin C) :
    max (accN (tileSum fun n => A (ix2 i n) * Cert.Spec.proj h W n c) 7 + b (ix1 c)) 0 = Cert.Spec.gcn A h W b i c := by
  unfold Cert.Spec.gcn
  rw [accN_tileSum]

end Cert.Accum

end
-- ==== Proof.KI.Pieces1.lean ====
/-
  What the three kinds of step of the second kernel leave, as the body's arithmetic: the accumulator ends at itself
  (zero at a first step) plus the product of the block of `A` with the projected tile of rows; at a last step the output
  block is the payload of the final store applied to that accumulator.
-/
import proofs.«164166_j37589553774758_2_alg».proof.Proof.KI.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2_1 : (![0, 0] : Fin 2 → Nat) = fun _ => 0 := by funext a; match a with | ⟨0, _⟩ => rfl | ⟨1, _⟩ => rfl

/-- The tile of 1024 rows the body loads at grid coordinates `i`: rows [1024 k, 1024 (k + 1)) of the resident operand. -/
def xtile1 (i : grid1.Coords) (x1 : Vec F S8192x256 .bf16) : Vec F S1024x256 .bf16 :=
  View.ld x1 (Rect.unit (s := S8192x256) (k1_off1 i) S1024x256.size (k1_off1_inb i))

/-- A middle step: the accumulator gains the step's product. -/
theorem sout1_B_eq (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : ¬cond1_1 i) (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) :
    sout1_B c i arg2 harg2 arg3 harg3 arg4 harg4 arg5 harg5 arg6 harg6 arg7 harg7 arg8 harg8 arg9 harg9 arg10 harg10 arg11 harg11 hc0 hc1 x0 x1 x2 x3 x4 x5 x6 x7 xs0 = k1_pay2 (xtile1 i x1) x2 x0 xs0 := by
  have hz2 := hz2_1
  unfold sout1_B
  rw [View.read_writes_eq_canon _ _ _ (scover1_B c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_B
  dsimp only
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S2048x1024) hz2, View.ld_unit_zero (S := S256x256) hz2, View.ld_unit_zero (S := S1x256) hz2, View.ld_unit_zero (S := S256x128) hz2, View.ld_unit_zero (S := S1x128) hz2, View.ld_unit_zero (S := S128x1) hz2, View.ld_unit_zero (S := S1x1) hz2, View.ld_unit_zero (S := S2048x256) hz2]
  rfl

/-- A first step: the accumulator is the step's product over zero. -/
theorem sout1_A_eq (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : cond1_0 i) (hc1 : ¬cond1_1 i) (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) :
    sout1_A c i arg2 harg2 arg3 harg3 arg4 harg4 arg5 harg5 arg6 harg6 arg7 harg7 arg8 harg8 arg9 harg9 arg10 harg10 arg11 harg11 hc0 hc1 x0 x1 x2 x3 x4 x5 x6 x7 = k1_pay2 (xtile1 i x1) x2 x0 (k1_pay1 (F := F)) := by
  have hz2 := hz2_1
  unfold sout1_A
  rw [View.read_writes_eq_canon _ _ _ (scover1_A c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun1_A
  dsimp only
  rw [View.canon_cons_unit_zero hz2]
  sl_unfold_run_names
  rw [View.readCov_unit_zero _ hz2]
  simp only [View.readAt_eq_ld, harg2.read_unread, harg3.read_unread, harg4.read_unread, harg5.read_unread, harg6.read_unread, harg7.read_unread, harg8.read_unread, harg9.read_unread, harg11.read_unread, View.ld_unit_zero (S := S2048x1024) hz2, View.ld_unit_zero (S := S256x256) hz2, View.ld_unit_zero (S := S1x256) hz2, View.ld_unit_zero (S := S256x128) hz2, View.ld_unit_zero (S := S1x128) hz2, View.ld_unit_zero (S := S128x1) hz2, View.ld_unit_zero (S := S1x1) hz2, View.ld_unit_zero (S := S2048x256) hz2]
  rfl

/-- A last step: the accumulator gains the step's product … -/
theorem sout1_C_eq (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i) (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) :
    sout1_C c i arg2 harg2 arg3 harg3 arg4 harg4 arg5 harg5 arg6 harg6 arg7 harg7 arg8 harg8 arg9 harg9 arg10 harg10 arg11 harg11 hc0 hc1 x0 x1 x2 x3 x4 x5 x6 x7 xs0 = k1_pay2 (xtile1 i x1) x2 x0 xs0 := by
  have hz2 := hz2_1
  unfold sout1_C
  rw [View.read_writes_eq_canon _ _ _ (scover1_C c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_C
  dsimp only
  sl_unfold_run_names
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S2048x1024) hz2, View.ld_unit_zero (S := S256x256) hz2, View.ld_unit_zero (S := S1x256) hz2, View.ld_unit_zero (S := S256x128) hz2, View.ld_unit_zero (S := S1x128) hz2, View.ld_unit_zero (S := S128x1) hz2, View.ld_unit_zero (S := S1x1) hz2, View.ld_unit_zero (S := S2048x256) hz2]
  rfl

/-- … and the output block is the final store's payload of the new accumulator. -/
theorem out1_C_eq (c : Dev nD) (i : grid1.Coords) (arg2 : Memref sig .tc .vmem S2048x1024 .f32) (harg2 : arg2.IsWhole) (arg3 : Memref sig .tc .vmem S8192x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S128x1 .bf16) (harg8 : arg8.IsWhole) (arg9 : Memref sig .tc .vmem S1x1 .f32) (harg9 : arg9.IsWhole) (arg10 : Memref sig .tc .vmem S2048x1 .f32) (harg10 : arg10.IsWhole) (arg11 : Memref sig .tc .vmem S2048x256 .f32) (harg11 : arg11.IsWhole) (hc0 : ¬cond1_0 i) (hc1 : cond1_1 i) (x0 : Vec F S2048x1024 .f32) (x1 : Vec F S8192x256 .bf16) (x2 : Vec F S256x256 .bf16) (x3 : Vec F S1x256 .f32) (x4 : Vec F S256x128 .bf16) (x5 : Vec F S1x128 .f32) (x6 : Vec F S128x1 .bf16) (x7 : Vec F S1x1 .f32) (xs0 : Vec F S2048x256 .f32) :
    out1_C c i arg2 harg2 arg3 harg3 arg4 harg4 arg5 harg5 arg6 harg6 arg7 harg7 arg8 harg8 arg9 harg9 arg10 harg10 arg11 harg11 hc0 hc1 x0 x1 x2 x3 x4 x5 x6 x7 xs0 = k1_pay3 (k1_pay2 (xtile1 i x1) x2 x0 xs0) x3 x4 x5 x6 x7 := by
  have hz2 := hz2_1
  unfold out1_C
  rw [View.read_writes_eq_canon _ _ _ (cover1_C c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_C
  dsimp only
  sl_unfold_run_names
  rw [View.canon_unit_zero hz2, View.readCov_unit_zero _ hz2]
  simp only [View.readAt_eq_ld, harg2.read_unread, harg3.read_unread, harg4.read_unread, harg5.read_unread, harg6.read_unread, harg7.read_unread, harg8.read_unread, harg9.read_unread, harg11.read_unread, View.ld_unit_zero (S := S2048x1024) hz2, View.ld_unit_zero (S := S256x256) hz2, View.ld_unit_zero (S := S1x256) hz2, View.ld_unit_zero (S := S256x128) hz2, View.ld_unit_zero (S := S1x128) hz2, View.ld_unit_zero (S := S128x1) hz2, View.ld_unit_zero (S := S1x1) hz2, View.ld_unit_zero (S := S2048x256) hz2, View.ld_unit_zero (S := S2048x1) hz2]
  rfl

end Cert.KernelIdeal.Hand

end
-- ==== Proof.KI.Tile.lean ====
/-
  The tile of rows the body loads from the resident feature operand.

  At grid point `t` the body reads the 1024 rows starting at row `1024 (t % 8)`: element `(j, d)` of the tile is
  element `(1024 (t % 8) + j, d)` of the operand.
-/
import proofs.«164166_j37589553774758_2_alg».proof.Proof.KI.Pieces0
import proofs.«164166_j37589553774758_2_alg».proof.Proof.KI.Pieces1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

/-- The first kernel's row offset at point `t`, decided over the grid: row `1024 (t % 8)`, column 0. -/
theorem off_facts0 : ∀ t : Fin cfg0.N,
    k0_off1 (grid0.coords t) (0 : Fin 2) = 1024 * (t.val % 8) ∧ k0_off1 (grid0.coords t) (1 : Fin 2) = 0 :=
  (by decide +kernel : ∀ t : Fin grid0.N, _)

/-- The second kernel's row offset at point `t`, decided over the grid: row `1024 (t % 8)`, column 0. -/
theorem off_facts1 : ∀ t : Fin cfg1.N,
    k1_off1 (grid1.coords t) (0 : Fin 2) = 1024 * (t.val % 8) ∧ k1_off1 (grid1.coords t) (1 : Fin 2) = 0 :=
  (by decide +kernel : ∀ t : Fin grid1.N, _)

/-- The first kernel's tile at point `t` is rows `1024 (t % 8) …` of the operand. -/
theorem xtile0_apply (t : Fin cfg0.N) (x1 : Vec F S8192x128 .bf16) (j : Fin 1024) (d : Fin 128) :
    xtile0 (grid0.coords t) x1 (ix2 j d) = x1 (ix2 (⟨1024 * (t.val % 8) + j.val, by omega⟩ : Fin 8192) d) := by
  obtain ⟨e0, e1⟩ := off_facts0 t
  unfold xtile0
  show x1 ((Rect.unit (s := S8192x128) (k0_off1 (grid0.coords t)) S1024x128.size (k0_off1_inb (grid0.coords t))).emb (ix2 j d)) = _
  refine congrArg x1 (funext fun a => Fin.ext ?_)
  match a with
  | ⟨0, _⟩ => show k0_off1 (grid0.coords t) (0 : Fin 2) + 1 * j.val = 1024 * (t.val % 8) + j.val; rw [e0]; omega
  | ⟨1, _⟩ => show k0_off1 (grid0.coords t) (1 : Fin 2) + 1 * d.val = d.val; rw [e1]; omega

/-- The second kernel's tile at point `t` is rows `1024 (t % 8) …` of the operand. -/
theorem xtile1_apply (t : Fin cfg1.N) (x1 : Vec F S8192x256 .bf16) (j : Fin 1024) (d : Fin 256) :
    xtile1 (grid1.coords t) x1 (ix2 j d) = x1 (ix2 (⟨1024 * (t.val % 8) + j.val, by omega⟩ : Fin 8192) d) := by
  obtain ⟨e0, e1⟩ := off_facts1 t
  unfold xtile1
  show x1 ((Rect.unit (s := S8192x256) (k1_off1 (grid1.coords t)) S1024x256.size (k1_off1_inb (grid1.coords t))).emb (ix2 j d)) = _
  refine congrArg x1 (funext fun a => Fin.ext ?_)
  match a with
  | ⟨0, _⟩ => show k1_off1 (grid1.coords t) (0 : Fin 2) + 1 * j.val = 1024 * (t.val % 8) + j.val; rw [e0]; omega
  | ⟨1, _⟩ => show k1_off1 (grid1.coords t) (1 : Fin 2) + 1 * d.val = d.val; rw [e1]; omega

end Cert.KernelIdeal.Hand

end
-- ==== Proof.KI.Blocks1.lean ====
/-
  The second region's blocks as parts of its arrays.

  The grid has 4 × 8 points; point `t` works on row block `t / 8` of the adjacency matrix and column tile `t % 8`.
  Element `(r, j)` of the adjacency window's block at `t` is the matrix's element
  `(2048 (t / 8) + r, 1024 (t % 8) + j)`; the other input windows are whole arrays. The output window is written
  back at the last point of every group of eight, to row block `t / 8`; the four blocks written back tile the
  output array, so the array ends holding whatever one function the written blocks are the restrictions of.
-/
import proofs.«164166_j37589553774758_2_alg».proof.Proof.KI.Region1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

/-! ## The index maps over the grid -/

/-- The windows' block indices at point `t`, decided over the grid: the adjacency window is at `(t / 8, t % 8)`, the
    output window at `(t / 8, 0)`, the others at `(0, 0)`. -/
theorem idx_facts1 : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val / 8 ∧ win1_8.index t (1 : Fin 2) = 0 :=
  (by decide +kernel : ∀ t : Fin grid1.N, _)

section
variable (V : (c : Dev nD) → (b : Ref sig .tc) → Buf (Elt F) ((c : Thread nD τ).loc b))

/-! ## The input windows' blocks at explicit coordinates -/

/-- The adjacency window's block at point `t`: rows `2048 (t / 8) …`, columns `1024 (t % 8) …` of the matrix. -/
theorem iblk1_0_apply (c : Dev nD) (t : Fin cfg1.N) (r : Fin 2048) (j : Fin 1024) :
    (iblk1 V c 0 t : Vec F S2048x1024 .f32) (ix2 r j)
      = (V c main_arg1 : S8192x8192.Idx → Elt F .f32)
          (ix2 (⟨2048 * (t.val / 8) + r.val, by have := lt_of_lt_of_eq t.isLt (show cfg1.N = 32 from N_1); omega⟩ : Fin 8192)
            (⟨1024 * (t.val % 8) + j.val, by omega⟩ : Fin 8192)) := by
  obtain ⟨e0, e1, -⟩ := idx_facts1 t
  unfold iblk1
  rw [View.read_apply]
  show V c main_arg1 _ = V c main_arg1 _
  refine congrArg (V c main_arg1) (funext fun a => Fin.ext ?_)
  match a with
  | ⟨0, _⟩ => show win1_0.index t (0 : Fin 2) * 2048 + 1 * r.val = 2048 * (t.val / 8) + r.val; rw [e0]; omega
  | ⟨1, _⟩ => show win1_0.index t (1 : Fin 2) * 1024 + 1 * j.val = 1024 * (t.val % 8) + j.val; rw [e1]; omega

/-- The feature window's block is the whole feature array. -/
theorem iblk1_1_apply (c : Dev nD) (t : Fin cfg1.N) (a' : Fin 8192) (b' : Fin 256) :
    (iblk1 V c 1 t : Vec F S8192x256 .bf16) (ix2 a' b') = (V c main_v23 : S8192x256.Idx → Elt F .bf16) (ix2 a' b') := by
  obtain ⟨-, -, e0, e1, -⟩ := idx_facts1 t
  unfold iblk1
  rw [View.read_apply]
  show V c main_v23 _ = V c main_v23 _
  refine congrArg (V c main_v23) (funext fun a => Fin.ext ?_)
  match a with
  | ⟨0, _⟩ => show win1_1.index t (0 : Fin 2) * 8192 + 1 * a'.val = a'.val; rw [e0]; omega
  | ⟨1, _⟩ => show win1_1.index t (1 : Fin 2) * 256 + 1 * b'.val = b'.val; rw [e1]; omega

/-- The layer weight window's block is the whole weight array. -/
theorem iblk1_2_apply (c : Dev nD) (t : Fin cfg1.N) (a' : Fin 256) (b' : Fin 256) :
    (iblk1 V c 2 t : Vec F S256x256 .bf16) (ix2 a' b') = (V c main_v24 : S256x256.Idx → Elt F .bf16) (ix2 a' b') := by
  obtain ⟨-, -, -, -, e0, e1, -⟩ := idx_facts1 t
  unfold iblk1
  rw [View.read_apply]
  show V c main_v24 _ = V c main_v24 _
  refine congrArg (V c main_v24) (funext fun a => Fin.ext ?_)
  match a with
  | ⟨0, _⟩ => show win1_2.index t (0 : Fin 2) * 256 + 1 * a'.val = a'.val; rw [e0]; omega
  | ⟨1, _⟩ => show win1_2.index t (1 : Fin 2) * 256 + 1 * b'.val = b'.val; rw [e1]; omega

/-- The layer bias window's block is the whole bias row. -/
theorem iblk1_3_apply (c : Dev nD) (t : Fin cfg1.N) (a' : Fin 1) (b' : Fin 256) :
    (iblk1 V c 3 t : Vec F S1x256 .f32) (ix2 a' b') = (V c main_v25 : S1x256.Idx → Elt F .f32) (ix2 a' b') := by
  obtain ⟨-, -, -, -, -, -, e0, e1, -⟩ := idx_facts1 t
  unfold iblk1
  rw [View.read_apply]
  show V c main_v25 _ = V c main_v25 _
  refine congrArg (V c main_v25) (funext fun a => Fin.ext ?_)
  match a with
  | ⟨0, _⟩ => show win1_3.index t (0 : Fin 2) * 1 + 1 * a'.val = a'.val; rw [e0]; omega
  | ⟨1, _⟩ => show win1_3.index t (1 : Fin 2) * 256 + 1 * b'.val = b'.val; rw [e1]; omega

/-- The first dense weight window's block is the whole weight array. -/
theorem iblk1_4_apply (c : Dev nD) (t : Fin cfg1.N) (a' : Fin 256) (b' : Fin 128) :
    (iblk1 V c 4 t : Vec F S256x128 .bf16) (ix2 a' b') = (V c main_v26 : S256x128.Idx → Elt F .bf16) (ix2 a' b') := by
  obtain ⟨-, -, -, -, -, -, -, -, e0, e1, -⟩ := idx_facts1 t
  unfold iblk1
  rw [View.read_apply]
  show V c main_v26 _ = V c main_v26 _
  refine congrArg (V c main_v26) (funext fun a => Fin.ext ?_)
  match a with
  | ⟨0, _⟩ => show win1_4.index t (0 : Fin 2) * 256 + 1 * a'.val = a'.val; rw [e0]; omega
  | ⟨1, _⟩ => show win1_4.index t (1 : Fin 2) * 128 + 1 * b'.val = b'.val; rw [e1]; omega

/-- The first dense bias window's block is the whole bias row. -/
theorem iblk1_5_apply (c : Dev nD) (t : Fin cfg1.N) (a' : Fin 1) (b' : Fin 128) :
    (iblk1 V c 5 t : Vec F S1x128 .f32) (ix2 a' b') = (V c main_v27 : S1x128.Idx → Elt F .f32) (ix2 a' b') := by
  obtain ⟨-, -, -, -, -, -, -, -, -, -, e0, e1, -⟩ := idx_facts1 t
  unfold iblk1
  rw [View.read_apply]
  show V c main_v27 _ = V c main_v27 _
  refine congrArg (V c main_v27) (funext fun a => Fin.ext ?_)
  match a with
  | ⟨0, _⟩ => show win1_5.index t (0 : Fin 2) * 1 + 1 * a'.val = a'.val; rw [e0]; omega
  | ⟨1, _⟩ => show win1_5.index t (1 : Fin 2) * 128 + 1 * b'.val = b'.val; rw [e1]; omega

/-- The second dense weight window's block is the whole weight array. -/
theorem iblk1_6_apply (c : Dev nD) (t : Fin cfg1.N) (a' : Fin 128) (b' : Fin 1) :
    (iblk1 V c 6 t : Vec F S128x1 .bf16) (ix2 a' b') = (V c main_v28 : S128x1.Idx → Elt F .bf16) (ix2 a' b') := by
  obtain ⟨-, -, -, -, -, -, -, -, -, -, -, -, e0, e1, -⟩ := idx_facts1 t
  unfold iblk1
  rw [View.read_apply]
  show V c main_v28 _ = V c main_v28 _
  refine congrArg (V c main_v28) (funext fun a => Fin.ext ?_)
  match a with
  | ⟨0, _⟩ => show win1_6.index t (0 : Fin 2) * 128 + 1 * a'.val = a'.val; rw [e0]; omega
  | ⟨1, _⟩ => show win1_6.index t (1 : Fin 2) * 1 + 1 * b'.val = b'.val; rw [e1]; omega

/-- The second dense bias window's block is the whole one-entry array. -/
theorem iblk1_7_apply (c : Dev nD) (t : Fin cfg1.N) (a' : Fin 1) (b' : Fin 1) :
    (iblk1 V c 7 t : Vec F S1x1 .f32) (ix2 a' b') = (V c main_v29 : S1x1.Idx → Elt F .f32) (ix2 a' b') := by
  obtain ⟨-, -, -, -, -, -, -, -, -, -, -, -, -, -, e0, e1, -⟩ := idx_facts1 t
  unfold iblk1
  rw [View.read_apply]
  show V c main_v29 _ = V c main_v29 _
  refine congrArg (V c main_v29) (funext fun a => Fin.ext ?_)
  match a with
  | ⟨0, _⟩ => show win1_7.index t (0 : Fin 2) * 1 + 1 * a'.val = a'.val; rw [e0]; omega
  | ⟨1, _⟩ => show win1_7.index t (1 : Fin 2) * 1 + 1 * b'.val = b'.val; rw [e1]; omega

/-! ## The output array after the region -/

/-- An index of the output array is in point `t`'s block iff each coordinate is in the block's range on its axis. -/
theorem mem_blk1_8 (t : Fin cfg1.N) (i : S8192x1.Idx) :
    i ∈ ((cfg1.win 8).blk t).view.set ↔ ∀ a : Fin 2, win1_8.index t a * S2048x1.size a ≤ (i a).val ∧ (i a).val < win1_8.index t a * S2048x1.size a + S2048x1.size a := by
  show i ∈ ((View.whole main_v30).slice (win1_8.rect t)).set ↔ _
  rw [View.set_slice_whole, Rect.mem_set_unit]
  exact Iff.rfl

/-- The output array after the region is `G`, when at every point that writes its block back (the last of each group
    of eight) the block is `G` on rows `2048 (t / 8) …`: the four blocks written back tile the array. -/
theorem arrAt1_of (c : Dev nD) (G : S8192x1.Idx → Elt F .f32)
    (hG : ∀ (t : Fin cfg1.N), t.val % 8 = 7 → ∀ (r : Fin 2048) (c' : Fin 1),
      (outsAt1 V c t.val t.isLt).1 (ix2 r c')
        = G (ix2 (⟨2048 * (t.val / 8) + r.val, by have := lt_of_lt_of_eq t.isLt (show cfg1.N = 32 from N_1); omega⟩ : Fin 8192) c')) :
    (dat1 V c).arrAt 8 cfg1.N = G := by
  refine (dat1 V c).arrAt_eq_of_cover 8 G (fun t hf => ?_) (fun i => ?_)
  · have h7 : t.val % 8 = 7 := (flush1_8 t).mp hf
    obtain ⟨-, -, -, -, -, -, -, -, -, -, -, -, -, -, -, -, e0, e1⟩ := idx_facts1 t
    show (cfg1.win 8).cut (grid1.coords t) ((dat1 V c).after 8 t) = _
    rw [after1_8]
    refine funext fun (y : S2048x1.Idx) => ?_
    obtain ⟨r, c', rfl⟩ : ∃ (r : Fin 2048) (c' : Fin 1), y = ix2 r c' := ⟨y 0, y 1, eq_ix2 y⟩
    rw [View.read_apply]
    show (outsAt1 V c t.val t.isLt).1 (ix2 r c') = G (((cfg1.win 8).blk t).view.emb (ix2 r c'))
    rw [hG t h7 r c']
    refine congrArg G (funext fun a => Fin.ext ?_)
    match a with
    | ⟨0, _⟩ => show 2048 * (t.val / 8) + r.val = win1_8.index t (0 : Fin 2) * 2048 + 1 * r.val; rw [e0]; omega
    | ⟨1, _⟩ => show c'.val = win1_8.index t (1 : Fin 2) * 1 + 1 * c'.val; rw [e1]; omega
  · have hi0 : (i 0).val < 8192 := (i 0).isLt
    have hi1 : (i 1).val < 1 := (i 1).isLt
    have hN : cfg1.N = 32 := N_1
    have ht : 8 * ((i 0).val / 2048) + 7 < cfg1.N := by rw [hN]; omega
    obtain ⟨-, -, -, -, -, -, -, -, -, -, -, -, -, -, -, -, e0, e1⟩ := idx_facts1 ⟨8 * ((i 0).val / 2048) + 7, ht⟩
    refine ⟨⟨8 * ((i 0).val / 2048) + 7, ht⟩, (flush1_8 _).mpr (by show (8 * ((i 0).val / 2048) + 7) % 8 = 7; omega), ?_⟩
    rw [mem_blk1_8]
    intro a
    match a with
    | ⟨0, _⟩ =>
      show win1_8.index ⟨8 * ((i 0).val / 2048) + 7, ht⟩ (0 : Fin 2) * 2048 ≤ (i 0).val ∧ (i 0).val < win1_8.index ⟨8 * ((i 0).val / 2048) + 7, ht⟩ (0 : Fin 2) * 2048 + 2048
      rw [e0]; show (8 * ((i 0).val / 2048) + 7) / 8 * 2048 ≤ (i 0).val ∧ (i 0).val < (8 * ((i 0).val / 2048) + 7) / 8 * 2048 + 2048; omega
    | ⟨1, _⟩ =>
      show win1_8.index ⟨8 * ((i 0).val / 2048) + 7, ht⟩ (1 : Fin 2) * 1 ≤ (i 1).val ∧ (i 1).val < win1_8.index ⟨8 * ((i 0).val / 2048) + 7, ht⟩ (1 : Fin 2) * 1 + 1
      rw [e1]; omega

end

end Cert.KernelIdeal.Hand

end
-- ==== Proof.KI.TileSum.lean ====
/-
  One accumulation step's product as a tile's partial sum.

  At grid point `t` the step adds, at row `r` and feature `c'`, the sum over the tile's 1024 nodes `j` of the adjacency
  block's entry `(r, j)` times the projected feature of the tile's node `j`. Read through the blocks, the adjacency
  entry is the matrix's entry at row `2048 (t / 8) + r` and column `1024 (t % 8) + j`, and the tile's node `j` is node
  `1024 (t % 8) + j`: the step's product is tile `t % 8`'s partial sum of the layer's adjacency-weighted sum for node
  `2048 (t / 8) + r`.
-/
import proofs.«164166_j37589553774758_2_alg».proof.Proof.KI.Tile
import proofs.«164166_j37589553774758_2_alg».proof.Proof.KI.Blocks0
import proofs.«164166_j37589553774758_2_alg».proof.Proof.KI.Blocks1
import proofs.«164166_j37589553774758_2_alg».proof.Proof.KPay
import proofs.«164166_j37589553774758_2_alg».proof.Proof.LayerValue

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

section
variable (V : (c : Dev nD) → (b : Ref sig .tc) → Buf (Elt Ideal) ((c : Thread nD τ).loc b))

/-- The region's entry contents of the arrays the accumulation reads, at their array types. -/
abbrev arrA0 (c : Dev nD) : S8192x8192.Idx → EReal := V c main_arg1
abbrev arrX0 (c : Dev nD) : S8192x128.Idx → EReal := V c main_v19
abbrev arrW0 (c : Dev nD) : S128x256.Idx → EReal := V c main_v20

abbrev bA0 (c : Dev nD) (t : Fin cfg0.N) : FVec Ideal S2048x1024 .f32 := iblk0 V c 0 t
abbrev bX0 (c : Dev nD) (t : Fin cfg0.N) : FVec Ideal S1024x128 .bf16 := xtile0 (grid0.coords t) (iblk0 V c 1 t)
abbrev bW0 (c : Dev nD) (t : Fin cfg0.N) : FVec Ideal S128x256 .bf16 := iblk0 V c 2 t

/-- The first region's step product at point `t` is tile `t % 8`'s partial sum for node `2048 (t / 8) + r`. -/
theorem tile0_eq (c : Dev nD) (t : Fin cfg0.N) (r : Fin 2048) (c' : Fin 256) :
     (∑ j : Fin 1024, bA0 V c t (ix2 r j) * ∑ d : Fin 128, bX0 V c t (ix2 j d) * bW0 V c t (ix2 d c'))
       = Cert.Accum.tileSum (fun n' => arrA0 V c (ix2 ⟨2048 * (t.val / 8) + r.val, by have := lt_of_lt_of_eq t.isLt (show cfg0.N = 32 from N_0); omega⟩ n') * Cert.Spec.proj (fun j d => arrX0 V c (ix2 j d)) (arrW0 V c) n' c') (t.val % 8) := by
  have hk : t.val % 8 < 8 := Nat.mod_lt _ (by decide)
  rw [Cert.Accum.tileSum_of_lt _ _ hk]
  refine Finset.sum_congr rfl fun j _ => ?_
  have hn : (⟨1024 * (t.val % 8) + j.val, by omega⟩ : Fin 8192) = ⟨t.val % 8 * 1024 + j.val, by omega⟩ :=
    Fin.ext (show 1024 * (t.val % 8) + j.val = t.val % 8 * 1024 + j.val by omega)
  refine congrArg₂ (· * ·) ((iblk0_0_apply V c t r j).trans (by rw [hn])) ?_
  unfold Cert.Spec.proj
  refine Finset.sum_congr rfl fun d _ => ?_
  exact congrArg₂ (· * ·) ((xtile0_apply t _ j d).trans ((iblk0_1_apply V c t _ d).trans (by rw [hn])))
    (iblk0_2_apply V c t d c')

/-- The region's entry contents of the arrays the accumulation reads, at their array types. -/
abbrev arrA1 (c : Dev nD) : S8192x8192.Idx → EReal := V c main_arg1
abbrev arrX1 (c : Dev nD) : S8192x256.Idx → EReal := V c main_v23
abbrev arrW1 (c : Dev nD) : S256x256.Idx → EReal := V c main_v24

abbrev bA1 (c : Dev nD) (t : Fin cfg1.N) : FVec Ideal S2048x1024 .f32 := iblk1 V c 0 t
abbrev bX1 (c : Dev nD) (t : Fin cfg1.N) : FVec Ideal S1024x256 .bf16 := xtile1 (grid1.coords t) (iblk1 V c 1 t)
abbrev bW1 (c : Dev nD) (t : Fin cfg1.N) : FVec Ideal S256x256 .bf16 := iblk1 V c 2 t

/-- The second region's step product at point `t` is tile `t % 8`'s partial sum for node `2048 (t / 8) + r`. -/
theorem tile1_eq (c : Dev nD) (t : Fin cfg1.N) (r : Fin 2048) (c' : Fin 256) :
     (∑ j : Fin 1024, bA1 V c t (ix2 r j) * ∑ d : Fin 256, bX1 V c t (ix2 j d) * bW1 V c t (ix2 d c'))
       = Cert.Accum.tileSum (fun n' => arrA1 V c (ix2 ⟨2048 * (t.val / 8) + r.val, by have := lt_of_lt_of_eq t.isLt (show cfg1.N = 32 from N_1); omega⟩ n') * Cert.Spec.proj (fun j d => arrX1 V c (ix2 j d)) (arrW1 V c) n' c') (t.val % 8) := by
  have hk : t.val % 8 < 8 := Nat.mod_lt _ (by decide)
  rw [Cert.Accum.tileSum_of_lt _ _ hk]
  refine Finset.sum_congr rfl fun j _ => ?_
  have hn : (⟨1024 * (t.val % 8) + j.val, by omega⟩ : Fin 8192) = ⟨t.val % 8 * 1024 + j.val, by omega⟩ :=
    Fin.ext (show 1024 * (t.val % 8) + j.val = t.val % 8 * 1024 + j.val by omega)
  refine congrArg₂ (· * ·) ((iblk1_0_apply V c t r j).trans (by rw [hn])) ?_
  unfold Cert.Spec.proj
  refine Finset.sum_congr rfl fun d _ => ?_
  exact congrArg₂ (· * ·) ((xtile1_apply t _ j d).trans ((iblk1_1_apply V c t _ d).trans (by rw [hn])))
    (iblk1_2_apply V c t d c')

/-- The first region's accumulation step at point `t`, read at `(r, c')`: the accumulator plus tile `t % 8`'s partial
    sum. -/
theorem step0_eq (c : Dev nD) (t : Fin cfg0.N) (acc : FVec Ideal S2048x256 .f32) (r : Fin 2048) (c' : Fin 256) :
    k0_pay2 (F := Ideal) (bX0 V c t) (bW0 V c t) (bA0 V c t) acc (ix2 r c')
      = acc (ix2 r c') + Cert.Accum.tileSum (fun n' => arrA0 V c (ix2 ⟨2048 * (t.val / 8) + r.val, by have := lt_of_lt_of_eq t.isLt (show cfg0.N = 32 from N_0); omega⟩ n') * Cert.Spec.proj (fun j d => arrX0 V c (ix2 j d)) (arrW0 V c) n' c') (t.val % 8) :=
  (Cert.KernelIdeal.Pay.pay2_0 (bX0 V c t) (bW0 V c t) (bA0 V c t) acc r c').trans
    (congrArg (acc (ix2 r c') + ·) (tile0_eq V c t r c'))

/-- The second region's accumulation step at point `t`, read at `(r, c')`: the accumulator plus tile `t % 8`'s partial
    sum. -/
theorem step1_eq (c : Dev nD) (t : Fin cfg1.N) (acc : FVec Ideal S2048x256 .f32) (r : Fin 2048) (c' : Fin 256) :
    k1_pay2 (F := Ideal) (bX1 V c t) (bW1 V c t) (bA1 V c t) acc (ix2 r c')
      = acc (ix2 r c') + Cert.Accum.tileSum (fun n' => arrA1 V c (ix2 ⟨2048 * (t.val / 8) + r.val, by have := lt_of_lt_of_eq t.isLt (show cfg1.N = 32 from N_1); omega⟩ n') * Cert.Spec.proj (fun j d => arrX1 V c (ix2 j d)) (arrW1 V c) n' c') (t.val % 8) :=
  (Cert.KernelIdeal.Pay.pay2_1 (bX1 V c t) (bW1 V c t) (bA1 V c t) acc r c').trans
    (congrArg (acc (ix2 r c') + ·) (tile1_eq V c t r c'))

end

end Cert.KernelIdeal.Hand

end
-- ==== Proof.KI.Acc0.lean ====
/-
  The first kernel's accumulator over a group of eight grid points, at the ideal instance: after step `k` of row block `m` the
  accumulator's entry (r, c') is the sum of the first `k + 1` column tiles' contributions to `Σ_n A (2048 m + r) n · (h · W) n c'`,
  so after the eighth it is the whole sum.
-/
import proofs.«164166_j37589553774758_2_alg».proof.Proof.KI.Pieces0
import proofs.«164166_j37589553774758_2_alg».proof.Proof.KI.Blocks0
import proofs.«164166_j37589553774758_2_alg».proof.Proof.KPay
import proofs.«164166_j37589553774758_2_alg».proof.Proof.LayerValue
import proofs.«164166_j37589553774758_2_alg».proof.Proof.KI.TileSum

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Pay Cert.Accum
open scoped BigOperators

section
variable (V : (c : Dev nD) → (b : Ref sig .tc) → Buf (Elt Ideal) ((c : Thread nD τ).loc b))

/-- The row of the whole array that row `r` of point `t`'s output block is. -/
def rowOf0 (t : Fin cfg0.N) (r : Fin 2048) : Fin 8192 :=
  ⟨2048 * (t.val / 8) + r.val, by have := lt_of_lt_of_eq t.isLt (show cfg0.N = 32 from N_0); omega⟩

/-- Entry `n'` of the sum for row `R` and feature `c'`: `A R n' · (h · W) n' c'`, read off the region's entry contents. -/
def rowf0 (c : Dev nD) (R : Fin 8192) (c' : Fin 256) : Fin 8192 → EReal :=
  fun n' => arrA0 V c (ix2 R n') * Cert.Spec.proj (fun j d => arrX0 V c (ix2 j d)) (arrW0 V c) n' c'

/-- One step: the accumulator after point `t` is what the point before left (nothing at a first step) plus the tile's
    contribution. -/
theorem acc_step0 (c : Dev nD) (t : Fin cfg0.N) (r : Fin 2048) (c' : Fin 256) :
    (outsAt0 V c t.val t.isLt).2 (ix2 r c')
      = (if t.val % 8 = 0 then 0 else (outsAt0 V c (t.val - 1) (Nat.lt_of_le_of_lt (Nat.sub_le _ _) t.isLt)).2 (ix2 r c'))
        + tileSum (rowf0 V c (rowOf0 t r) c') (t.val % 8) := by
  by_cases h0 : t.val % 8 = 0
  · have h1 : ¬t.val % 8 = 7 := by omega
    rw [outsAt0_A V c t h0 h1, if_pos h0]
    dsimp only
    rw [sout0_A_eq]
    refine (pay2_0 _ _ _ _ r c').trans ?_
    rw [pay1_0]
    exact congrArg (0 + ·) (tile0_eq V c t r c')
  · rw [if_neg h0]
    by_cases h1 : t.val % 8 = 7
    · rw [outsAt0_C V c t h0 h1]
      dsimp only
      rw [sout0_C_eq]
      refine (pay2_0 _ _ _ _ r c').trans ?_
      exact congrArg (_ + ·) (tile0_eq V c t r c')
    · rw [outsAt0_B V c t h0 h1]
      dsimp only
      rw [sout0_B_eq]
      refine (pay2_0 _ _ _ _ r c').trans ?_
      exact congrArg (_ + ·) (tile0_eq V c t r c')

/-- The accumulator after point `n`: the partial sum over the column tiles up to this one. -/
theorem acc0 (c : Dev nD) (r : Fin 2048) (c' : Fin 256) : ∀ (n : ℕ) (hn : n < cfg0.N),
    (outsAt0 V c n hn).2 (ix2 r c') = accN (tileSum (rowf0 V c (rowOf0 ⟨n, hn⟩ r) c')) (n % 8)
  | 0, hn => by
    rw [acc_step0 V c ⟨0, hn⟩ r c']
    rfl
  | n + 1, hn => by
    rw [acc_step0 V c ⟨n + 1, hn⟩ r c']
    by_cases h : (n + 1) % 8 = 0
    · rw [if_pos h, h]; rfl
    · rw [if_neg h]
      have hrow : rowOf0 ⟨n + 1, hn⟩ r = rowOf0 ⟨n, Nat.lt_of_succ_lt hn⟩ r := Fin.ext (by
        show 2048 * ((n + 1) / 8) + r.val = 2048 * (n / 8) + r.val
        have : (n + 1) / 8 = n / 8 := by omega
        rw [this])
      have hk : (n + 1) % 8 = n % 8 + 1 := by omega
      show (outsAt0 V c n _).2 (ix2 r c') + _ = _
      rw [acc0 c r c' n (Nat.lt_of_succ_lt hn), hrow, hk]
      rfl

/-- The output block at a last step: the whole sum plus the bias, clamped below at zero — the layer's value at the
    block's row of the whole array. -/
theorem out0_val (c : Dev nD) (b : (⟨1, ![256]⟩ : Shape).Idx → EReal)
    (hb' : ∀ (t : Fin cfg0.N) (c' : Fin 256), (iblk0 V c 3 t : FVec Ideal S1x256 .f32) (ix2 0 c') = b (ix1 c'))
    (t : Fin cfg0.N) (h7 : t.val % 8 = 7) (r : Fin 2048) (c' : Fin 256) :
    (outsAt0 V c t.val t.isLt).1 (ix2 r c')
      = Cert.Spec.gcn (arrA0 V c) (fun j d => arrX0 V c (ix2 j d)) (arrW0 V c) b (rowOf0 t r) c' := by
  have h0 : ¬t.val % 8 = 0 := by omega
  have hacc := acc0 V c r c' t.val t.isLt
  rw [outsAt0_C V c t h0 h7] at hacc ⊢
  dsimp only at hacc ⊢
  rw [sout0_C_eq] at hacc
  rw [out0_C_eq]
  refine (pay3_0 _ _ r c').trans ?_
  rw [hacc, h7, hb' t c']
  exact gcn_of_tiles _ _ _ _ _ _

end

end Cert.KernelIdeal.Hand

end
-- ==== Proof.KI.Acc1.lean ====
/-
  The second kernel's accumulator over a group of eight grid points, at the ideal instance: after step `k` of row block `m` the
  accumulator's entry (r, c') is the sum of the first `k + 1` column tiles' contributions to `Σ_n A (2048 m + r) n · (h · W) n c'`,
  so after the eighth it is the whole sum.
-/
import proofs.«164166_j37589553774758_2_alg».proof.Proof.KI.Pieces1
import proofs.«164166_j37589553774758_2_alg».proof.Proof.KI.Blocks1
import proofs.«164166_j37589553774758_2_alg».proof.Proof.KPay
import proofs.«164166_j37589553774758_2_alg».proof.Proof.LayerValue
import proofs.«164166_j37589553774758_2_alg».proof.Proof.KI.TileSum

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Pay Cert.Accum
open scoped BigOperators

section
variable (V : (c : Dev nD) → (b : Ref sig .tc) → Buf (Elt Ideal) ((c : Thread nD τ).loc b))

/-- The row of the whole array that row `r` of point `t`'s output block is. -/
def rowOf1 (t : Fin cfg1.N) (r : Fin 2048) : Fin 8192 :=
  ⟨2048 * (t.val / 8) + r.val, by have := lt_of_lt_of_eq t.isLt (show cfg1.N = 32 from N_1); omega⟩

/-- Entry `n'` of the sum for row `R` and feature `c'`: `A R n' · (h · W) n' c'`, read off the region's entry contents. -/
def rowf1 (c : Dev nD) (R : Fin 8192) (c' : Fin 256) : Fin 8192 → EReal :=
  fun n' => arrA1 V c (ix2 R n') * Cert.Spec.proj (fun j d => arrX1 V c (ix2 j d)) (arrW1 V c) n' c'

/-- One step: the accumulator after point `t` is what the point before left (nothing at a first step) plus the tile's
    contribution. -/
theorem acc_step1 (c : Dev nD) (t : Fin cfg1.N) (r : Fin 2048) (c' : Fin 256) :
    (outsAt1 V c t.val t.isLt).2 (ix2 r c')
      = (if t.val % 8 = 0 then 0 else (outsAt1 V c (t.val - 1) (Nat.lt_of_le_of_lt (Nat.sub_le _ _) t.isLt)).2 (ix2 r c'))
        + tileSum (rowf1 V c (rowOf1 t r) c') (t.val % 8) := by
  by_cases h0 : t.val % 8 = 0
  · have h1 : ¬t.val % 8 = 7 := by omega
    rw [outsAt1_A V c t h0 h1, if_pos h0]
    dsimp only
    rw [sout1_A_eq]
    refine (pay2_1 _ _ _ _ r c').trans ?_
    rw [pay1_1]
    exact congrArg (0 + ·) (tile1_eq V c t r c')
  · rw [if_neg h0]
    by_cases h1 : t.val % 8 = 7
    · rw [outsAt1_C V c t h0 h1]
      dsimp only
      rw [sout1_C_eq]
      refine (pay2_1 _ _ _ _ r c').trans ?_
      exact congrArg (_ + ·) (tile1_eq V c t r c')
    · rw [outsAt1_B V c t h0 h1]
      dsimp only
      rw [sout1_B_eq]
      refine (pay2_1 _ _ _ _ r c').trans ?_
      exact congrArg (_ + ·) (tile1_eq V c t r c')

/-- The accumulator after point `n`: the partial sum over the column tiles up to this one. -/
theorem acc1 (c : Dev nD) (r : Fin 2048) (c' : Fin 256) : ∀ (n : ℕ) (hn : n < cfg1.N),
    (outsAt1 V c n hn).2 (ix2 r c') = accN (tileSum (rowf1 V c (rowOf1 ⟨n, hn⟩ r) c')) (n % 8)
  | 0, hn => by
    rw [acc_step1 V c ⟨0, hn⟩ r c']
    rfl
  | n + 1, hn => by
    rw [acc_step1 V c ⟨n + 1, hn⟩ r c']
    by_cases h : (n + 1) % 8 = 0
    · rw [if_pos h, h]; rfl
    · rw [if_neg h]
      have hrow : rowOf1 ⟨n + 1, hn⟩ r = rowOf1 ⟨n, Nat.lt_of_succ_lt hn⟩ r := Fin.ext (by
        show 2048 * ((n + 1) / 8) + r.val = 2048 * (n / 8) + r.val
        have : (n + 1) / 8 = n / 8 := by omega
        rw [this])
      have hk : (n + 1) % 8 = n % 8 + 1 := by omega
      show (outsAt1 V c n _).2 (ix2 r c') + _ = _
      rw [acc1 c r c' n (Nat.lt_of_succ_lt hn), hrow, hk]
      rfl

/-- The output block at a last step: the second layer's value at the block's row, through the dense layer with relu and
    the dense layer into the one output column. -/
theorem out1_val (c : Dev nD) (b2 : (⟨1, ![256]⟩ : Shape).Idx → EReal) (Wq1 : (⟨2, ![256, 128]⟩ : Shape).Idx → EReal)
    (bq1 : (⟨1, ![128]⟩ : Shape).Idx → EReal) (Wq2 : (⟨2, ![128, 1]⟩ : Shape).Idx → EReal) (bq2 : (⟨1, ![1]⟩ : Shape).Idx → EReal)
    (hb2 : ∀ (t : Fin cfg1.N) (c' : Fin 256), (iblk1 V c 3 t : FVec Ideal S1x256 .f32) (ix2 0 c') = b2 (ix1 c'))
    (hWq1 : ∀ (t : Fin cfg1.N) (d : Fin 256) (e : Fin 128), (iblk1 V c 4 t : FVec Ideal S256x128 .bf16) (ix2 d e) = Wq1 (ix2 d e))
    (hbq1 : ∀ (t : Fin cfg1.N) (e : Fin 128), (iblk1 V c 5 t : FVec Ideal S1x128 .f32) (ix2 0 e) = bq1 (ix1 e))
    (hWq2 : ∀ (t : Fin cfg1.N) (e : Fin 128) (z : Fin 1), (iblk1 V c 6 t : FVec Ideal S128x1 .bf16) (ix2 e z) = Wq2 (ix2 e z))
    (hbq2 : ∀ (t : Fin cfg1.N), (iblk1 V c 7 t : FVec Ideal S1x1 .f32) (ix2 0 0) = bq2 (ix1 0))
    (t : Fin cfg1.N) (h7 : t.val % 8 = 7) (r : Fin 2048) (z : Fin 1) :
    (outsAt1 V c t.val t.isLt).1 (ix2 r z)
      = Cert.Spec.dense (fun i e => max (Cert.Spec.dense (Cert.Spec.gcn (arrA1 V c) (fun j d => arrX1 V c (ix2 j d)) (arrW1 V c) b2) Wq1 bq1 i e) 0) Wq2 bq2 (rowOf1 t r) 0 := by
  have h0 : ¬t.val % 8 = 0 := by omega
  obtain rfl : z = 0 := Subsingleton.elim _ _
  have hacc : ∀ d : Fin 256, (outsAt1 V c t.val t.isLt).2 (ix2 r d) = _ := fun d => acc1 V c r d t.val t.isLt
  rw [outsAt1_C V c t h0 h7] at hacc ⊢
  dsimp only at hacc ⊢
  rw [sout1_C_eq] at hacc
  rw [out1_C_eq]
  refine (pay3_1 _ _ _ _ _ _ r 0).trans ?_
  unfold Cert.Spec.dense
  rw [hbq2 t]
  refine congrArg (· + bq2 (ix1 0)) (Finset.sum_congr rfl fun e _ => ?_)
  rw [hWq2 t e 0, hbq1 t e]
  refine congrArg (fun s => max (s + bq1 (ix1 e)) 0 * Wq2 (ix2 e 0)) (Finset.sum_congr rfl fun d _ => ?_)
  rw [hWq1 t d e, hacc d, h7, hb2 t d]
  exact congrArg (· * Wq1 (ix2 d e)) (gcn_of_tiles _ _ _ _ _ _)

end

end Cert.KernelIdeal.Hand

end
-- ==== Proof.RefRun.lean ====
/-
  The reference program's run: @main as the straight line of its seventy-one tensor operations (the four
  outlined functions' bodies listed at their calls, over each call's own buffers), and what the result buffer holds
  once they have run — the operations' composed term of the twelve arguments — with the arguments unchanged.

  The first forty-four operations normalize the node features: the column mean and the column variance of `a0` over
  its 8192 rows, then `(a0 - mean) * rsqrt (var + eps) * a2 + a3`. That term is `bn`. The remaining twenty-seven are
  two graph-convolution layers `relu (a1 · (h · W) + b)` and a two-layer perceptron on each row; over the normalized
  features they are `tail`, and the whole result is `refOut = tail (bn …) …`.
-/
import proofs.«164166_j37589553774758_2_alg».proof.Proof.Gen.ReferenceIdeal
import proofs.«164166_j37589553774758_2_alg».proof.Proof.Gen.Pre_finite_inputs
import proofs.«164166_j37589553774758_2_alg».proof.Defs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section Ops

variable {F : FTy → Type} [FloatOps F]

/-- @main's seventy-one operations in order, the calls unfolded: six of @main (the column sums of `a0` and their
    division by the row count), the variance function's nineteen and, inside it, the three of the select that guards a
    non-positive divisor, sixteen of @main (the normalization), then per layer the two products, the bias broadcast
    twice and added, and the three operations of the clamp at zero. -/
abbrev ops : List (HloOp τ sig (Elt F)) :=
  [ StableHlo.nullary main_cst (constant S_ .f32 0x00000000#32),
    StableHlo.binary main_arg0 main_cst main_v0 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    StableHlo.nullary main_cst_0 (constant S_ .f32 0x46000000#32),
    StableHlo.unary main_cst_0 main_v1 (broadcastInDim S128 ![] bcast_S_S128 : (⟨S_, .f32⟩ : BufTy).Contents (Elt F) → (⟨S128, .f32⟩ : BufTy).Contents (Elt F)),
    StableHlo.binary main_v0 main_v1 main_v2 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg0 : StableHlo.TRef sig ⟨S8192x128, .f32⟩) (.of main_call0_cst : StableHlo.TRef sig ⟨S_, .f32⟩) (.of main_call0_v0 : StableHlo.TRef sig ⟨S128, .f32⟩) (fun x v => Host.reduceAdd x v reducesTo_S8192x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x46000000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S8192x128, .f32⟩) (broadcastInDim S8192x128 ![0, 1] bcast_S1x128_S8192x128_0_1),
    StableHlo.TRef.binary (.of main_arg0 : StableHlo.TRef sig ⟨S8192x128, .f32⟩) (.of main_call0_v4 : StableHlo.TRef sig ⟨S8192x128, .f32⟩) (.of main_call0_v5 : StableHlo.TRef sig ⟨S8192x128, .f32⟩) subf,
    StableHlo.TRef.binary (.of main_call0_v5 : StableHlo.TRef sig ⟨S8192x128, .f32⟩) (.of main_call0_v5 : StableHlo.TRef sig ⟨S8192x128, .f32⟩) (.of main_call0_v6 : StableHlo.TRef sig ⟨S8192x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8192x128, .f32⟩) (.of main_call0_cst_2 : StableHlo.TRef sig ⟨S_, .f32⟩) (.of main_call0_v9 : StableHlo.TRef sig ⟨S128, .f32⟩) (fun x v => Host.reduceAdd x v reducesTo_S8192x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v3 : StableHlo.TRef sig ⟨S128, .f32⟩) (fun p a b => select (broadcastInDim S128 ![] bcast_S_S128 p) a b),
    StableHlo.unary main_v2 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S8192x128 ![0, 1] bcast_S1x128_S8192x128_0_1 : (⟨S1x128, .f32⟩ : BufTy).Contents (Elt F) → (⟨S8192x128, .f32⟩ : BufTy).Contents (Elt F)),
    StableHlo.binary main_arg0 main_v5 main_v6 (subf : (⟨S8192x128, .f32⟩ : BufTy).Contents (Elt F) → (⟨S8192x128, .f32⟩ : BufTy).Contents (Elt F) → (⟨S8192x128, .f32⟩ : BufTy).Contents (Elt F)),
    StableHlo.nullary main_cst_1 (constant S_ .f32 0x3727C5AC#32),
    StableHlo.unary main_cst_1 main_v7 (broadcastInDim S128 ![] bcast_S_S128 : (⟨S_, .f32⟩ : BufTy).Contents (Elt F) → (⟨S128, .f32⟩ : BufTy).Contents (Elt F)),
    StableHlo.binary main_v3 main_v7 main_v8 (addf : (⟨S128, .f32⟩ : BufTy).Contents (Elt F) → (⟨S128, .f32⟩ : BufTy).Contents (Elt F) → (⟨S128, .f32⟩ : BufTy).Contents (Elt F)),
    StableHlo.unary main_v8 main_v9 (Host.rsqrt : (⟨S128, .f32⟩ : BufTy).Contents (Elt F) → (⟨S128, .f32⟩ : BufTy).Contents (Elt F)),
    StableHlo.unary main_v9 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S8192x128 ![0, 1] bcast_S1x128_S8192x128_0_1 : (⟨S1x128, .f32⟩ : BufTy).Contents (Elt F) → (⟨S8192x128, .f32⟩ : BufTy).Contents (Elt F)),
    StableHlo.binary main_v6 main_v11 main_v12 (mulf : (⟨S8192x128, .f32⟩ : BufTy).Contents (Elt F) → (⟨S8192x128, .f32⟩ : BufTy).Contents (Elt F) → (⟨S8192x128, .f32⟩ : BufTy).Contents (Elt F)),
    StableHlo.unary main_arg2 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S8192x128 ![0, 1] bcast_S1x128_S8192x128_0_1 : (⟨S1x128, .f32⟩ : BufTy).Contents (Elt F) → (⟨S8192x128, .f32⟩ : BufTy).Contents (Elt F)),
    StableHlo.binary main_v12 main_v14 main_v15 (mulf : (⟨S8192x128, .f32⟩ : BufTy).Contents (Elt F) → (⟨S8192x128, .f32⟩ : BufTy).Contents (Elt F) → (⟨S8192x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S8192x128 ![0, 1] bcast_S1x128_S8192x128_0_1 : (⟨S1x128, .f32⟩ : BufTy).Contents (Elt F) → (⟨S8192x128, .f32⟩ : BufTy).Contents (Elt F)),
    StableHlo.binary main_v15 main_v17 main_v18 (addf : (⟨S8192x128, .f32⟩ : BufTy).Contents (Elt F) → (⟨S8192x128, .f32⟩ : BufTy).Contents (Elt F) → (⟨S8192x128, .f32⟩ : BufTy).Contents (Elt F)),
    StableHlo.binary main_v18 main_arg4 main_v19 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    StableHlo.binary main_arg1 main_v19 main_v20 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.unary main_arg5 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S8192x256 ![0, 1] bcast_S1x256_S8192x256_0_1 : (⟨S1x256, .f32⟩ : BufTy).Contents (Elt F) → (⟨S8192x256, .f32⟩ : BufTy).Contents (Elt F)),
    StableHlo.binary main_v20 main_v22 main_v23 (addf : (⟨S8192x256, .f32⟩ : BufTy).Contents (Elt F) → (⟨S8192x256, .f32⟩ : BufTy).Contents (Elt F) → (⟨S8192x256, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8192x256, .f32⟩) (broadcastInDim S8192x256 ![] bcast_S_S8192x256),
    StableHlo.TRef.binary (.of main_v23 : StableHlo.TRef sig ⟨S8192x256, .f32⟩) (.of main_call1_v0 : StableHlo.TRef sig ⟨S8192x256, .f32⟩) (.of main_v24 : StableHlo.TRef sig ⟨S8192x256, .f32⟩) maximumf,
    StableHlo.binary main_v24 main_arg6 main_v25 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.binary main_arg1 main_v25 main_v26 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.unary main_arg7 main_v27 (broadcastInDim S1x256 ![1] bcast_S256_S1x256_1 : (⟨S256, .f32⟩ : BufTy).Contents (Elt F) → (⟨S1x256, .f32⟩ : BufTy).Contents (Elt F)),
    StableHlo.unary main_v27 main_v28 (broadcastInDim S8192x256 ![0, 1] bcast_S1x256_S8192x256_0_1 : (⟨S1x256, .f32⟩ : BufTy).Contents (Elt F) → (⟨S8192x256, .f32⟩ : BufTy).Contents (Elt F)),
    StableHlo.binary main_v26 main_v28 main_v29 (addf : (⟨S8192x256, .f32⟩ : BufTy).Contents (Elt F) → (⟨S8192x256, .f32⟩ : BufTy).Contents (Elt F) → (⟨S8192x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S8192x256, .f32⟩) (broadcastInDim S8192x256 ![] bcast_S_S8192x256),
    StableHlo.TRef.binary (.of main_v29 : StableHlo.TRef sig ⟨S8192x256, .f32⟩) (.of main_call2_v0 : StableHlo.TRef sig ⟨S8192x256, .f32⟩) (.of main_v30 : StableHlo.TRef sig ⟨S8192x256, .f32⟩) maximumf,
    StableHlo.binary main_v30 main_arg8 main_v31 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg9 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S8192x128 ![0, 1] bcast_S1x128_S8192x128_0_1 : (⟨S1x128, .f32⟩ : BufTy).Contents (Elt F) → (⟨S8192x128, .f32⟩ : BufTy).Contents (Elt F)),
    StableHlo.binary main_v31 main_v33 main_v34 (addf : (⟨S8192x128, .f32⟩ : BufTy).Contents (Elt F) → (⟨S8192x128, .f32⟩ : BufTy).Contents (Elt F) → (⟨S8192x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S8192x128, .f32⟩) (broadcastInDim S8192x128 ![] bcast_S_S8192x128),
    StableHlo.TRef.binary (.of main_v34 : StableHlo.TRef sig ⟨S8192x128, .f32⟩) (.of main_call3_v0 : StableHlo.TRef sig ⟨S8192x128, .f32⟩) (.of main_v35 : StableHlo.TRef sig ⟨S8192x128, .f32⟩) maximumf,
    StableHlo.binary main_v35 main_arg10 main_v36 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    StableHlo.unary main_arg11 main_v37 (broadcastInDim S1x1 ![1] bcast_S1_S1x1_1 : (⟨S1, .f32⟩ : BufTy).Contents (Elt F) → (⟨S1x1, .f32⟩ : BufTy).Contents (Elt F)),
    StableHlo.unary main_v37 main_v38 (broadcastInDim S8192x1 ![0, 1] bcast_S1x1_S8192x1_0_1 : (⟨S1x1, .f32⟩ : BufTy).Contents (Elt F) → (⟨S8192x1, .f32⟩ : BufTy).Contents (Elt F)),
    StableHlo.binary main_v36 main_v38 main_v39 (addf : (⟨S8192x1, .f32⟩ : BufTy).Contents (Elt F) → (⟨S8192x1, .f32⟩ : BufTy).Contents (Elt F) → (⟨S8192x1, .f32⟩ : BufTy).Contents (Elt F)) ]

-- seventy-one binds re-associated: the rewrite under the chain recurses once per statement
set_option maxRecDepth 8192 in
set_option maxHeartbeats 4000000 in
/-- @main is that straight line: the functions' definitions unfold at their calls, and both sides are then one chain
    of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub ..⟩

end Ops

/-! ## The composed terms -/

/-- The normalized node features: with `mean` and `var` the column mean and variance of `a0` over its rows,
    `(a0 - mean) * rsqrt (var + eps) * a2 + a3`, each row vector broadcast over the rows. The variance is the mean of
    the squared deviations, its divisor `8192 - 0` guarded by a select that is never taken. -/
def bn (a0 : FVec Ideal S8192x128 .f32) (a2 a3 : FVec Ideal S128 .f32) : FVec Ideal S8192x128 .f32 :=
  addf (mulf (mulf (subf a0 (broadcastInDim S8192x128 ![0, 1] bcast_S1x128_S8192x128_0_1 (broadcastInDim S1x128 ![1] bcast_S128_S1x128_1 (Host.divf (F := Ideal) (Host.reduceAdd (F := Ideal) a0 (constant (F := Ideal) S_ .f32 0x00000000#32) reducesTo_S8192x128_S128_d0 h_S_) (broadcastInDim S128 ![] bcast_S_S128 (constant (F := Ideal) S_ .f32 0x46000000#32)))))) (broadcastInDim S8192x128 ![0, 1] bcast_S1x128_S8192x128_0_1 (broadcastInDim S1x128 ![1] bcast_S128_S1x128_1 (Host.rsqrt (F := Ideal) (addf (select (broadcastInDim S128 ![] bcast_S_S128 (cmpf .ogt (subf (constant (F := Ideal) S_ .f32 0x46000000#32) (sitofp (F := Ideal) .f32 (constantI S_ 32 0#32))) (constant (F := Ideal) S_ .f32 0x00000000#32))) (Host.divf (F := Ideal) (Host.reduceAdd (F := Ideal) (mulf (subf a0 (broadcastInDim S8192x128 ![0, 1] bcast_S1x128_S8192x128_0_1 (Host.divf (F := Ideal) (broadcastInDim S1x128 ![1] bcast_S128_S1x128_1 (Host.reduceAdd (F := Ideal) a0 (constant (F := Ideal) S_ .f32 0x00000000#32) reducesTo_S8192x128_S128_d0 h_S_)) (broadcastInDim S1x128 ![] bcast_S_S1x128 (constant (F := Ideal) S_ .f32 0x46000000#32))))) (subf a0 (broadcastInDim S8192x128 ![0, 1] bcast_S1x128_S8192x128_0_1 (Host.divf (F := Ideal) (broadcastInDim S1x128 ![1] bcast_S128_S1x128_1 (Host.reduceAdd (F := Ideal) a0 (constant (F := Ideal) S_ .f32 0x00000000#32) reducesTo_S8192x128_S128_d0 h_S_)) (broadcastInDim S1x128 ![] bcast_S_S1x128 (constant (F := Ideal) S_ .f32 0x46000000#32)))))) (constant (F := Ideal) S_ .f32 0x00000000#32) reducesTo_S8192x128_S128_d0 h_S_) (broadcastInDim S128 ![] bcast_S_S128 (subf (constant (F := Ideal) S_ .f32 0x46000000#32) (sitofp (F := Ideal) .f32 (constantI S_ 32 0#32))))) (broadcastInDim S128 ![] bcast_S_S128 (id (constant (F := Ideal) S_ .f32 0x7FC00000#32)))) (broadcastInDim S128 ![] bcast_S_S128 (constant (F := Ideal) S_ .f32 0x3727C5AC#32))))))) (broadcastInDim S8192x128 ![0, 1] bcast_S1x128_S8192x128_0_1 (broadcastInDim S1x128 ![1] bcast_S128_S1x128_1 a2))) (broadcastInDim S8192x128 ![0, 1] bcast_S1x128_S8192x128_0_1 (broadcastInDim S1x128 ![1] bcast_S128_S1x128_1 a3))

/-- The network over normalized features `x`: two layers `relu (a1 · (h · W) + b)`, then a dense layer with relu and
    a dense layer into the one output. -/
def tail (x : FVec Ideal S8192x128 .f32) (a1 : FVec Ideal S8192x8192 .f32) (a4 : FVec Ideal S128x256 .f32) (a5 : FVec Ideal S256 .f32) (a6 : FVec Ideal S256x256 .f32) (a7 : FVec Ideal S256 .f32) (a8 : FVec Ideal S256x128 .f32) (a9 : FVec Ideal S128 .f32) (a10 : FVec Ideal S128x1 .f32) (a11 : FVec Ideal S1 .f32) : FVec Ideal S8192x1 .f32 :=
  addf (Host.dotGeneral (F := Ideal) dot_S8192x128_S128x1_S8192x1_1_0_0_1_n_n none (maximumf (addf (Host.dotGeneral (F := Ideal) dot_S8192x256_S256x128_S8192x128_1_0_0_1_n_n none (maximumf (addf (Host.dotGeneral (F := Ideal) dot_S8192x8192_S8192x256_S8192x256_1_0_0_1_n_n none a1 (Host.dotGeneral (F := Ideal) dot_S8192x256_S256x256_S8192x256_1_0_0_1_n_n none (maximumf (addf (Host.dotGeneral (F := Ideal) dot_S8192x8192_S8192x256_S8192x256_1_0_0_1_n_n none a1 (Host.dotGeneral (F := Ideal) dot_S8192x128_S128x256_S8192x256_1_0_0_1_n_n none x a4)) (broadcastInDim S8192x256 ![0, 1] bcast_S1x256_S8192x256_0_1 (broadcastInDim S1x256 ![1] bcast_S256_S1x256_1 a5))) (broadcastInDim S8192x256 ![] bcast_S_S8192x256 (constant (F := Ideal) S_ .f32 0x00000000#32))) a6)) (broadcastInDim S8192x256 ![0, 1] bcast_S1x256_S8192x256_0_1 (broadcastInDim S1x256 ![1] bcast_S256_S1x256_1 a7))) (broadcastInDim S8192x256 ![] bcast_S_S8192x256 (constant (F := Ideal) S_ .f32 0x00000000#32))) a8) (broadcastInDim S8192x128 ![0, 1] bcast_S1x128_S8192x128_0_1 (broadcastInDim S1x128 ![1] bcast_S128_S1x128_1 a9))) (broadcastInDim S8192x128 ![] bcast_S_S8192x128 (constant (F := Ideal) S_ .f32 0x00000000#32))) a10) (broadcastInDim S8192x1 ![0, 1] bcast_S1x1_S8192x1_0_1 (broadcastInDim S1x1 ![1] bcast_S1_S1x1_1 a11))

/-- What the reference computes from its twelve arguments. -/
def refOut (a0 : FVec Ideal S8192x128 .f32) (a1 : FVec Ideal S8192x8192 .f32) (a2 : FVec Ideal S128 .f32) (a3 : FVec Ideal S128 .f32) (a4 : FVec Ideal S128x256 .f32) (a5 : FVec Ideal S256 .f32) (a6 : FVec Ideal S256x256 .f32) (a7 : FVec Ideal S256 .f32) (a8 : FVec Ideal S256x128 .f32) (a9 : FVec Ideal S128 .f32) (a10 : FVec Ideal S128x1 .f32) (a11 : FVec Ideal S1 .f32) : FVec Ideal S8192x1 .f32 :=
  tail (bn a0 a2 a3) a1 a4 a5 a6 a7 a8 a9 a10 a11

theorem refOut_eq (a0 : FVec Ideal S8192x128 .f32) (a1 : FVec Ideal S8192x8192 .f32) (a2 : FVec Ideal S128 .f32) (a3 : FVec Ideal S128 .f32) (a4 : FVec Ideal S128x256 .f32) (a5 : FVec Ideal S256 .f32) (a6 : FVec Ideal S256x256 .f32) (a7 : FVec Ideal S256 .f32) (a8 : FVec Ideal S256x128 .f32) (a9 : FVec Ideal S128 .f32) (a10 : FVec Ideal S128x1 .f32) (a11 : FVec Ideal S1 .f32) :
    refOut a0 a1 a2 a3 a4 a5 a6 a7 a8 a9 a10 a11 = tail (bn a0 a2 a3) a1 a4 a5 a6 a7 a8 a9 a10 a11 := rfl

/-! ## What the buffers hold after the line -/

attribute [local irreducible] Host.reduceAdd Host.divf Host.rsqrt in
set_option maxRecDepth 8192 in
set_option maxHeartbeats 28000000 in
/-- The fold at the result buffer is `refOut` of the arguments' contents. -/
theorem out_eq (V : Valuation τ sig (Elt Ideal)) :
    after ops V (main_v39 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  unfold refOut tail bn
  after_results_simp <;> rfl

set_option maxRecDepth 8192 in
set_option maxHeartbeats 1600000 in
theorem arg0_eq (V : Valuation τ sig (Elt Ideal)) :
    after ops V (main_arg0 : DevRef τ sig) = V (main_arg0 : DevRef τ sig) := by
  after_results_simp

set_option maxRecDepth 8192 in
set_option maxHeartbeats 1600000 in
theorem arg1_eq (V : Valuation τ sig (Elt Ideal)) :
    after ops V (main_arg1 : DevRef τ sig) = V (main_arg1 : DevRef τ sig) := by
  after_results_simp

set_option maxRecDepth 8192 in
set_option maxHeartbeats 1600000 in
theorem arg2_eq (V : Valuation τ sig (Elt Ideal)) :
    after ops V (main_arg2 : DevRef τ sig) = V (main_arg2 : DevRef τ sig) := by
  after_results_simp

set_option maxRecDepth 8192 in
set_option maxHeartbeats 1600000 in
theorem arg3_eq (V : Valuation τ sig (Elt Ideal)) :
    after ops V (main_arg3 : DevRef τ sig) = V (main_arg3 : DevRef τ sig) := by
  after_results_simp

set_option maxRecDepth 8192 in
set_option maxHeartbeats 1600000 in
theorem arg4_eq (V : Valuation τ sig (Elt Ideal)) :
    after ops V (main_arg4 : DevRef τ sig) = V (main_arg4 : DevRef τ sig) := by
  after_results_simp

set_option maxRecDepth 8192 in
set_option maxHeartbeats 1600000 in
theorem arg5_eq (V : Valuation τ sig (Elt Ideal)) :
    after ops V (main_arg5 : DevRef τ sig) = V (main_arg5 : DevRef τ sig) := by
  after_results_simp

set_option maxRecDepth 8192 in
set_option maxHeartbeats 1600000 in
theorem arg6_eq (V : Valuation τ sig (Elt Ideal)) :
    after ops V (main_arg6 : DevRef τ sig) = V (main_arg6 : DevRef τ sig) := by
  after_results_simp

set_option maxRecDepth 8192 in
set_option maxHeartbeats 1600000 in
theorem arg7_eq (V : Valuation τ sig (Elt Ideal)) :
    after ops V (main_arg7 : DevRef τ sig) = V (main_arg7 : DevRef τ sig) := by
  after_results_simp

set_option maxRecDepth 8192 in
set_option maxHeartbeats 1600000 in
theorem arg8_eq (V : Valuation τ sig (Elt Ideal)) :
    after ops V (main_arg8 : DevRef τ sig) = V (main_arg8 : DevRef τ sig) := by
  after_results_simp

set_option maxRecDepth 8192 in
set_option maxHeartbeats 1600000 in
theorem arg9_eq (V : Valuation τ sig (Elt Ideal)) :
    after ops V (main_arg9 : DevRef τ sig) = V (main_arg9 : DevRef τ sig) := by
  after_results_simp

set_option maxRecDepth 8192 in
set_option maxHeartbeats 1600000 in
theorem arg10_eq (V : Valuation τ sig (Elt Ideal)) :
    after ops V (main_arg10 : DevRef τ sig) = V (main_arg10 : DevRef τ sig) := by
  after_results_simp

set_option maxRecDepth 8192 in
set_option maxHeartbeats 1600000 in
theorem arg11_eq (V : Valuation τ sig (Elt Ideal)) :
    after ops V (main_arg11 : DevRef τ sig) = V (main_arg11 : DevRef τ sig) := by
  after_results_simp

/-! ## The run -/

/-- At the compiled mesh, from any memory with zero counters: every weakly fair execution of @main terminates with
    the result buffer at `refOut` of the arguments' launch contents and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v39) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v39).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

/-- The reference runs and leaves its arguments unchanged. -/
theorem frame : Cert.frame_ReferenceIdeal :=
  fun m g _ => (run m g).mono (fun _ h c => (h c).2)

end Cert.ReferenceIdeal.RefRun

end
-- ==== Proof.KI.HostReads.lean ====
/-
  The kernel program's host operations, read back: what the buffers the two regions take as operands hold at each
  region's entry, in terms of the launch memory.

  Before the first region the program normalizes the node features with the very operations the reference uses —
  the column means, the column variance, `(a0 - mean) * rsqrt (var + eps) * a2 + a3` — so the first operand is the
  reference's normalized features `bn a0 a2 a3` (then narrowed to bf16, the identity on extended reals); the weight
  matrices are the arguments narrowed, the bias vectors the arguments given a leading unit axis, the adjacency matrix
  the argument itself. Before the second region the same holds of its operands, the first being the first region's
  result narrowed.
-/
import proofs.«164166_j37589553774758_2_alg».proof.Proof.KI.MainRun
import proofs.«164166_j37589553774758_2_alg».proof.Proof.RefRun
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

/-! ## The stretches' folds at the operands' buffers, over any contents -/

section Folds

variable {F : FTy → Type} [FloatOps F] (W : Valuation τ sig (Elt F))

set_option maxRecDepth 8192 in
set_option maxHeartbeats 4000000 in
/-- After the third stretch the second operand is the first weight matrix narrowed. -/
theorem after02_v20 : after hostOps0_2 W (main_v20 : DevRef τ sig) = truncf .bf16 (W (main_arg4 : DevRef τ sig)) bitsLt_bf16_f32 := by
  after_results_simp <;> rfl

set_option maxRecDepth 8192 in
set_option maxHeartbeats 4000000 in
/-- After the third stretch the third operand is the first bias vector as one row. -/
theorem after02_v21 : after hostOps0_2 W (main_v21 : DevRef τ sig) = shapeCast S1x256 (W (main_arg5 : DevRef τ sig)) shapeCasts_S256_S1x256 := by
  after_results_simp <;> rfl

set_option maxRecDepth 8192 in
set_option maxHeartbeats 4000000 in
theorem after1_v23 : after hostOps1 W (main_v23 : DevRef τ sig) = truncf .bf16 (W (main_v22 : DevRef τ sig)) bitsLt_bf16_f32 := by
  after_results_simp <;> rfl

set_option maxRecDepth 8192 in
set_option maxHeartbeats 4000000 in
theorem after1_v24 : after hostOps1 W (main_v24 : DevRef τ sig) = truncf .bf16 (W (main_arg6 : DevRef τ sig)) bitsLt_bf16_f32 := by
  after_results_simp <;> rfl

set_option maxRecDepth 8192 in
set_option maxHeartbeats 4000000 in
theorem after1_v25 : after hostOps1 W (main_v25 : DevRef τ sig) = shapeCast S1x256 (W (main_arg7 : DevRef τ sig)) shapeCasts_S256_S1x256 := by
  after_results_simp <;> rfl

set_option maxRecDepth 8192 in
set_option maxHeartbeats 4000000 in
theorem after1_v26 : after hostOps1 W (main_v26 : DevRef τ sig) = truncf .bf16 (W (main_arg8 : DevRef τ sig)) bitsLt_bf16_f32 := by
  after_results_simp <;> rfl

set_option maxRecDepth 8192 in
set_option maxHeartbeats 4000000 in
theorem after1_v27 : after hostOps1 W (main_v27 : DevRef τ sig) = shapeCast S1x128 (W (main_arg9 : DevRef τ sig)) shapeCasts_S128_S1x128 := by
  after_results_simp <;> rfl

set_option maxRecDepth 8192 in
set_option maxHeartbeats 4000000 in
theorem after1_v28 : after hostOps1 W (main_v28 : DevRef τ sig) = truncf .bf16 (W (main_arg10 : DevRef τ sig)) bitsLt_bf16_f32 := by
  after_results_simp <;> rfl

set_option maxRecDepth 8192 in
set_option maxHeartbeats 4000000 in
theorem after1_v29 : after hostOps1 W (main_v29 : DevRef τ sig) = shapeCast S1x1 (W (main_arg11 : DevRef τ sig)) shapeCasts_S1_S1x1 := by
  after_results_simp <;> rfl

end Folds

attribute [local irreducible] Host.reduceAdd Host.divf Host.rsqrt in
set_option maxRecDepth 8192 in
set_option maxHeartbeats 20000000 in
/-- After the three stretches the first operand is the reference's normalized features of the same three arguments,
    narrowed: the forty-four operations before the narrowing are the reference's, in its order, over buffers of the same
    names. -/
theorem after012_v19 (W : Valuation τ sig (Elt Ideal)) :
    after hostOps0_2 (after hostOps0_1 (after hostOps0 W)) (main_v19 : DevRef τ sig)
      = truncf .bf16 (Cert.ReferenceIdeal.RefRun.bn (W (main_arg0 : DevRef τ sig)) (W (main_arg2 : DevRef τ sig)) (W (main_arg3 : DevRef τ sig))) bitsLt_bf16_f32 := by
  unfold Cert.ReferenceIdeal.RefRun.bn
  after_results_simp <;> rfl

/-! ## Back to the launch memory -/

section Reads

variable {F : FTy → Type} [FloatOps F] (m : (ℓ : Loc nD τ sig) → Buf (Elt F) ℓ) (ρ : Dev nD → PrngReg) (c : Dev nD)

/-- A buffer the first two stretches do not write holds its launch contents after them. -/
theorem W2_of (r : Ref sig .tc) (h0 : r ∉ hostOps0_W) (h1 : r ∉ hostOps0_1_W) :
    W2 m ρ c (Proc.devRef .tc r) = m ((c : Thread nD τ).loc r) :=
  (after_of_writes_sub hostOps0_1 _ hostOps0_1_writes h1).trans
    ((after_of_writes_sub hostOps0 _ hostOps0_writes h0).trans rfl)

/-- A buffer no stretch before the first region writes holds its launch contents at the region's entry. -/
theorem W3_of (r : Ref sig .tc) (h0 : r ∉ hostOps0_W) (h1 : r ∉ hostOps0_1_W) (h2 : r ∉ hostOps0_2_W) :
    W3 m ρ c (Proc.devRef .tc r) = m ((c : Thread nD τ).loc r) :=
  (after_of_writes_sub hostOps0_2 _ hostOps0_2_writes h2).trans (W2_of m ρ c r h0 h1)

/-- … and, if it is no array of the first region, at the region's exit. -/
theorem W4_of (r : Ref sig .tc) (h0 : r ∉ hostOps0_W) (h1 : r ∉ hostOps0_1_W) (h2 : r ∉ hostOps0_2_W)
    (h3 : ∀ w, Pipeline.arrRef spec0 w ≠ r) : W4 m ρ c (Proc.devRef .tc r) = m ((c : Thread nD τ).loc r) :=
  (W4_of_ne m ρ c r h3).trans (W3_of m ρ c r h0 h1 h2)

/-- The adjacency matrix, an input window of the first region, is as launched at its entry and at its exit. -/
theorem W3_main_arg1 : W3 m ρ c (Proc.devRef .tc main_arg1) = m ((c : Thread nD τ).loc main_arg1) :=
  W3_of m ρ c main_arg1 (by decide) (by decide) (by decide)

theorem W4_main_arg1 : W4 m ρ c (Proc.devRef .tc main_arg1) = m ((c : Thread nD τ).loc main_arg1) :=
  ((W4_arr m ρ c 0).trans (((dat0 (V3 m ρ) c).arrAt_in 0 rfl _).trans (A_eq0 (V3 m ρ) c 0))).trans (W3_main_arg1 m ρ c)

end Reads

/-! ## The operands at the regions' entries -/

section Operands

variable (m : (ℓ : Loc nD τ sig) → Buf (Elt Ideal) ℓ) (ρ : Dev nD → PrngReg) (c : Dev nD)

/-- The first region's feature operand is the reference's normalized features. -/
theorem V3_v19 (j : Fin 8192) (d : Fin 128) :
    V3 (F := Ideal) m ρ c main_v19 (ix2 j d)
      = Cert.ReferenceIdeal.RefRun.bn (m ((c : Thread nD τ).loc main_arg0)) (m ((c : Thread nD τ).loc main_arg2)) (m ((c : Thread nD τ).loc main_arg3)) (ix2 j d) :=
  (congrFun (after012_v19 (W0 m ρ c)) (ix2 j d)).trans (truncf_apply (φ := .f32) (ψ := .bf16) _ bitsLt_bf16_f32 _)

theorem V3_v20 (d : Fin 128) (c' : Fin 256) :
    V3 (F := Ideal) m ρ c main_v20 (ix2 d c') = (m ((c : Thread nD τ).loc main_arg4)) (ix2 d c') :=
  (congrFun (after02_v20 (W2 m ρ c)) (ix2 d c')).trans
    ((truncf_apply (φ := .f32) (ψ := .bf16) _ bitsLt_bf16_f32 _).trans
      (congrFun (W2_of m ρ c main_arg4 (by decide) (by decide)) (ix2 d c')))

theorem V3_v21 (c' : Fin 256) :
    V3 (F := Ideal) m ρ c main_v21 (ix2 0 c') = (m ((c : Thread nD τ).loc main_arg5)) (ix1 c') :=
  (congrFun (after02_v21 (W2 m ρ c)) (ix2 0 c')).trans
    ((shapeCast_a_1a_apply _ shapeCasts_S256_S1x256 0 c').trans
      (congrFun (W2_of m ρ c main_arg5 (by decide) (by decide)) (ix1 c')))

theorem V3_arg1 : V3 (F := Ideal) m ρ c main_arg1 = (m ((c : Thread nD τ).loc main_arg1)) := W3_main_arg1 m ρ c

/-- The second region's feature operand is the first region's result, narrowed. -/
theorem V5_v23 (j : Fin 8192) (d : Fin 256) :
    V5 (F := Ideal) m ρ c main_v23 (ix2 j d) = W4 m ρ c (Proc.devRef .tc main_v22) (ix2 j d) :=
  (congrFun (after1_v23 (W4 m ρ c)) (ix2 j d)).trans (truncf_apply (φ := .f32) (ψ := .bf16) _ bitsLt_bf16_f32 _)

theorem V5_v24 (d d' : Fin 256) :
    V5 (F := Ideal) m ρ c main_v24 (ix2 d d') = (m ((c : Thread nD τ).loc main_arg6)) (ix2 d d') :=
  (congrFun (after1_v24 (W4 m ρ c)) (ix2 d d')).trans
    ((truncf_apply (φ := .f32) (ψ := .bf16) _ bitsLt_bf16_f32 _).trans
      (congrFun (W4_of m ρ c main_arg6 (by decide) (by decide) (by decide) (by decide)) (ix2 d d')))

theorem V5_v25 (c' : Fin 256) :
    V5 (F := Ideal) m ρ c main_v25 (ix2 0 c') = (m ((c : Thread nD τ).loc main_arg7)) (ix1 c') :=
  (congrFun (after1_v25 (W4 m ρ c)) (ix2 0 c')).trans
    ((shapeCast_a_1a_apply _ shapeCasts_S256_S1x256 0 c').trans
      (congrFun (W4_of m ρ c main_arg7 (by decide) (by decide) (by decide) (by decide)) (ix1 c')))

theorem V5_v26 (d : Fin 256) (e : Fin 128) :
    V5 (F := Ideal) m ρ c main_v26 (ix2 d e) = (m ((c : Thread nD τ).loc main_arg8)) (ix2 d e) :=
  (congrFun (after1_v26 (W4 m ρ c)) (ix2 d e)).trans
    ((truncf_apply (φ := .f32) (ψ := .bf16) _ bitsLt_bf16_f32 _).trans
      (congrFun (W4_of m ρ c main_arg8 (by decide) (by decide) (by decide) (by decide)) (ix2 d e)))

theorem V5_v27 (e : Fin 128) :
    V5 (F := Ideal) m ρ c main_v27 (ix2 0 e) = (m ((c : Thread nD τ).loc main_arg9)) (ix1 e) :=
  (congrFun (after1_v27 (W4 m ρ c)) (ix2 0 e)).trans
    ((shapeCast_a_1a_apply _ shapeCasts_S128_S1x128 0 e).trans
      (congrFun (W4_of m ρ c main_arg9 (by decide) (by decide) (by decide) (by decide)) (ix1 e)))

theorem V5_v28 (e : Fin 128) (z : Fin 1) :
    V5 (F := Ideal) m ρ c main_v28 (ix2 e z) = (m ((c : Thread nD τ).loc main_arg10)) (ix2 e z) :=
  (congrFun (after1_v28 (W4 m ρ c)) (ix2 e z)).trans
    ((truncf_apply (φ := .f32) (ψ := .bf16) _ bitsLt_bf16_f32 _).trans
      (congrFun (W4_of m ρ c main_arg10 (by decide) (by decide) (by decide) (by decide)) (ix2 e z)))

theorem V5_v29 :
    V5 (F := Ideal) m ρ c main_v29 (ix2 0 0) = (m ((c : Thread nD τ).loc main_arg11)) (ix1 0) :=
  (congrFun (after1_v29 (W4 m ρ c)) (ix2 0 0)).trans
    ((shapeCast_a_1a_apply _ shapeCasts_S1_S1x1 0 0).trans
      (congrFun (W4_of m ρ c main_arg11 (by decide) (by decide) (by decide) (by decide)) (ix1 0)))

theorem V5_arg1 : V5 (F := Ideal) m ρ c main_arg1 = (m ((c : Thread nD τ).loc main_arg1)) :=
  (after_of_writes_sub hostOps1 _ hostOps1_writes (by decide)).trans (W4_main_arg1 m ρ c)

end Operands

end Cert.KernelIdeal.Hand

end
-- ==== Proof.KI.Value.lean ====
/-
  The kernel program's result at the ideal instance. The first region leaves in its output array the first layer's
  value at every (node, feature); the host stretch between the regions hands it on unchanged (a change of float format
  is the identity here); the second region leaves in its output array the whole network's value at every node. Each
  array is assembled from the output blocks the last step of each group of eight grid points stores.
-/
import proofs.«164166_j37589553774758_2_alg».proof.Proof.KI.Acc0
import proofs.«164166_j37589553774758_2_alg».proof.Proof.KI.Acc1
import proofs.«164166_j37589553774758_2_alg».proof.Proof.KI.HostReads
import proofs.«164166_j37589553774758_2_alg».proof.Proof.KI.MainRun
import proofs.«164166_j37589553774758_2_alg».proof.Proof.RefRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Pay Cert.Accum
open scoped BigOperators

variable (m : (ℓ : Loc nD τ sig) → Buf (Elt Ideal) ℓ) (ρ : Dev nD → PrngReg)

/-! ## The arguments, at their array types -/

abbrev a0 (c : Dev nD) : FVec Ideal S8192x128 .f32 := m ((c : Thread nD τ).loc main_arg0)
abbrev a1 (c : Dev nD) : FVec Ideal S8192x8192 .f32 := m ((c : Thread nD τ).loc main_arg1)
abbrev a2 (c : Dev nD) : FVec Ideal S128 .f32 := m ((c : Thread nD τ).loc main_arg2)
abbrev a3 (c : Dev nD) : FVec Ideal S128 .f32 := m ((c : Thread nD τ).loc main_arg3)
abbrev a4 (c : Dev nD) : FVec Ideal S128x256 .f32 := m ((c : Thread nD τ).loc main_arg4)
abbrev a5 (c : Dev nD) : FVec Ideal S256 .f32 := m ((c : Thread nD τ).loc main_arg5)
abbrev a6 (c : Dev nD) : FVec Ideal S256x256 .f32 := m ((c : Thread nD τ).loc main_arg6)
abbrev a7 (c : Dev nD) : FVec Ideal S256 .f32 := m ((c : Thread nD τ).loc main_arg7)
abbrev a8 (c : Dev nD) : FVec Ideal S256x128 .f32 := m ((c : Thread nD τ).loc main_arg8)
abbrev a9 (c : Dev nD) : FVec Ideal S128 .f32 := m ((c : Thread nD τ).loc main_arg9)
abbrev a10 (c : Dev nD) : FVec Ideal S128x1 .f32 := m ((c : Thread nD τ).loc main_arg10)
abbrev a11 (c : Dev nD) : FVec Ideal S1 .f32 := m ((c : Thread nD τ).loc main_arg11)

/-- The normalized node features, as a function of node and feature. -/
abbrev xn (c : Dev nD) : Fin 8192 → Fin 128 → EReal := fun j d => Cert.ReferenceIdeal.RefRun.bn (a0 m c) (a2 m c) (a3 m c) (ix2 j d)

/-- The first layer's output array. -/
def h1arr (c : Dev nD) : S8192x256.Idx → EReal :=
  fun idx => Cert.Spec.gcn (a1 m c) (xn m c) (a4 m c) (a5 m c) ⟨(idx 0).val, idx2_lt0 idx⟩ ⟨(idx 1).val, idx2_lt1 idx⟩

/-- The network's output array. -/
def qarr (c : Dev nD) : S8192x1.Idx → EReal :=
  fun idx => Cert.Spec.q (a1 m c) (xn m c) (a4 m c) (a5 m c) (a6 m c) (a7 m c) (a8 m c) (a9 m c) (a10 m c) (a11 m c) ⟨(idx 0).val, idx2_lt0 idx⟩

/-! ## The first region's output -/

theorem v22_eq (c : Dev nD) : W4 m ρ c (Proc.devRef .tc main_v22) = h1arr m c := by
  refine (W4_arr m ρ c 4).trans (arrAt0_of (V3 m ρ) c (h1arr m c) fun t h7 r c' => ?_)
  refine (out0_val (V3 m ρ) c (a5 m c) (fun t c' => (iblk0_3_apply (V3 m ρ) c t 0 c').trans (V3_v21 m ρ c c')) t h7 r c').trans ?_
  rw [show arrA0 (V3 m ρ) c = a1 m c from V3_arg1 m ρ c,
    show (fun j d => arrX0 (V3 m ρ) c (ix2 j d)) = xn m c from funext fun j => funext fun d => V3_v19 m ρ c j d,
    show arrW0 (V3 m ρ) c = a4 m c from funext fun idx => by rw [eq_ix2 idx]; exact V3_v20 m ρ c _ _]
  rfl

/-- What the second region finds as its resident operand: the first layer's output. -/
theorem x1_eq (c : Dev nD) : (fun j d => arrX1 (V5 m ρ) c (ix2 j d)) = Cert.Spec.gcn (a1 m c) (xn m c) (a4 m c) (a5 m c) :=
  funext fun j => funext fun d => (V5_v23 m ρ c j d).trans (congrFun (v22_eq m ρ c) (ix2 j d))

/-! ## The second region's output -/

theorem v30_eq (c : Dev nD) : W6 m ρ c (Proc.devRef .tc main_v30) = qarr m c := by
  refine (W6_arr m ρ c 8).trans (arrAt1_of (V5 m ρ) c (qarr m c) fun t h7 r z => ?_)
  refine (out1_val (V5 m ρ) c (a7 m c) (a8 m c) (a9 m c) (a10 m c) (a11 m c)
    (fun t c' => (iblk1_3_apply (V5 m ρ) c t 0 c').trans (V5_v25 m ρ c c'))
    (fun t d e => (iblk1_4_apply (V5 m ρ) c t d e).trans (V5_v26 m ρ c d e))
    (fun t e => (iblk1_5_apply (V5 m ρ) c t 0 e).trans (V5_v27 m ρ c e))
    (fun t e z => (iblk1_6_apply (V5 m ρ) c t e z).trans (V5_v28 m ρ c e z))
    (fun t => (iblk1_7_apply (V5 m ρ) c t 0 0).trans (V5_v29 m ρ c)) t h7 r z).trans ?_
  rw [show arrA1 (V5 m ρ) c = a1 m c from V5_arg1 m ρ c, x1_eq m ρ c,
    show arrW1 (V5 m ρ) c = a6 m c from funext fun idx => by rw [eq_ix2 idx]; exact V5_v24 m ρ c _ _]
  rfl

/-! ## The run, with the result named -/

/-- From any memory with zero counters every weakly fair execution of the kernel program terminates, nothing faulting,
    with the result array at the network's values and the argument arrays as launched. -/
theorem kernel_run : θ_run defs (onTc (τ := τ) (main (F := Ideal))) ⟨m, fun _ => 0, ρ⟩ (fun r => ∀ c : Dev nD,
      r.2.mem ((c.tc : Thread nD τ).loc main_v30) = qarr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v30 (by decide))).trans (v30_eq m ρ c),
    (h c _ (mem_uc main_arg0 (by decide))).trans (W6_bypass m ρ c main_arg0 (by decide) (by decide) (by decide) (by decide) (by decide) (by decide)),
    (h c _ (mem_uc main_arg1 (by decide))).trans (W6_main_arg1 m ρ c),
    (h c _ (mem_uc main_arg2 (by decide))).trans (W6_bypass m ρ c main_arg2 (by decide) (by decide) (by decide) (by decide) (by decide) (by decide)),
    (h c _ (mem_uc main_arg3 (by decide))).trans (W6_bypass m ρ c main_arg3 (by decide) (by decide) (by decide) (by decide) (by decide) (by decide)),
    (h c _ (mem_uc main_arg4 (by decide))).trans (W6_bypass m ρ c main_arg4 (by decide) (by decide) (by decide) (by decide) (by decide) (by decide)),
    (h c _ (mem_uc main_arg5 (by decide))).trans (W6_bypass m ρ c main_arg5 (by decide) (by decide) (by decide) (by decide) (by decide) (by decide)),
    (h c _ (mem_uc main_arg6 (by decide))).trans (W6_bypass m ρ c main_arg6 (by decide) (by decide) (by decide) (by decide) (by decide) (by decide)),
    (h c _ (mem_uc main_arg7 (by decide))).trans (W6_bypass m ρ c main_arg7 (by decide) (by decide) (by decide) (by decide) (by decide) (by decide)),
    (h c _ (mem_uc main_arg8 (by decide))).trans (W6_bypass m ρ c main_arg8 (by decide) (by decide) (by decide) (by decide) (by decide) (by decide)),
    (h c _ (mem_uc main_arg9 (by decide))).trans (W6_bypass m ρ c main_arg9 (by decide) (by decide) (by decide) (by decide) (by decide) (by decide)),
    (h c _ (mem_uc main_arg10 (by decide))).trans (W6_bypass m ρ c main_arg10 (by decide) (by decide) (by decide) (by decide) (by decide) (by decide)),
    (h c _ (mem_uc main_arg11 (by decide))).trans (W6_bypass m ρ c main_arg11 (by decide) (by decide) (by decide) (by decide) (by decide) (by decide))⟩) (run_all m ρ)

end Cert.KernelIdeal.Hand

end
-- ==== Proof.RefValue.lean ====
/-
  The reference's result, read at an index, is the specification.

  Every operation after the normalization is read at an index, outermost first: a sum of two arrays is the sum of the
  elements, a maximum the maximum, a matrix product the sum over the contracted coordinate of the products of the
  entries, a bias vector broadcast to one row and then down the rows is the vector at the column, and the scalar zero
  broadcast to any shape is zero. What is left is the specification's nested sums over the same variables.
-/
import proofs.«164166_j37589553774758_2_alg».proof.Proof.RefRun
import proofs.«164166_j37589553774758_2_alg».proof.Proof.Spec
import Idealize.ShloMosaic.Lib.StackMember
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.RefRun Idealize.ShloMosaic Idealize.ShloMosaic.ValueIdx

/-- A row vector broadcast to one row and then down `a` rows, read at row `p` and column `c`: the vector at `c`. -/
theorem bias_apply {α : Type} {a b : Nat}
    (h1 : (⟨1, ![b]⟩ : Shape).BroadcastsInDim ⟨2, ![1, b]⟩ (![1] : Fin 1 → Fin (⟨2, ![1, b]⟩ : Shape).rank))
    (h2 : (⟨2, ![1, b]⟩ : Shape).BroadcastsInDim ⟨2, ![a, b]⟩ (![0, 1] : Fin 2 → Fin (⟨2, ![a, b]⟩ : Shape).rank))
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  have hc : b = 1 → c.val = 0 := fun hb => by have := c.isLt; omega
  refine (broadcastInDim_apply ![0, 1] h2 _ (ix2 p c) (ix2 (0 : Fin 1) c) fun ax => ?_).trans
    (broadcastInDim_apply ![1] h1 v (ix2 (0 : Fin 1) c) (ix1 c) fun ax => ?_)
  · match ax with
    | ⟨0, _⟩ => exact (if_pos rfl).symm
    | ⟨1, _⟩ =>
      show c.val = if b = 1 then 0 else c.val
      split
      · exact hc ‹_›
      · rfl
  · match ax with
    | ⟨0, _⟩ =>
      show c.val = if b = 1 then 0 else c.val
      split
      · exact hc ‹_›
      · rfl

/-- The product of a 8192×128 by a 128×256 matrix at row `i` and column `c`: the sum over the contracted coordinate. -/
theorem dot_S8192x128_S128x256_apply (l : FVec Ideal S8192x128 .f32) (r : FVec Ideal S128x256 .f32) (i : Fin 8192) (c : Fin 256) :
    Host.dotGeneral (F := Ideal) dot_S8192x128_S128x256_S8192x256_1_0_0_1_n_n none l r (ix2 i c) = ∑ d : Fin 128, l (ix2 i d) * r (ix2 d c) :=
  StackMember.dotGeneral_plain_apply none l r i c

/-- The product of a 8192×8192 by a 8192×256 matrix at row `i` and column `c`: the sum over the contracted coordinate. -/
theorem dot_S8192x8192_S8192x256_apply (l : FVec Ideal S8192x8192 .f32) (r : FVec Ideal S8192x256 .f32) (i : Fin 8192) (c : Fin 256) :
    Host.dotGeneral (F := Ideal) dot_S8192x8192_S8192x256_S8192x256_1_0_0_1_n_n none l r (ix2 i c) = ∑ d : Fin 8192, l (ix2 i d) * r (ix2 d c) :=
  StackMember.dotGeneral_plain_apply none l r i c

/-- The product of a 8192×256 by a 256×256 matrix at row `i` and column `c`: the sum over the contracted coordinate. -/
theorem dot_S8192x256_S256x256_apply (l : FVec Ideal S8192x256 .f32) (r : FVec Ideal S256x256 .f32) (i : Fin 8192) (c : Fin 256) :
    Host.dotGeneral (F := Ideal) dot_S8192x256_S256x256_S8192x256_1_0_0_1_n_n none l r (ix2 i c) = ∑ d : Fin 256, l (ix2 i d) * r (ix2 d c) :=
  StackMember.dotGeneral_plain_apply none l r i c

/-- The product of a 8192×256 by a 256×128 matrix at row `i` and column `c`: the sum over the contracted coordinate. -/
theorem dot_S8192x256_S256x128_apply (l : FVec Ideal S8192x256 .f32) (r : FVec Ideal S256x128 .f32) (i : Fin 8192) (c : Fin 128) :
    Host.dotGeneral (F := Ideal) dot_S8192x256_S256x128_S8192x128_1_0_0_1_n_n none l r (ix2 i c) = ∑ d : Fin 256, l (ix2 i d) * r (ix2 d c) :=
  StackMember.dotGeneral_plain_apply none l r i c

/-- The product of a 8192×128 by a 128×1 matrix at row `i` and column `c`: the sum over the contracted coordinate. -/
theorem dot_S8192x128_S128x1_apply (l : FVec Ideal S8192x128 .f32) (r : FVec Ideal S128x1 .f32) (i : Fin 8192) (c : Fin 1) :
    Host.dotGeneral (F := Ideal) dot_S8192x128_S128x1_S8192x1_1_0_0_1_n_n none l r (ix2 i c) = ∑ d : Fin 128, l (ix2 i d) * r (ix2 d c) :=
  StackMember.dotGeneral_plain_apply none l r i c

/-- The scalar zero broadcast to any shape reads zero everywhere. -/
theorem zero_apply {T : Shape} (h : S_.BroadcastsInDim T (![] : Fin 0 → Fin T.rank)) (j : T.Idx) :
    broadcastInDim T ![] h (constant (F := Ideal) S_ .f32 0x00000000#32) j = 0 := by
  rw [broadcastInDim_scalar_apply, constant_apply, Ideal.ofBits_zero_f32]

/-- The three bias vectors of the program, broadcast to one row and then down the 8192 rows, read at an index. -/
theorem bias256_apply (v : FVec Ideal S256 .f32) (p : Fin 8192) (c : Fin 256) :
    broadcastInDim S8192x256 ![0, 1] bcast_S1x256_S8192x256_0_1 (broadcastInDim S1x256 ![1] bcast_S256_S1x256_1 v) (ix2 p c)
      = v (ix1 c) :=
  bias_apply bcast_S256_S1x256_1 bcast_S1x256_S8192x256_0_1 v p c

theorem bias128_apply (v : FVec Ideal S128 .f32) (p : Fin 8192) (c : Fin 128) :
    broadcastInDim S8192x128 ![0, 1] bcast_S1x128_S8192x128_0_1 (broadcastInDim S1x128 ![1] bcast_S128_S1x128_1 v) (ix2 p c)
      = v (ix1 c) :=
  bias_apply bcast_S128_S1x128_1 bcast_S1x128_S8192x128_0_1 v p c

theorem bias1_apply (v : FVec Ideal S1 .f32) (p : Fin 8192) (c : Fin 1) :
    broadcastInDim S8192x1 ![0, 1] bcast_S1x1_S8192x1_0_1 (broadcastInDim S1x1 ![1] bcast_S1_S1x1_1 v) (ix2 p c)
      = v (ix1 c) :=
  bias_apply bcast_S1_S1x1_1 bcast_S1x1_S8192x1_0_1 v p c

/-- The scalar zero broadcast to the two hidden shapes reads zero everywhere. -/
theorem zero256_apply (p : Fin 8192) (c : Fin 256) :
    broadcastInDim S8192x256 ![] bcast_S_S8192x256 (constant (F := Ideal) S_ .f32 0x00000000#32) (ix2 p c) = 0 :=
  zero_apply bcast_S_S8192x256 (ix2 p c)

theorem zero128_apply (p : Fin 8192) (c : Fin 128) :
    broadcastInDim S8192x128 ![] bcast_S_S8192x128 (constant (F := Ideal) S_ .f32 0x00000000#32) (ix2 p c) = 0 :=
  zero_apply bcast_S_S8192x128 (ix2 p c)

/-- The network over normalized features `x`, read at node `i`: the specification over `x`'s entries. -/
theorem tail_apply (x : FVec Ideal S8192x128 .f32) (a1 : FVec Ideal S8192x8192 .f32) (a4 : FVec Ideal S128x256 .f32) (a5 : FVec Ideal S256 .f32) (a6 : FVec Ideal S256x256 .f32) (a7 : FVec Ideal S256 .f32) (a8 : FVec Ideal S256x128 .f32) (a9 : FVec Ideal S128 .f32) (a10 : FVec Ideal S128x1 .f32) (a11 : FVec Ideal S1 .f32) (i : Fin 8192) (z : Fin 1) :
    tail x a1 a4 a5 a6 a7 a8 a9 a10 a11 (ix2 i z)
      = Cert.Spec.q a1 (fun i d => x (ix2 i d)) a4 a5 a6 a7 a8 a9 a10 a11 i := by
  obtain rfl : z = 0 := Subsingleton.elim _ _
  -- the sums, the maxima and the five products, outermost first; both sides are then the same nested sums but for
  -- the broadcast biases and zeros
  simp only [tail, Cert.Spec.q, Cert.Spec.dense, Cert.Spec.gcn, Cert.Spec.proj, addf_apply, maximumf_apply,
    dot_S8192x128_S128x256_apply, dot_S8192x8192_S8192x256_apply, dot_S8192x256_S256x256_apply,
    dot_S8192x256_S256x128_apply, dot_S8192x128_S128x1_apply]
  -- the broadcasts, matched by unification under the sums' binders
  simp -index only [bias256_apply, bias128_apply, bias1_apply, zero256_apply, zero128_apply]

/-- The reference's result at node `i` is the specification over the normalized features. -/
theorem refOut_apply (a0 : FVec Ideal S8192x128 .f32) (a1 : FVec Ideal S8192x8192 .f32) (a2 : FVec Ideal S128 .f32) (a3 : FVec Ideal S128 .f32) (a4 : FVec Ideal S128x256 .f32) (a5 : FVec Ideal S256 .f32) (a6 : FVec Ideal S256x256 .f32) (a7 : FVec Ideal S256 .f32) (a8 : FVec Ideal S256x128 .f32) (a9 : FVec Ideal S128 .f32) (a10 : FVec Ideal S128x1 .f32) (a11 : FVec Ideal S1 .f32) (i : Fin 8192) (z : Fin 1) :
    refOut a0 a1 a2 a3 a4 a5 a6 a7 a8 a9 a10 a11 (ix2 i z)
      = Cert.Spec.q a1 (fun i d => bn a0 a2 a3 (ix2 i d)) a4 a5 a6 a7 a8 a9 a10 a11 i :=
  (congrFun (refOut_eq a0 a1 a2 a3 a4 a5 a6 a7 a8 a9 a10 a11) (ix2 i z)).trans
    (tail_apply (bn a0 a2 a3) a1 a4 a5 a6 a7 a8 a9 a10 a11 i z)

end Cert.ReferenceIdeal.RefValue

end
-- ==== Proof.lean ====
/-
  The certificate of a two-layer graph-convolution network with a per-node two-layer perceptron, computed by two tiled
  kernels, against its plain reference.

  Both programs first normalize the node features column by column (the same host operations in both, never opened here).
  The reference then computes, for each layer, `relu (A · (h · W) + b)` with whole matrix products. Each kernel instead
  walks a 4 × 8 grid: for a block of 2048 rows of `A` it adds, tile by tile of 1024 columns, the product of the tile with
  the projected rows of `h` into an accumulator that starts from zero, and after the eighth tile adds the bias and
  clamps at zero; the second kernel continues with the perceptron on the same rows. Over the extended reals a sum over
  8192 columns is the sum of its eight tiles' sums, whatever the entries are, so the two programs agree entry by entry
  (no finiteness of the inputs is used; formats' changes are the identity there).

  The three frames: each kernel program's run is assembled from its host stretches and its two regions, every region's
  grid points run symbolically in their three kinds (first, middle, last step of a group of eight) with the accumulator
  tracked between points; the reference is a host program run operation by operation. No rewrite was applied in
  idealizing the kernel, so the idealization claim is trivial.
-/
import proofs.«164166_j37589553774758_2_alg».proof.Defs
import proofs.«164166_j37589553774758_2_alg».proof.Proof.Gen.Kernel
import proofs.«164166_j37589553774758_2_alg».proof.Proof.Gen.KernelIdeal
import proofs.«164166_j37589553774758_2_alg».proof.Proof.Gen.ReferenceIdeal
import proofs.«164166_j37589553774758_2_alg».proof.Proof.Gen.Pre_finite_inputs
import proofs.«164166_j37589553774758_2_alg».proof.Proof.KB.MainRun
import proofs.«164166_j37589553774758_2_alg».proof.Proof.KI.MainRun
import proofs.«164166_j37589553774758_2_alg».proof.Proof.KI.Value
import proofs.«164166_j37589553774758_2_alg».proof.Proof.RefRun
import proofs.«164166_j37589553774758_2_alg».proof.Proof.RefValue
import Idealize.ShloMosaic.Adequacy
import Idealize.ShloMosaic.Init

noncomputable section

namespace Cert.Proof

open Idealize.ShloMosaic Idealize.SL.Sem Idealize.ShloMosaic.ValueIdx

/-- The kernel program as printed runs, faults nowhere and leaves its arguments unchanged. -/
theorem frame_k : @Cert.frame_Kernel Cert.Kernel.Gen.facts Cert.Pre_finite_inputs.Gen.facts :=
  fun m ρ _ => Cert.Kernel.Hand.frame m ρ

/-- So does its idealization. -/
theorem frame_ki : @Cert.frame_KernelIdeal Cert.KernelIdeal.Gen.facts Cert.Pre_finite_inputs.Gen.facts :=
  fun m ρ _ => Cert.KernelIdeal.Hand.frame m ρ

/-- Over the extended reals the idealized kernel and the idealized reference, run from memories that agree on the
    arguments, both end with the network's values in their result arrays: the kernel's by the tile-by-tile accumulation,
    the reference's by reading its operations at an index. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.qarr m c, Cert.KernelIdeal.Hand.kernel_run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10, e11⟩ := hagree c
  rw [e0, e1, e2, e3, e4, e5, e6, e7, e8, e9, e10, e11]
  funext idx
  rw [eq_ix2 idx]
  exact Cert.ReferenceIdeal.RefValue.refOut_apply _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame, trivial, algebraic⟩

end Cert.Proof

end
